-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S384x128 : S_.BroadcastsInDim S384x128 (![] : Fin 0 → Fin S384x128.rank)
  reducesTo_S384x128_S_d0_1 : S384x128.ReducesTo [0, 1] S_

variable [Facts]

def fn_part2 {F : FTy → Type} [FloatOps F] (main_arg8 : FVec F S384x128 .f32) (main_arg9 : FVec F S128 .f32) (main_v33 : IVec S_ 1) : IVec S_ 1 :=
  let main_v34 : FVec F S384x128 .f32 := Host.absf main_arg8
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S256x128 .f32) (main_arg7 : FVec F S128 .f32) (main_arg8 : FVec F S384x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S256x128 .f32) (main_arg7 : FVec F S128 .f32) (main_arg8 : FVec F S384x128 .f32) (main_arg9 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S4000x128 : Shape := ⟨2, ![4000, 128]⟩
abbrev S1700000x128 : Shape := ⟨2, ![1700000, 128]⟩
abbrev S100000x256 : Shape := ⟨2, ![100000, 256]⟩
abbrev S4000x256 : Shape := ⟨2, ![4000, 256]⟩
abbrev S100000x384 : Shape := ⟨2, ![100000, 384]⟩
abbrev S4000x384 : Shape := ⟨2, ![4000, 384]⟩

abbrev nBuf : Space → Nat
  | .hbm => 128
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S384x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000, .i32⟩
  | .hbm, ⟨15, _⟩ => ⟨S1700000, .i32⟩
  | .hbm, ⟨16, _⟩ => ⟨S1700000, .i32⟩
  | .hbm, ⟨17, _⟩ => ⟨S_, .f32⟩
  | .hbm, ⟨18, _⟩ => ⟨S1700000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S100000x128, .f32⟩
  | .hbm, ⟨54, _⟩ => ⟨S1x128, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S1700000x1, .f32⟩
  | .hbm, ⟨66, _⟩ => ⟨S1700000x128, .f32⟩
  | .hbm, ⟨67, _⟩ => ⟨S1700000x128, .f32⟩
  | .hbm, ⟨68, _⟩ => ⟨S_, .f32⟩
  | .hbm, ⟨69, _⟩ => ⟨S100000x128, .f32⟩
  | .hbm, ⟨70, _⟩ => ⟨S1700000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S100000x128, .f32⟩
  | .hbm, ⟨77, _⟩ => ⟨S100000x128, .f32⟩
  | .hbm, ⟨78, _⟩ => ⟨S100000x256, .f32⟩
  | .hbm, ⟨79, _⟩ => ⟨S1x128, .f32⟩
  | .hbm, ⟨80, _⟩ => ⟨S100000x128, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .f32⟩
  | .hbm, ⟨90, _⟩ => ⟨S1700000x1, .f32⟩
  | .hbm, ⟨91, _⟩ => ⟨S1700000x128, .f32⟩
  | .hbm, ⟨92, _⟩ => ⟨S1700000x128, .f32⟩
  | .hbm, ⟨93, _⟩ => ⟨S_, .f32⟩
  | .hbm, ⟨94, _⟩ => ⟨S100000x128, .f32⟩
  | .hbm, ⟨95, _⟩ => ⟨S1700000x1, .i32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S100000x128, .f32⟩
  | .hbm, ⟨100, _⟩ => ⟨S_, .f32⟩
  | .hbm, ⟨101, _⟩ => ⟨S100000x128, .f32⟩
  | .hbm, ⟨102, _⟩ => ⟨S100000x128, .f32⟩
  | .hbm, ⟨103, _⟩ => ⟨S100000x384, .f32⟩
  | .hbm, ⟨104, _⟩ => ⟨S1x128, .f32⟩
  | .hbm, ⟨105, _⟩ => ⟨S100000x128, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x128, .f32⟩
  | .hbm, ⟨115, _⟩ => ⟨S1700000x1, .f32⟩
  | .hbm, ⟨116, _⟩ => ⟨S1700000x128, .f32⟩
  | .hbm, ⟨117, _⟩ => ⟨S1700000x128, .f32⟩
  | .hbm, ⟨118, _⟩ => ⟨S_, .f32⟩
  | .hbm, ⟨119, _⟩ => ⟨S100000x128, .f32⟩
  | .hbm, ⟨120, _⟩ => ⟨S1700000x1, .i32⟩
  | .hbm, ⟨121, _⟩ => ⟨S100000x128, .f32⟩
  | .hbm, ⟨122, _⟩ => ⟨S1x128, .f32⟩
  | .hbm, ⟨123, _⟩ => ⟨S100000x128, .f32⟩
  | .hbm, ⟨124, _⟩ => ⟨S100000x128, .f32⟩
  | .hbm, ⟨125, _⟩ => ⟨S_, .f32⟩
  | .hbm, ⟨126, _⟩ => ⟨S100000x128, .f32⟩
  | .hbm, ⟨127, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S1x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S128x128, .f32⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | .local _ .vmem, ⟨12, _⟩ => ⟨S4000x256, .f32⟩
  | .local _ .vmem, ⟨13, _⟩ => ⟨S4000x256, .f32⟩
  | .local _ .vmem, ⟨14, _⟩ => ⟨S256x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x384, .f32⟩
  | .local _ .vmem, ⟨19, _⟩ => ⟨S4000x384, .f32⟩
  | .local _ .vmem, ⟨20, _⟩ => ⟨S384x128, .f32⟩
  | .local _ .vmem, ⟨21, _⟩ => ⟨S1x128, .f32⟩
  | .local _ .vmem, ⟨22, _⟩ => ⟨S4000x128, .f32⟩
  | .local _ .vmem, ⟨23, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_c_15 : Ref sig .tc := ⟨.hbm, 106, rfl⟩
abbrev main_v77 : Ref sig .tc := ⟨.hbm, 107, rfl⟩
abbrev main_v78 : Ref sig .tc := ⟨.hbm, 108, rfl⟩
abbrev main_c_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_18 : Ref sig .tc := ⟨.hbm, 125, rfl⟩
abbrev main_v93 : Ref sig .tc := ⟨.hbm, 126, rfl⟩
abbrev main_v94 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x384 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S384x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S128 : S_.BroadcastsInDim S128 (![] : Fin 0 → Fin S128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  concatenates_S100000x128_S100000x128_S100000x128_S100000x384_d1 : Shape.Concatenates [S100000x128, S100000x128, S100000x128] S100000x384 1
  inb_S4000x384_S4000x384_0_0 : ∀ a, (![0, 0] : Fin 2 → Nat) a + S4000x384.size a ≤ S4000x384.size a
  h_S4000x384 : 0 < S4000x384.numel
  shapeCasts_S4000x384_S4000x384 : S4000x384.ShapeCasts S4000x384
  inb_S384x128_S384x128_0_0 : ∀ a, (![0, 0] : Fin 2 → Nat) a + S384x128.size a ≤ S384x128.size a
  h_S384x128 : 0 < S384x128.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x256_S256x128_S4000x128_1_0_0_1_n_n_wf : DotDims.WF S4000x256 S256x128 S4000x128 [1] [0] [0] [1] [] []
  dot_S4000x384_S384x128_S4000x128_1_0_0_1_n_n_wf : DotDims.WF S4000x384 S384x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S100000x256.size a
  hwx2_0 : ∀ i : grid2.Coords, EltTy.bits .f32 = 32 ∨ (Rect.block (s := S100000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x384.size a ≤ S100000x384.size a
  hwx3_0 : ∀ i : grid3.Coords, EltTy.bits .f32 = 32 ∨ (Rect.block (s := S100000x384) S4000x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x128.size a ≤ S384x128.size a
  hwx3_1 : ∀ i : grid3.Coords, EltTy.bits .f32 = 32 ∨ (Rect.block (s := S384x128) S384x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x384_S384x128_S4000x128_1_0_0_1_n_n : DotDims S4000x384 S384x128 S4000x128 where
  lhsContracting := [1]
  rhsContracting := [0]
  lhsNonContracting := [0]
  rhsNonContracting := [1]
  lhsBatch := []
  rhsBatch := []
  wf := dot_S4000x384_S384x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v53) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v74) S4000x384.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S384x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v76) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S256x128 : Shape := ⟨2, ![256, 128]⟩
abbrev S384x128 : Shape := ⟨2, ![384, 128]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S100000 : Shape := ⟨1, ![100000]⟩
abbrev S1700000 : Shape := ⟨1, ![1700000]⟩
abbrev S1700000x1 : Shape := ⟨2, ![1700000, 1]⟩
abbrev S1700000x128 : Shape := ⟨2, ![1700000, 128]⟩
abbrev S100000x256 : Shape := ⟨2, ![100000, 256]⟩
abbrev S100000x384 : Shape := ⟨2, ![100000, 384]⟩

abbrev nBuf : Space → Nat
  | .hbm => 200
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S256x128, .f32⟩
  | 7 => ⟨S128, .f32⟩
  | 8 => ⟨S384x128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S100000x128, .f32⟩
  | 22 => ⟨S100000, .i32⟩
  | 23 => ⟨S1700000, .i32⟩
  | 24 => ⟨S1700000, .i32⟩
  | 25 => ⟨S_, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x128, .f32⟩
  | 67 => ⟨S1700000x1, .f32⟩
  | 68 => ⟨S1700000x128, .f32⟩
  | 69 => ⟨S1700000x128, .f32⟩
  | 70 => ⟨S_, .f32⟩
  | 71 => ⟨S100000x128, .f32⟩
  | 72 => ⟨S1700000x1, .i32⟩
  | 73 => ⟨S100000x128, .f32⟩
  | 74 => ⟨S1x128, .f32⟩
  | 75 => ⟨S100000x128, .f32⟩
  | 76 => ⟨S100000x128, .f32⟩
  | 77 => ⟨S_, .f32⟩
  | 78 => ⟨S100000x128, .f32⟩
  | 79 => ⟨S100000x128, .f32⟩
  | 80 => ⟨S100000x256, .f32⟩
  | 81 => ⟨S100000x128, .f32⟩
  | 82 => ⟨S100000, .i32⟩
  | 83 => ⟨S1700000, .i32⟩
  | 84 => ⟨S1700000, .i32⟩
  | 85 => ⟨S_, .f32⟩
  | 86 => ⟨S1700000, .f32⟩
  | 87 => ⟨S_, .f32⟩
  | 88 => ⟨S100000, .f32⟩
  | 89 => ⟨S1700000x1, .i32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S_, .i32⟩
  | 109 => ⟨S1700000, .i32⟩
  | 110 => ⟨S1700000, .i1⟩
  | 111 => ⟨S_, .i32⟩
  | 112 => ⟨S1700000, .i32⟩
  | 113 => ⟨S1700000, .i32⟩
  | 114 => ⟨S1700000, .i32⟩
  | 115 => ⟨S1700000x1, .i32⟩
  | 116 => ⟨S1700000, .f32⟩
  | 117 => ⟨S1700000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x1, .f32⟩
  | _ => ⟨S100000x128, .f32⟩

abbrev hbmTy0_1 (i : Nat) : BufTy := match i % 128 with
  | 0 => ⟨S1700000x128, .f32⟩
  | 1 => ⟨S1700000x128, .f32⟩
  | 2 => ⟨S_, .f32⟩
  | 3 => ⟨S100000x128, .f32⟩
  | 4 => ⟨S1700000x1, .i32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .f32⟩
  | 12 => ⟨S100000x384, .f32⟩
  | 13 => ⟨S100000x128, .f32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_call1_v0 : Ref sig .tc := ⟨.hbm, 36, rfl⟩
abbrev main_call1_v1 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_8 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_call2_cst : Ref sig .tc := ⟨.hbm, 77, rfl⟩
abbrev main_call2_v0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_9 : Ref sig .tc := ⟨.hbm, 85, rfl⟩
abbrev main_v58 : Ref sig .tc := ⟨.hbm, 86, rfl⟩
abbrev main_cst_10 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_11 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_call3_v0 : Ref sig .tc := ⟨.hbm, 96, rfl⟩
abbrev main_call3_v1 : Ref sig .tc := ⟨.hbm, 97, rfl⟩
abbrev main_v65 : Ref sig .tc := ⟨.hbm, 98, rfl⟩
abbrev main_c_13 : Ref sig .tc := ⟨.hbm, 99, rfl⟩
abbrev main_v66 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_15 : Ref sig .tc := ⟨.hbm, 108, rfl⟩
abbrev main_v73 : Ref sig .tc := ⟨.hbm, 109, rfl⟩
abbrev main_v74 : Ref sig .tc := ⟨.hbm, 110, rfl⟩
abbrev main_c_16 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_c_17 : Ref sig .tc := ⟨.hbm, 118, rfl⟩
abbrev main_v81 : Ref sig .tc := ⟨.hbm, 119, rfl⟩
abbrev main_v82 : Ref sig .tc := ⟨.hbm, 120, rfl⟩
abbrev main_c_18 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_19 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_call4_cst : Ref sig .tc := ⟨.hbm, 137, rfl⟩
abbrev main_call4_v0 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_cst_20 : Ref sig .tc := ⟨.hbm, 145, rfl⟩
abbrev main_v103 : Ref sig .tc := ⟨.hbm, 146, rfl⟩
abbrev main_cst_21 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_22 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_23 : Ref sig .tc := ⟨.hbm, 155, rfl⟩
abbrev main_call5_v0 : Ref sig .tc := ⟨.hbm, 156, rfl⟩
abbrev main_call5_v1 : Ref sig .tc := ⟨.hbm, 157, rfl⟩
abbrev main_v110 : Ref sig .tc := ⟨.hbm, 158, rfl⟩
abbrev main_c_24 : Ref sig .tc := ⟨.hbm, 159, rfl⟩
abbrev main_v111 : Ref sig .tc := ⟨.hbm, 160, rfl⟩
abbrev main_v112 : Ref sig .tc := ⟨.hbm, 161, rfl⟩
abbrev main_c_25 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_26 : Ref sig .tc := ⟨.hbm, 168, rfl⟩
abbrev main_v118 : Ref sig .tc := ⟨.hbm, 169, rfl⟩
abbrev main_v119 : Ref sig .tc := ⟨.hbm, 170, rfl⟩
abbrev main_c_27 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_c_28 : Ref sig .tc := ⟨.hbm, 178, rfl⟩
abbrev main_v126 : Ref sig .tc := ⟨.hbm, 179, rfl⟩
abbrev main_v127 : Ref sig .tc := ⟨.hbm, 180, rfl⟩
abbrev main_c_29 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_cst_30 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_call6_cst : Ref sig .tc := ⟨.hbm, 197, rfl⟩
abbrev main_call6_v0 : Ref sig .tc := ⟨.hbm, 198, rfl⟩
abbrev main_v142 : Ref sig .tc := ⟨.hbm, 199, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  concatenates_S100000x128_S100000x128_S100000x256_d1 : Shape.Concatenates [S100000x128, S100000x128] S100000x256 1
  concatenates_S100000x128_S100000x128_S100000x128_S100000x384_d1 : Shape.Concatenates [S100000x128, S100000x128, S100000x128] S100000x384 1
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x256_S256x128_S100000x128_1_0_0_1_n_n_wf : DotDims.WF S100000x256 S256x128 S100000x128 [1] [0] [0] [1] [] []
  dot_S100000x384_S384x128_S100000x128_1_0_0_1_n_n_wf : DotDims.WF S100000x384 S384x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.KB.Region0.lean ====
import proofs.«153277_j13786845020601_1_alg».proof.Proof.Gen.Kernel.Launch
import proofs.«153277_j13786845020601_1_alg».proof.Proof.Gen.Kernel.Skeleton
import proofs.«153277_j13786845020601_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: one dense layer, row block by row block

The region walks 25 row blocks of 4000 rows. At each block it reads the block `x` of the left operand
(`S4000x128`), the whole weight `w` (`S128x128`) and the bias row `b` (`S1x128`), and writes `max (x·w + b, 0)`
(the bias repeated down the rows) over the whole output block (`S4000x128`). This file states, for ANY contents `V`
of the core's buffers at the region's entry, what each window's staging buffer holds before and after the body
at every block, and proves the body meets that description. -/

-- membership of an index in a whole rectangle of 4000 rows is decided coordinate by coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows show -/

/-- The block window `w` shows at grid point `t`: the entries of its array, as `V` has it, that the window's
    index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the block of point `t` when the body runs there, for any proof data
    over `V`'s array whose body leaves that buffer alone. At a point where no copy was issued the block index is the
    previous point's, so the buffer still holds the right block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer: its index map is constant, so it is copied in once, at the first point, and every
    later point finds the same (whole) block still there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer: constant index map again, copied in at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each one is its whole buffer -/

abbrev r0_0 : Rect S4000x128 := Rect.unit (s := S4000x128) ![0, 0] S4000x128.size inb_S4000x128_S4000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S4000x128 := Rect.unit (s := S4000x128) ![0, 0] S4000x128.size inb_S4000x128_S4000x128_0_0

/-! ## The output block after the body -/

/-- What the output staging buffer holds after the body, as a function of the three input blocks: the single
    store's payload, `max (x·w + b, 0)`, laid over the whole block. -/
def out0_3 (x0 : Vec F S4000x128 .f32) (x1 : Vec F S128x128 .f32) (x2 : Vec F S1x128 .f32) : Vec F S4000x128 .f32 :=
  View.canon [⟨r0_3, k0_pay1 (View.ld x0 r0_0) (View.ld x1 r0_1) (View.ld x2 r0_2)⟩]

/-- The one stored rectangle is the whole block, so every index of the block lies in it. -/
theorem cover0_3 (p0 : Vec F S4000x128 .f32) (y : S4000x128.Idx) :
    ∃ pc ∈ ([⟨r0_3, p0⟩] : List (View.Piece (Elt F) S4000x128 .f32)), y ∈ pc.1.set :=
  View.cover_of_tiled [⟨r0_3, p0⟩] S4000x128.size (by rfl) y

/-! ## The body's triple -/

set_option maxHeartbeats 1000000 in
/-- The body, given whole staging buffers holding `x0`, `x1`, `x2` and an output buffer holding anything, ends with
    the inputs unchanged and the output buffer at `out0_3 x0 x1 x2`. It reads the output buffer once before
    storing; the value read is never used. -/
theorem sound_kernel0 (c : Dev nD) (E : Set ℕ) (i : grid0.Coords)
    (arg1 : Memref sig .tc .vmem S4000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data of the region's pipeline -/

/-- On core `c`: the arrays are `V`'s; after the body at point `t` each input buffer still shows its block and the
    output buffer shows `out0_3` of the three input blocks; the invariant keeps the rest of the core's state
    untouched; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's staging buffer shows its block at every point, copied in there or left from before. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is handed at point `t`: the invariant, the owed tokens, and the four staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers show their blocks, so the body's triple applies; the invariant
    and the owed tokens are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.KB.Region1.lean ====
import proofs.«153277_j13786845020601_1_alg».proof.Proof.Gen.Kernel.Launch
import proofs.«153277_j13786845020601_1_alg».proof.Proof.Gen.Kernel.Skeleton
import proofs.«153277_j13786845020601_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: one dense layer, row block by row block

The region walks 25 row blocks of 4000 rows. At each block it reads the block `x` of the left operand
(`S4000x128`), the whole weight `w` (`S128x128`) and the bias row `b` (`S1x128`), and writes `x·w + b`
(the bias repeated down the rows) over the whole output block (`S4000x128`). This file states, for ANY contents `V`
of the core's buffers at the region's entry, what each window's staging buffer holds before and after the body
at every block, and proves the body meets that description. -/

-- membership of an index in a whole rectangle of 4000 rows is decided coordinate by coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows show -/

/-- The block window `w` shows at grid point `t`: the entries of its array, as `V` has it, that the window's
    index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds the block of point `t` when the body runs there, for any proof data
    over `V`'s array whose body leaves that buffer alone. At a point where no copy was issued the block index is the
    previous point's, so the buffer still holds the right block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer: its index map is constant, so it is copied in once, at the first point, and every
    later point finds the same (whole) block still there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer: constant index map again, copied in at the first point only. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each one is its whole buffer -/

abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S4000x128 := Rect.unit (s := S4000x128) ![0, 0] S4000x128.size inb_S4000x128_S4000x128_0_0

/-! ## The output block after the body -/

/-- What the output staging buffer holds after the body, as a function of the three input blocks: the single
    store's payload, `x·w + b`, laid over the whole block. -/
def out1_3 (x0 : Vec F S4000x128 .f32) (x1 : Vec F S128x128 .f32) (x2 : Vec F S1x128 .f32) : Vec F S4000x128 .f32 :=
  View.canon [⟨r1_3, k1_pay1 (View.ld x0 r1_0) (View.ld x1 r1_1) (View.ld x2 r1_2)⟩]

/-- The one stored rectangle is the whole block, so every index of the block lies in it. -/
theorem cover1_3 (p0 : Vec F S4000x128 .f32) (y : S4000x128.Idx) :
    ∃ pc ∈ ([⟨r1_3, p0⟩] : List (View.Piece (Elt F) S4000x128 .f32)), y ∈ pc.1.set :=
  View.cover_of_tiled [⟨r1_3, p0⟩] S4000x128.size (by rfl) y

/-! ## The body's triple -/

set_option maxHeartbeats 1000000 in
/-- The body, given whole staging buffers holding `x0`, `x1`, `x2` and an output buffer holding anything, ends with
    the inputs unchanged and the output buffer at `out1_3 x0 x1 x2`. It reads the output buffer once before
    storing; the value read is never used. -/
theorem sound_kernel1 (c : Dev nD) (E : Set ℕ) (i : grid1.Coords)
    (arg1 : Memref sig .tc .vmem S4000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data of the region's pipeline -/

/-- On core `c`: the arrays are `V`'s; after the body at point `t` each input buffer still shows its block and the
    output buffer shows `out1_3` of the three input blocks; the invariant keeps the rest of the core's state
    untouched; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's staging buffer shows its block at every point, copied in there or left from before. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

/-- What the body is handed at point `t`: the invariant, the owed tokens, and the four staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers show their blocks, so the body's triple applies; the invariant
    and the owed tokens are carried across unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.KB.Region2.lean ====
import proofs.«153277_j13786845020601_1_alg».proof.Proof.Gen.Kernel.Launch
import proofs.«153277_j13786845020601_1_alg».proof.Proof.Gen.Kernel.Skeleton
import proofs.«153277_j13786845020601_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: one dense layer, row block by row block

The region walks 25 row blocks of 4000 rows. At each block it reads the block `x` of the left operand
(`S4000x256`), the whole weight `w` (`S256x128`) and the bias row `b` (`S1x128`), and writes `x·w + b`
(the bias repeated down the rows) over the whole output block (`S4000x128`). This file states, for ANY contents `V`
of the core's buffers at the region's entry, what each window's staging buffer holds before and after the body
at every block, and proves the body meets that description. -/

-- membership of an index in a whole rectangle of 4000 rows is decided coordinate by coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows show -/

/-- The block window `w` shows at grid point `t`: the entries of its array, as `V` has it, that the window's
    index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the block of point `t` when the body runs there, for any proof data
    over `V`'s array whose body leaves that buffer alone. At a point where no copy was issued the block index is the
    previous point's, so the buffer still holds the right block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's staging buffer: its index map is constant, so it is copied in once, at the first point, and every
    later point finds the same (whole) block still there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer: constant index map again, copied in at the first point only. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each one is its whole buffer -/

abbrev r2_0 : Rect S4000x256 := Rect.unit (s := S4000x256) ![0, 0] S4000x256.size inb_S4000x256_S4000x256_0_0
abbrev r2_1 : Rect S256x128 := Rect.unit (s := S256x128) ![0, 0] S256x128.size inb_S256x128_S256x128_0_0
abbrev r2_2 : Rect S1x128 := Rect.unit (s := S1x128) ![0, 0] S1x128.size inb_S1x128_S1x128_0_0
abbrev r2_3 : Rect S4000x128 := Rect.unit (s := S4000x128) ![0, 0] S4000x128.size inb_S4000x128_S4000x128_0_0

/-! ## The output block after the body -/

/-- What the output staging buffer holds after the body, as a function of the three input blocks: the single
    store's payload, `x·w + b`, laid over the whole block. -/
def out2_3 (x0 : Vec F S4000x256 .f32) (x1 : Vec F S256x128 .f32) (x2 : Vec F S1x128 .f32) : Vec F S4000x128 .f32 :=
  View.canon [⟨r2_3, k2_pay1 (View.ld x0 r2_0) (View.ld x1 r2_1) (View.ld x2 r2_2)⟩]

/-- The one stored rectangle is the whole block, so every index of the block lies in it. -/
theorem cover2_3 (p0 : Vec F S4000x128 .f32) (y : S4000x128.Idx) :
    ∃ pc ∈ ([⟨r2_3, p0⟩] : List (View.Piece (Elt F) S4000x128 .f32)), y ∈ pc.1.set :=
  View.cover_of_tiled [⟨r2_3, p0⟩] S4000x128.size (by rfl) y

/-! ## The body's triple -/

set_option maxHeartbeats 1000000 in
/-- The body, given whole staging buffers holding `x0`, `x1`, `x2` and an output buffer holding anything, ends with
    the inputs unchanged and the output buffer at `out2_3 x0 x1 x2`. It reads the output buffer once before
    storing; the value read is never used. -/
theorem sound_kernel2 (c : Dev nD) (E : Set ℕ) (i : grid2.Coords)
    (arg1 : Memref sig .tc .vmem S4000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data of the region's pipeline -/

/-- On core `c`: the arrays are `V`'s; after the body at point `t` each input buffer still shows its block and the
    output buffer shows `out2_3` of the three input blocks; the invariant keeps the rest of the core's state
    untouched; nothing is owed; every share is whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's staging buffer shows its block at every point, copied in there or left from before. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is handed at point `t`: the invariant, the owed tokens, and the four staging buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three input buffers show their blocks, so the body's triple applies; the invariant
    and the owed tokens are carried across unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.KB.Region3.lean ====
import proofs.«153277_j13786845020601_1_alg».proof.Proof.Gen.Kernel.Launch
import proofs.«153277_j13786845020601_1_alg».proof.Proof.Gen.Kernel.Skeleton
import proofs.«153277_j13786845020601_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: one dense layer, row block by row block

The region walks 25 row blocks of 4000 rows. At each block it reads the block `x` of the left operand
(`S4000x384`), the whole weight `w` (`S384x128`) and the bias row `b` (`S1x128`), and writes `x·w + b`
(the bias repeated down the rows) over the whole output block (`S4000x128`). This file states, for ANY contents `V`
of the core's buffers at the region's entry, what each window's staging buffer holds before and after the body
at every block, and proves the body meets that description. -/

-- membership of an index in a whole rectangle of 4000 rows is decided coordinate by coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows show -/

/-- The block window `w` shows at grid point `t`: the entries of its array, as `V` has it, that the window's
    index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds the block of point `t` when the body runs there, for any proof data
    over `V`'s array whose body leaves that buffer alone. At a point where no copy was issued the block index is the
    previous point's, so the buffer still holds the right block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight's staging buffer: its index map is constant, so it is copied in once, at the first point, and every
    later point finds the same (whole) block still there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer: constant index map again, copied in at the first point only. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each one is its whole buffer -/

abbrev r3_0 : Rect S4000x384 := Rect.unit (s := S4000x384) ![0, 0] S4000x384.size inb_S4000x384_S4000x384_0_0
abbrev r3_1 : Rect S384x128 := Rect.unit (s := S384x128) ![0, 0] S384x128.size inb_S384x128_S384x128_0_0
abbrev r3_2 : Rect S1x128 := Rect.unit (s := S1x128) ![0, 0] S1x128.size inb_S1x128_S1x128_0_0
abbrev r3_3 : Rect S4000x128 := Rect.unit (s := S4000x128) ![0, 0] S4000x128.size inb_S4000x128_S4000x128_0_0

/-! ## The output block after the body -/

/-- What the output staging buffer holds after the body, as a function of the three input blocks: the single
    store's payload, `x·w + b`, laid over the whole block. -/
def out3_3 (x0 : Vec F S4000x384 .f32) (x1 : Vec F S384x128 .f32) (x2 : Vec F S1x128 .f32) : Vec F S4000x128 .f32 :=
  View.canon [⟨r3_3, k3_pay1 (View.ld x0 r3_0) (View.ld x1 r3_1) (View.ld x2 r3_2)⟩]

/-- The one stored rectangle is the whole block, so every index of the block lies in it. -/
theorem cover3_3 (p0 : Vec F S4000x128 .f32) (y : S4000x128.Idx) :
    ∃ pc ∈ ([⟨r3_3, p0⟩] : List (View.Piece (Elt F) S4000x128 .f32)), y ∈ pc.1.set :=
  View.cover_of_tiled [⟨r3_3, p0⟩] S4000x128.size (by rfl) y

/-! ## The body's triple -/

set_option maxHeartbeats 1000000 in
/-- The body, given whole staging buffers holding `x0`, `x1`, `x2` and an output buffer holding anything, ends with
    the inputs unchanged and the output buffer at `out3_3 x0 x1 x2`. It reads the output buffer once before
    storing; the value read is never used. -/
theorem sound_kernel3 (c : Dev nD) (E : Set ℕ) (i : grid3.Coords)
    (arg1 : Memref sig .tc .vmem S4000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The proof data of the region's pipeline -/

/-- On core `c`: the arrays are `V`'s; after the body at point `t` each input buffer still shows its block and the
    output buffer shows `out3_3` of the three input blocks; the invariant keeps the rest of the core's state
    untouched; nothing is owed; every share is whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's staging buffer shows its block at every point, copied in there or left from before. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic point -/

/-- What the body is handed at point `t`: the invariant, the owed tokens, and the four staging buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the three input buffers show their blocks, so the body's triple applies; the invariant
    and the owed tokens are carried across unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.KB.Fold.lean ====
import proofs.«153277_j13786845020601_1_alg».proof.Proof.KB.Region0
import proofs.«153277_j13786845020601_1_alg».proof.Proof.KB.Region1
import proofs.«153277_j13786845020601_1_alg».proof.Proof.KB.Region2
import proofs.«153277_j13786845020601_1_alg».proof.Proof.KB.Region3
import proofs.«153277_j13786845020601_1_alg».proof.Proof.Gen.Kernel.Regions

/-! # The buffers' contents between the items of the program

The program is eleven items in a row: three stretches of host operations, then four dense layers (the regions), each
followed by one more stretch of host operations. This file names the contents of a core's buffers at the twelve
boundaries, `W0` (the launch memory) to `W11` (the end), as a fold:

* a stretch of host operations takes the contents `W` to `StableHlo.after ops W`: every operation rewrites the
  buffers it writes and leaves the others;
* a region takes `W` to `W` with its four arrays replaced by what its write-backs leave: the three input arrays
  as they were, the output array with every row block written.

Then what each step leaves alone: a stretch leaves every buffer that none of its operations writes; a region leaves
every buffer that is not one of its four arrays, and its three input arrays too. Followed back through all eleven
steps, each of the ten argument buffers ends holding what it held at launch. -/

-- deciding that a reference is none of a list of up to 24 others, among 152, recurses past the default depth
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the memory the program is launched on
variable (m : (ℓ : Loc nD τ sig) → Buf (Elt F) ℓ)

/-! ## The first three stretches of host operations -/

/-- Core `c`'s buffers at launch. -/
abbrev W0 : Dev nD → Valuation τ sig (Elt F) := fun c b => m (c, b)
/-- After the first stretch. -/
abbrev W1 : Dev nD → Valuation τ sig (Elt F) := fun c => StableHlo.after hostOps0 (W0 m c)
/-- After the second stretch. -/
abbrev W2 : Dev nD → Valuation τ sig (Elt F) := fun c => StableHlo.after hostOps0_1 (W1 m c)
/-- After the third stretch: what the first layer is entered with. -/
abbrev W3 : Dev nD → Valuation τ sig (Elt F) := fun c => StableHlo.after hostOps0_2 (W2 m c)
/-- The same, read at the core's own references (the form the first layer's description takes). -/
abbrev V3 : (c : Dev nD) → (b : Ref sig .tc) → Buf (Elt F) ((c : Thread nD τ).loc b) := fun c b => W3 m c b

/-- A stretch leaves alone every buffer that is not among those its operations write. -/
theorem W1_keep (c : Dev nD) (r : Ref sig .tc) (h : r ∉ hostOps0_W) :
    W1 m c (Proc.devRef .tc r) = W0 m c (Proc.devRef .tc r) :=
  StableHlo.after_of_writes_sub hostOps0 _ hostOps0_writes h
theorem W2_keep (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_keep (c : Dev nD) (r : Ref sig .tc) (h : r ∉ hostOps0_2_W) :
    W3 m c (Proc.devRef .tc r) = W2 m c (Proc.devRef .tc r) :=
  StableHlo.after_of_writes_sub hostOps0_2 _ hostOps0_2_writes h

/-! ## The first layer (region 0) and the stretch after it -/

/-- When the first layer is left: its four arrays at what the write-backs leave (an input array as entered,
    the output array with all 25 row blocks written), every other buffer as entered. -/
def W4 (c : Dev nD) : Valuation τ sig (Elt F) :=
  Pipeline.withArrays spec0 c (W3 m c) fun w => (dat0 (V3 m) c).arrAt w cfg0.N
/-- At one of the layer's arrays, -/
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
/-- and at any other buffer. -/
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same contents, read at the core's own references. -/
abbrev V4 : (c : Dev nD) → (b : Ref sig .tc) → Buf (Elt F) ((c : Thread nD τ).loc b) := fun c b => W4 m c b
/-- The two facts that put the layer's arrays back among the core's buffers when it is left: each array holds what
    the write-backs leave, every other buffer holds what it held at entry. -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- An input array (windows 0, 1, 2) leaves the layer as it entered: nothing is written back to it. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hin _).trans (A_eq0 (V3 m) c w))

/-- After the stretch that follows the first layer: what the second layer is entered with. -/
abbrev W5 : Dev nD → Valuation τ sig (Elt F) := fun c => StableHlo.after hostOps1 (W4 m c)
/-- The same, read at the core's own references. -/
abbrev V5 : (c : Dev nD) → (b : Ref sig .tc) → Buf (Elt F) ((c : Thread nD τ).loc b) := fun c b => W5 m c b
theorem W5_keep (c : Dev nD) (r : Ref sig .tc) (h : r ∉ hostOps1_W) :
    W5 m c (Proc.devRef .tc r) = W4 m c (Proc.devRef .tc r) :=
  StableHlo.after_of_writes_sub hostOps1 _ hostOps1_writes h

/-! ## The second layer (region 1) and the stretch after it -/

/-- When the second layer is left: its four arrays at what the write-backs leave (an input array as entered,
    the output array with all 25 row blocks written), every other buffer as entered. -/
def W6 (c : Dev nD) : Valuation τ sig (Elt F) :=
  Pipeline.withArrays spec1 c (W5 m c) fun w => (dat1 (V5 m) c).arrAt w cfg1.N
/-- At one of the layer's arrays, -/
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
/-- and at any other buffer. -/
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same contents, read at the core's own references. -/
abbrev V6 : (c : Dev nD) → (b : Ref sig .tc) → Buf (Elt F) ((c : Thread nD τ).loc b) := fun c b => W6 m c b
/-- The two facts that put the layer's arrays back among the core's buffers when it is left: each array holds what
    the write-backs leave, every other buffer holds what it held at entry. -/
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- An input array (windows 0, 1, 2) leaves the layer as it entered: nothing is written back to it. -/
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hin _).trans (A_eq1 (V5 m) c w))

/-- After the stretch that follows the second layer: what the third layer is entered with. -/
abbrev W7 : Dev nD → Valuation τ sig (Elt F) := fun c => StableHlo.after hostOps2 (W6 m c)
/-- The same, read at the core's own references. -/
abbrev V7 : (c : Dev nD) → (b : Ref sig .tc) → Buf (Elt F) ((c : Thread nD τ).loc b) := fun c b => W7 m c b
theorem W7_keep (c : Dev nD) (r : Ref sig .tc) (h : r ∉ hostOps2_W) :
    W7 m c (Proc.devRef .tc r) = W6 m c (Proc.devRef .tc r) :=
  StableHlo.after_of_writes_sub hostOps2 _ hostOps2_writes h

/-! ## The third layer (region 2) and the stretch after it -/

/-- When the third layer is left: its four arrays at what the write-backs leave (an input array as entered,
    the output array with all 25 row blocks written), every other buffer as entered. -/
def W8 (c : Dev nD) : Valuation τ sig (Elt F) :=
  Pipeline.withArrays spec2 c (W7 m c) fun w => (dat2 (V7 m) c).arrAt w cfg2.N
/-- At one of the layer's arrays, -/
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
/-- and at any other buffer. -/
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same contents, read at the core's own references. -/
abbrev V8 : (c : Dev nD) → (b : Ref sig .tc) → Buf (Elt F) ((c : Thread nD τ).loc b) := fun c b => W8 m c b
/-- The two facts that put the layer's arrays back among the core's buffers when it is left: each array holds what
    the write-backs leave, every other buffer holds what it held at entry. -/
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- An input array (windows 0, 1, 2) leaves the layer as it entered: nothing is written back to it. -/
theorem W8_in (c : Dev nD) (w : Fin cfg2.W) (hin : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hin _).trans (A_eq2 (V7 m) c w))

/-- After the stretch that follows the third layer: what the fourth layer is entered with. -/
abbrev W9 : Dev nD → Valuation τ sig (Elt F) := fun c => StableHlo.after hostOps3 (W8 m c)
/-- The same, read at the core's own references. -/
abbrev V9 : (c : Dev nD) → (b : Ref sig .tc) → Buf (Elt F) ((c : Thread nD τ).loc b) := fun c b => W9 m c b
theorem W9_keep (c : Dev nD) (r : Ref sig .tc) (h : r ∉ hostOps3_W) :
    W9 m c (Proc.devRef .tc r) = W8 m c (Proc.devRef .tc r) :=
  StableHlo.after_of_writes_sub hostOps3 _ hostOps3_writes h

/-! ## The fourth layer (region 3) and the stretch after it -/

/-- When the fourth layer is left: its four arrays at what the write-backs leave (an input array as entered,
    the output array with all 25 row blocks written), every other buffer as entered. -/
def W10 (c : Dev nD) : Valuation τ sig (Elt F) :=
  Pipeline.withArrays spec3 c (W9 m c) fun w => (dat3 (V9 m) c).arrAt w cfg3.N
/-- At one of the layer's arrays, -/
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
/-- and at any other buffer. -/
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- The same contents, read at the core's own references. -/
abbrev V10 : (c : Dev nD) → (b : Ref sig .tc) → Buf (Elt F) ((c : Thread nD τ).loc b) := fun c b => W10 m c b
/-- The two facts that put the layer's arrays back among the core's buffers when it is left: each array holds what
    the write-backs leave, every other buffer holds what it held at entry. -/
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)
/-- An input array (windows 0, 1, 2) leaves the layer as it entered: nothing is written back to it. -/
theorem W10_in (c : Dev nD) (w : Fin cfg3.W) (hin : (cfg3.win w).isOut = false) :
    W10 m c (Proc.devRef .tc (Pipeline.arrRef spec3 w)) = W9 m c (Proc.devRef .tc (Pipeline.arrRef spec3 w)) :=
  (W10_arr m c w).trans (((dat3 (V9 m) c).arrAt_in w hin _).trans (A_eq3 (V9 m) c w))

/-- After the stretch that follows the fourth layer: the end of the program. -/
abbrev W11 : Dev nD → Valuation τ sig (Elt F) := fun c => StableHlo.after hostOps4 (W10 m c)
theorem W11_keep (c : Dev nD) (r : Ref sig .tc) (h : r ∉ hostOps4_W) :
    W11 m c (Proc.devRef .tc r) = W10 m c (Proc.devRef .tc r) :=
  StableHlo.after_of_writes_sub hostOps4 _ hostOps4_writes h

/-! ## The arguments end as launched

No operation of any stretch writes an argument buffer, and a layer has an argument only as an input array (the rows
`main_arg0` for the first two layers; the weights `main_arg2`, `main_arg4`, `main_arg6`, `main_arg8`, one per layer)
or not at all. So the contents at the end, followed back step by step, are the launch memory's. -/

theorem W11_main_arg0 (c : Dev nD) : W11 m c (Proc.devRef .tc main_arg0) = m ((c : Thread nD τ).loc main_arg0) :=
  calc W11 m c (Proc.devRef .tc main_arg0)
    _ = W10 m c (Proc.devRef .tc main_arg0) := W11_keep m c main_arg0 (by decide)
    _ = W9 m c (Proc.devRef .tc main_arg0) := W10_of_ne m c main_arg0 (by decide)
    _ = W8 m c (Proc.devRef .tc main_arg0) := W9_keep m c main_arg0 (by decide)
    _ = W7 m c (Proc.devRef .tc main_arg0) := W8_of_ne m c main_arg0 (by decide)
    _ = W6 m c (Proc.devRef .tc main_arg0) := W7_keep m c main_arg0 (by decide)
    _ = W5 m c (Proc.devRef .tc main_arg0) := W6_in m c 0 rfl
    _ = W4 m c (Proc.devRef .tc main_arg0) := W5_keep m c main_arg0 (by decide)
    _ = W3 m c (Proc.devRef .tc main_arg0) := W4_in m c 0 rfl
    _ = W2 m c (Proc.devRef .tc main_arg0) := W3_keep m c main_arg0 (by decide)
    _ = W1 m c (Proc.devRef .tc main_arg0) := W2_keep m c main_arg0 (by decide)
    _ = W0 m c (Proc.devRef .tc main_arg0) := W1_keep m c main_arg0 (by decide)
    _ = m ((c : Thread nD τ).loc main_arg0) := rfl

theorem W11_main_arg1 (c : Dev nD) : W11 m c (Proc.devRef .tc main_arg1) = m ((c : Thread nD τ).loc main_arg1) :=
  calc W11 m c (Proc.devRef .tc main_arg1)
    _ = W10 m c (Proc.devRef .tc main_arg1) := W11_keep m c main_arg1 (by decide)
    _ = W9 m c (Proc.devRef .tc main_arg1) := W10_of_ne m c main_arg1 (by decide)
    _ = W8 m c (Proc.devRef .tc main_arg1) := W9_keep m c main_arg1 (by decide)
    _ = W7 m c (Proc.devRef .tc main_arg1) := W8_of_ne m c main_arg1 (by decide)
    _ = W6 m c (Proc.devRef .tc main_arg1) := W7_keep m c main_arg1 (by decide)
    _ = W5 m c (Proc.devRef .tc main_arg1) := W6_of_ne m c main_arg1 (by decide)
    _ = W4 m c (Proc.devRef .tc main_arg1) := W5_keep m c main_arg1 (by decide)
    _ = W3 m c (Proc.devRef .tc main_arg1) := W4_of_ne m c main_arg1 (by decide)
    _ = W2 m c (Proc.devRef .tc main_arg1) := W3_keep m c main_arg1 (by decide)
    _ = W1 m c (Proc.devRef .tc main_arg1) := W2_keep m c main_arg1 (by decide)
    _ = W0 m c (Proc.devRef .tc main_arg1) := W1_keep m c main_arg1 (by decide)
    _ = m ((c : Thread nD τ).loc main_arg1) := rfl

theorem W11_main_arg2 (c : Dev nD) : W11 m c (Proc.devRef .tc main_arg2) = m ((c : Thread nD τ).loc main_arg2) :=
  calc W11 m c (Proc.devRef .tc main_arg2)
    _ = W10 m c (Proc.devRef .tc main_arg2) := W11_keep m c main_arg2 (by decide)
    _ = W9 m c (Proc.devRef .tc main_arg2) := W10_of_ne m c main_arg2 (by decide)
    _ = W8 m c (Proc.devRef .tc main_arg2) := W9_keep m c main_arg2 (by decide)
    _ = W7 m c (Proc.devRef .tc main_arg2) := W8_of_ne m c main_arg2 (by decide)
    _ = W6 m c (Proc.devRef .tc main_arg2) := W7_keep m c main_arg2 (by decide)
    _ = W5 m c (Proc.devRef .tc main_arg2) := W6_of_ne m c main_arg2 (by decide)
    _ = W4 m c (Proc.devRef .tc main_arg2) := W5_keep m c main_arg2 (by decide)
    _ = W3 m c (Proc.devRef .tc main_arg2) := W4_in m c 1 rfl
    _ = W2 m c (Proc.devRef .tc main_arg2) := W3_keep m c main_arg2 (by decide)
    _ = W1 m c (Proc.devRef .tc main_arg2) := W2_keep m c main_arg2 (by decide)
    _ = W0 m c (Proc.devRef .tc main_arg2) := W1_keep m c main_arg2 (by decide)
    _ = m ((c : Thread nD τ).loc main_arg2) := rfl

theorem W11_main_arg3 (c : Dev nD) : W11 m c (Proc.devRef .tc main_arg3) = m ((c : Thread nD τ).loc main_arg3) :=
  calc W11 m c (Proc.devRef .tc main_arg3)
    _ = W10 m c (Proc.devRef .tc main_arg3) := W11_keep m c main_arg3 (by decide)
    _ = W9 m c (Proc.devRef .tc main_arg3) := W10_of_ne m c main_arg3 (by decide)
    _ = W8 m c (Proc.devRef .tc main_arg3) := W9_keep m c main_arg3 (by decide)
    _ = W7 m c (Proc.devRef .tc main_arg3) := W8_of_ne m c main_arg3 (by decide)
    _ = W6 m c (Proc.devRef .tc main_arg3) := W7_keep m c main_arg3 (by decide)
    _ = W5 m c (Proc.devRef .tc main_arg3) := W6_of_ne m c main_arg3 (by decide)
    _ = W4 m c (Proc.devRef .tc main_arg3) := W5_keep m c main_arg3 (by decide)
    _ = W3 m c (Proc.devRef .tc main_arg3) := W4_of_ne m c main_arg3 (by decide)
    _ = W2 m c (Proc.devRef .tc main_arg3) := W3_keep m c main_arg3 (by decide)
    _ = W1 m c (Proc.devRef .tc main_arg3) := W2_keep m c main_arg3 (by decide)
    _ = W0 m c (Proc.devRef .tc main_arg3) := W1_keep m c main_arg3 (by decide)
    _ = m ((c : Thread nD τ).loc main_arg3) := rfl

theorem W11_main_arg4 (c : Dev nD) : W11 m c (Proc.devRef .tc main_arg4) = m ((c : Thread nD τ).loc main_arg4) :=
  calc W11 m c (Proc.devRef .tc main_arg4)
    _ = W10 m c (Proc.devRef .tc main_arg4) := W11_keep m c main_arg4 (by decide)
    _ = W9 m c (Proc.devRef .tc main_arg4) := W10_of_ne m c main_arg4 (by decide)
    _ = W8 m c (Proc.devRef .tc main_arg4) := W9_keep m c main_arg4 (by decide)
    _ = W7 m c (Proc.devRef .tc main_arg4) := W8_of_ne m c main_arg4 (by decide)
    _ = W6 m c (Proc.devRef .tc main_arg4) := W7_keep m c main_arg4 (by decide)
    _ = W5 m c (Proc.devRef .tc main_arg4) := W6_in m c 1 rfl
    _ = W4 m c (Proc.devRef .tc main_arg4) := W5_keep m c main_arg4 (by decide)
    _ = W3 m c (Proc.devRef .tc main_arg4) := W4_of_ne m c main_arg4 (by decide)
    _ = W2 m c (Proc.devRef .tc main_arg4) := W3_keep m c main_arg4 (by decide)
    _ = W1 m c (Proc.devRef .tc main_arg4) := W2_keep m c main_arg4 (by decide)
    _ = W0 m c (Proc.devRef .tc main_arg4) := W1_keep m c main_arg4 (by decide)
    _ = m ((c : Thread nD τ).loc main_arg4) := rfl

theorem W11_main_arg5 (c : Dev nD) : W11 m c (Proc.devRef .tc main_arg5) = m ((c : Thread nD τ).loc main_arg5) :=
  calc W11 m c (Proc.devRef .tc main_arg5)
    _ = W10 m c (Proc.devRef .tc main_arg5) := W11_keep m c main_arg5 (by decide)
    _ = W9 m c (Proc.devRef .tc main_arg5) := W10_of_ne m c main_arg5 (by decide)
    _ = W8 m c (Proc.devRef .tc main_arg5) := W9_keep m c main_arg5 (by decide)
    _ = W7 m c (Proc.devRef .tc main_arg5) := W8_of_ne m c main_arg5 (by decide)
    _ = W6 m c (Proc.devRef .tc main_arg5) := W7_keep m c main_arg5 (by decide)
    _ = W5 m c (Proc.devRef .tc main_arg5) := W6_of_ne m c main_arg5 (by decide)
    _ = W4 m c (Proc.devRef .tc main_arg5) := W5_keep m c main_arg5 (by decide)
    _ = W3 m c (Proc.devRef .tc main_arg5) := W4_of_ne m c main_arg5 (by decide)
    _ = W2 m c (Proc.devRef .tc main_arg5) := W3_keep m c main_arg5 (by decide)
    _ = W1 m c (Proc.devRef .tc main_arg5) := W2_keep m c main_arg5 (by decide)
    _ = W0 m c (Proc.devRef .tc main_arg5) := W1_keep m c main_arg5 (by decide)
    _ = m ((c : Thread nD τ).loc main_arg5) := rfl

theorem W11_main_arg6 (c : Dev nD) : W11 m c (Proc.devRef .tc main_arg6) = m ((c : Thread nD τ).loc main_arg6) :=
  calc W11 m c (Proc.devRef .tc main_arg6)
    _ = W10 m c (Proc.devRef .tc main_arg6) := W11_keep m c main_arg6 (by decide)
    _ = W9 m c (Proc.devRef .tc main_arg6) := W10_of_ne m c main_arg6 (by decide)
    _ = W8 m c (Proc.devRef .tc main_arg6) := W9_keep m c main_arg6 (by decide)
    _ = W7 m c (Proc.devRef .tc main_arg6) := W8_in m c 1 rfl
    _ = W6 m c (Proc.devRef .tc main_arg6) := W7_keep m c main_arg6 (by decide)
    _ = W5 m c (Proc.devRef .tc main_arg6) := W6_of_ne m c main_arg6 (by decide)
    _ = W4 m c (Proc.devRef .tc main_arg6) := W5_keep m c main_arg6 (by decide)
    _ = W3 m c (Proc.devRef .tc main_arg6) := W4_of_ne m c main_arg6 (by decide)
    _ = W2 m c (Proc.devRef .tc main_arg6) := W3_keep m c main_arg6 (by decide)
    _ = W1 m c (Proc.devRef .tc main_arg6) := W2_keep m c main_arg6 (by decide)
    _ = W0 m c (Proc.devRef .tc main_arg6) := W1_keep m c main_arg6 (by decide)
    _ = m ((c : Thread nD τ).loc main_arg6) := rfl

theorem W11_main_arg7 (c : Dev nD) : W11 m c (Proc.devRef .tc main_arg7) = m ((c : Thread nD τ).loc main_arg7) :=
  calc W11 m c (Proc.devRef .tc main_arg7)
    _ = W10 m c (Proc.devRef .tc main_arg7) := W11_keep m c main_arg7 (by decide)
    _ = W9 m c (Proc.devRef .tc main_arg7) := W10_of_ne m c main_arg7 (by decide)
    _ = W8 m c (Proc.devRef .tc main_arg7) := W9_keep m c main_arg7 (by decide)
    _ = W7 m c (Proc.devRef .tc main_arg7) := W8_of_ne m c main_arg7 (by decide)
    _ = W6 m c (Proc.devRef .tc main_arg7) := W7_keep m c main_arg7 (by decide)
    _ = W5 m c (Proc.devRef .tc main_arg7) := W6_of_ne m c main_arg7 (by decide)
    _ = W4 m c (Proc.devRef .tc main_arg7) := W5_keep m c main_arg7 (by decide)
    _ = W3 m c (Proc.devRef .tc main_arg7) := W4_of_ne m c main_arg7 (by decide)
    _ = W2 m c (Proc.devRef .tc main_arg7) := W3_keep m c main_arg7 (by decide)
    _ = W1 m c (Proc.devRef .tc main_arg7) := W2_keep m c main_arg7 (by decide)
    _ = W0 m c (Proc.devRef .tc main_arg7) := W1_keep m c main_arg7 (by decide)
    _ = m ((c : Thread nD τ).loc main_arg7) := rfl

theorem W11_main_arg8 (c : Dev nD) : W11 m c (Proc.devRef .tc main_arg8) = m ((c : Thread nD τ).loc main_arg8) :=
  calc W11 m c (Proc.devRef .tc main_arg8)
    _ = W10 m c (Proc.devRef .tc main_arg8) := W11_keep m c main_arg8 (by decide)
    _ = W9 m c (Proc.devRef .tc main_arg8) := W10_in m c 1 rfl
    _ = W8 m c (Proc.devRef .tc main_arg8) := W9_keep m c main_arg8 (by decide)
    _ = W7 m c (Proc.devRef .tc main_arg8) := W8_of_ne m c main_arg8 (by decide)
    _ = W6 m c (Proc.devRef .tc main_arg8) := W7_keep m c main_arg8 (by decide)
    _ = W5 m c (Proc.devRef .tc main_arg8) := W6_of_ne m c main_arg8 (by decide)
    _ = W4 m c (Proc.devRef .tc main_arg8) := W5_keep m c main_arg8 (by decide)
    _ = W3 m c (Proc.devRef .tc main_arg8) := W4_of_ne m c main_arg8 (by decide)
    _ = W2 m c (Proc.devRef .tc main_arg8) := W3_keep m c main_arg8 (by decide)
    _ = W1 m c (Proc.devRef .tc main_arg8) := W2_keep m c main_arg8 (by decide)
    _ = W0 m c (Proc.devRef .tc main_arg8) := W1_keep m c main_arg8 (by decide)
    _ = m ((c : Thread nD τ).loc main_arg8) := rfl

theorem W11_main_arg9 (c : Dev nD) : W11 m c (Proc.devRef .tc main_arg9) = m ((c : Thread nD τ).loc main_arg9) :=
  calc W11 m c (Proc.devRef .tc main_arg9)
    _ = W10 m c (Proc.devRef .tc main_arg9) := W11_keep m c main_arg9 (by decide)
    _ = W9 m c (Proc.devRef .tc main_arg9) := W10_of_ne m c main_arg9 (by decide)
    _ = W8 m c (Proc.devRef .tc main_arg9) := W9_keep m c main_arg9 (by decide)
    _ = W7 m c (Proc.devRef .tc main_arg9) := W8_of_ne m c main_arg9 (by decide)
    _ = W6 m c (Proc.devRef .tc main_arg9) := W7_keep m c main_arg9 (by decide)
    _ = W5 m c (Proc.devRef .tc main_arg9) := W6_of_ne m c main_arg9 (by decide)
    _ = W4 m c (Proc.devRef .tc main_arg9) := W5_keep m c main_arg9 (by decide)
    _ = W3 m c (Proc.devRef .tc main_arg9) := W4_of_ne m c main_arg9 (by decide)
    _ = W2 m c (Proc.devRef .tc main_arg9) := W3_keep m c main_arg9 (by decide)
    _ = W1 m c (Proc.devRef .tc main_arg9) := W2_keep m c main_arg9 (by decide)
    _ = W0 m c (Proc.devRef .tc main_arg9) := W1_keep m c main_arg9 (by decide)
    _ = m ((c : Thread nD τ).loc main_arg9) := rfl

end Cert.Kernel.Fr

end
-- ==== Proof.KB.Run.lean ====
import proofs.«153277_j13786845020601_1_alg».proof.Proof.KB.Fold

/-! # The run of the whole program

The program's eleven items as segments of one run: each stretch of host operations over the core's buffers from
the contents at its boundary, each layer as a region entered from every buffer at its entry contents and left with
its four arrays put back among them at what the write-backs leave. The contents chain from the launch memory to
`W11`; at the end every buffer is read against the final state, which gives the result buffer `main_v94` as the
fold has it and the ten argument buffers as launched. -/

-- deciding facts over the 152 references recurses past the default depth
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the memory the program is launched on
variable (m : (ℓ : Loc nD τ sig) → Buf (Elt F) ℓ)

/-! ## The layers' descriptions and the state a core carries between items -/

/-- No layer has a prefetched table, so there is nothing to admit. -/
abbrev adm : (p : Fin 4) → (pcfgs (F := F) p).Adm := fun p => (cfgs p).toPCfg_adm
/-- Each layer's description, at the contents the layer is entered with. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
/-- No core ever owes another a signal, so no pair of cores is given a level. -/
abbrev L : GSem nD τ sig → Finset Unit := fun _ => ∅
abbrev lv : GSem nD τ sig → Unit → ℕ := fun _ _ => 0
/-- What a core carries beside its buffers through every item: its random-number register at some state, and the
    record that it owes nothing. -/
abbrev R (c : Dev nD) : sProp 𝕄 := iprop((∃ r, prngReg c r) ∗ ∃ W, owes (c : Thread nD τ) (0 : CellTallies nD τ sig Unit) W)
/-- A stretch of host operations as a segment: over all the core's unscoped buffers from the contents `W`, to the
    contents `StableHlo.after ops (W c)`, with `R` carried along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A reference of the core that is not scoped is one of the buffers the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the record of owing nothing: every unscoped buffer at the final contents `W11`, the
    random-number register at some state. -/
abbrev Tₙ (c : Dev nD) : sProp 𝕄 := iprop(StableHlo.held (c : Thread nD τ) (Pipeline.ucRefs τ sig) (W11 m c) ∗ ∃ r, prngReg c r)

/-! ## The layers as segments

All four have the same shape. On entry the layer's four arrays are split out of the core's buffers (they are
distinct whole buffers, and the description's arrays are read off the entry contents); the register goes into the
layer's invariant and comes back; nothing is owed and the layer has no semaphore of its own. On exit the arrays go
back among the buffers at the exit contents (`hFK`, `hrestK`). -/

-- the library's lemmas are stated over the configuration `pin pcs a p`; matching it with the printed one needs
-- definitions unfolded inside the types of unknowns
set_option backward.isDefEq.respectTransparency.types false in
/-- The first layer: entered from every unscoped buffer at `W3`, left at `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the configuration `pin pcs a p`; matching it with the printed one needs
-- definitions unfolded inside the types of unknowns
set_option backward.isDefEq.respectTransparency.types false in
/-- The second layer: entered from every unscoped buffer at `W5`, left at `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the configuration `pin pcs a p`; matching it with the printed one needs
-- definitions unfolded inside the types of unknowns
set_option backward.isDefEq.respectTransparency.types false in
/-- The third layer: entered from every unscoped buffer at `W7`, left at `W8`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the configuration `pin pcs a p`; matching it with the printed one needs
-- definitions unfolded inside the types of unknowns
set_option backward.isDefEq.respectTransparency.types false in
/-- The fourth layer: entered from every unscoped buffer at `W9`, left at `W10`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The eleven items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

-- the launch theorem's implicit arguments are found by matching its conclusion with this statement, which needs
-- definitions unfolded inside the types of unknowns
set_option backward.isDefEq.respectTransparency.types false in
/-- THE RUN. From any memory `m` with every counter at zero, every weakly fair execution of the program on the cores
    terminates without fault, and in every final state the result buffer `main_v94` holds what the fold says
    (`W11`) and each of the ten argument buffers holds what it held at launch. The segments' states chain by
    definition; the first state is what the launch deals each core; the last state's buffers are read against the
    final memory one by one. -/
theorem run_main (ρ : Dev nD → PrngReg) : θ_run defs (onTc (τ := τ) (main (F := F))) ⟨m, fun _ => 0, ρ⟩ (fun r => ∀ c : Dev nD,
      r.2.mem ((c.tc : Thread nD τ).loc main_v94) = W11 m c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show (iprop(StableHlo.held (c : Thread nD τ) (Pipeline.ucRefs τ sig) (W11 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c =>
      ⟨h c _ (mem_uc main_v94 (by decide)),
       (h c _ (mem_uc main_arg0 (by decide))).trans (W11_main_arg0 m c),
       (h c _ (mem_uc main_arg1 (by decide))).trans (W11_main_arg1 m c),
       (h c _ (mem_uc main_arg2 (by decide))).trans (W11_main_arg2 m c),
       (h c _ (mem_uc main_arg3 (by decide))).trans (W11_main_arg3 m c),
       (h c _ (mem_uc main_arg4 (by decide))).trans (W11_main_arg4 m c),
       (h c _ (mem_uc main_arg5 (by decide))).trans (W11_main_arg5 m c),
       (h c _ (mem_uc main_arg6 (by decide))).trans (W11_main_arg6 m c),
       (h c _ (mem_uc main_arg7 (by decide))).trans (W11_main_arg7 m c),
       (h c _ (mem_uc main_arg8 (by decide))).trans (W11_main_arg8 m c),
       (h c _ (mem_uc main_arg9 (by decide))).trans (W11_main_arg9 m c)⟩)

/-- The same run, keeping only what it says of the arguments: each ends as launched. -/
theorem frame_main (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m ρ)

/-- info: 'Cert.Kernel.Fr.run_main' depends on axioms: [propext, Classical.choice, Quot.sound] -/
#guard_msgs in #print axioms run_main

/-- info: 'Cert.Kernel.Fr.frame_main' depends on axioms: [propext, Classical.choice, Quot.sound] -/
#guard_msgs in #print axioms frame_main

end Cert.Kernel.Fr

end
-- ==== Proof.KI.Region0.lean ====
import proofs.«153277_j13786845020601_1_alg».proof.Proof.Gen.KernelIdeal.Launch
import proofs.«153277_j13786845020601_1_alg».proof.Proof.Gen.KernelIdeal.Skeleton
import proofs.«153277_j13786845020601_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: one dense layer, row block by row block

The region walks 25 row blocks of 4000 rows. At each block it reads the block `x` of the left operand
(`S4000x128`), the whole weight `w` (`S128x128`) and the bias row `b` (`S1x128`), and writes `max (x·w + b, 0)`
(the bias repeated down the rows) over the whole output block (`S4000x128`). This file states, for ANY contents `V`
of the core's buffers at the region's entry, what each window's staging buffer holds before and after the body
at every block, and proves the body meets that description. -/

-- membership of an index in a whole rectangle of 4000 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows show -/

/-- The block window `w` shows at grid point `t`: the entries of its array, as `V` has it, that the window's
    index map selects there. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds the block of point `t` when the body runs there, for any proof data
    over `V`'s array whose body leaves that buffer alone. At a point where no copy was issued the block index is the
    previous point's, so the buffer still holds the right block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer: its index map is constant, so it is copied in once, at the first point, and every
    later point finds the same (whole) block still there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row's staging buffer: constant index map again, copied in at the first point only. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each one is its whole buffer -/

abbrev r0_0 : Rect S4000x128 := Rect.unit (s := S4000x128) ![0, 0] S4000x128.size inb_S4000x128_S4000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S4000x128 := Rect.unit (s := S4000x128) ![0, 0] S4000x128.size inb_S4000x128_S4000x128_0_0

/-! ## The output block after the body -/

/-- What the output staging buffer holds after the body, as a function of the three input blocks: the single
    store's payload, `max (x·w + b, 0)`, laid over the whole block. -/
def out0_3 (x0 : Vec F S4000x128 .f32) (x1 : Vec F S128x128 .f32) (x2 : Vec F S1x128 .f32) : Vec F S4000x128 .f32 :=
  View.canon [⟨r0_3, k0_pay1 (View.ld x0 r0_0) (View.ld x1 r0_1) (View.ld x2 r0_2)⟩]

/-- The one stored rectangle is the whole block, so every index of the block lies in it. -/
theorem cover0_3 (p0 : Vec F S4000x128 .f32) (y : S4000x128.Idx) :
    ∃ pc ∈ ([⟨r0_3, p0⟩] : List (View.Piece (Elt F) S4000x128 .f32)), y ∈ pc.1.set :=
  View.cover_of_tiled [⟨r0_3, p0⟩] S4000x128.size (by rfl) y

/-! ## The body's triple -/

set_option maxHeartbeats 1000000 in
/-- The body, given whole staging buffers holding `x0`, `x1`, `x2` and an output buffer holding anything, ends with
    the inputs unchanged and the output buffer at `out0_3 x0 x1 x2`. It reads the output buffer once before
    storing; the value read is never used. -/
theorem sound_kernel0 (c : Dev nD) (E : Set ℕ) (i : grid0.Coords)
    (arg1 : Memref sig .tc .vmem S4000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0_kernel i arg1 harg1 arg2 harg2 arg3 harg3 arg4 harg4) K := by
  simp only [cc0_kernel_eq_skeleton]; unfold cc0_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The proof data of the region's pipeline -/

/-- On core `c`: the arrays are `V`'s; after the body at point `t` each input buffer still shows its block and the
    output buffer shows `out0_3` of the three input blocks; the invariant keeps the rest of the core's state
    untouched; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's staging buffer shows its block at every point, copied in there or left from before. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is handed at point `t`: the invariant, the owed tokens, and the four staging buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the three input buffers show their blocks, so the body's triple applies; the invariant
    and the owed tokens are carried across unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.Region1.lean ====
import proofs.«153277_j13786845020601_1_alg».proof.Proof.Gen.KernelIdeal.Launch
import proofs.«153277_j13786845020601_1_alg».proof.Proof.Gen.KernelIdeal.Skeleton
import proofs.«153277_j13786845020601_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: one dense layer, row block by row block

The region walks 25 row blocks of 4000 rows. At each block it reads the block `x` of the left operand
(`S4000x128`), the whole weight `w` (`S128x128`) and the bias row `b` (`S1x128`), and writes `x·w + b`
(the bias repeated down the rows) over the whole output block (`S4000x128`). This file states, for ANY contents `V`
of the core's buffers at the region's entry, what each window's staging buffer holds before and after the body
at every block, and proves the body meets that description. -/

-- membership of an index in a whole rectangle of 4000 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows show -/

/-- The block window `w` shows at grid point `t`: the entries of its array, as `V` has it, that the window's
    index map selects there. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds the block of point `t` when the body runs there, for any proof data
    over `V`'s array whose body leaves that buffer alone. At a point where no copy was issued the block index is the
    previous point's, so the buffer still holds the right block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The weight's staging buffer: its index map is constant, so it is copied in once, at the first point, and every
    later point finds the same (whole) block still there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row's staging buffer: constant index map again, copied in at the first point only. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each one is its whole buffer -/

abbrev r1_0 : Rect S4000x128 := Rect.unit (s := S4000x128) ![0, 0] S4000x128.size inb_S4000x128_S4000x128_0_0
abbrev r1_1 : Rect S128x128 := Rect.unit (s := S128x128) ![0, 0] S128x128.size inb_S128x128_S128x128_0_0
abbrev r1_2 : Rect S1x128 := Rect.unit (s := S1x128) ![0, 0] S1x128.size inb_S1x128_S1x128_0_0
abbrev r1_3 : Rect S4000x128 := Rect.unit (s := S4000x128) ![0, 0] S4000x128.size inb_S4000x128_S4000x128_0_0

/-! ## The output block after the body -/

/-- What the output staging buffer holds after the body, as a function of the three input blocks: the single
    store's payload, `x·w + b`, laid over the whole block. -/
def out1_3 (x0 : Vec F S4000x128 .f32) (x1 : Vec F S128x128 .f32) (x2 : Vec F S1x128 .f32) : Vec F S4000x128 .f32 :=
  View.canon [⟨r1_3, k1_pay1 (View.ld x0 r1_0) (View.ld x1 r1_1) (View.ld x2 r1_2)⟩]

/-- The one stored rectangle is the whole block, so every index of the block lies in it. -/
theorem cover1_3 (p0 : Vec F S4000x128 .f32) (y : S4000x128.Idx) :
    ∃ pc ∈ ([⟨r1_3, p0⟩] : List (View.Piece (Elt F) S4000x128 .f32)), y ∈ pc.1.set :=
  View.cover_of_tiled [⟨r1_3, p0⟩] S4000x128.size (by rfl) y

/-! ## The body's triple -/

set_option maxHeartbeats 1000000 in
/-- The body, given whole staging buffers holding `x0`, `x1`, `x2` and an output buffer holding anything, ends with
    the inputs unchanged and the output buffer at `out1_3 x0 x1 x2`. It reads the output buffer once before
    storing; the value read is never used. -/
theorem sound_kernel1 (c : Dev nD) (E : Set ℕ) (i : grid1.Coords)
    (arg1 : Memref sig .tc .vmem S4000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The proof data of the region's pipeline -/

/-- On core `c`: the arrays are `V`'s; after the body at point `t` each input buffer still shows its block and the
    output buffer shows `out1_3` of the three input blocks; the invariant keeps the rest of the core's state
    untouched; nothing is owed; every share is whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's staging buffer shows its block at every point, copied in there or left from before. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation at a generic point -/

/-- What the body is handed at point `t`: the invariant, the owed tokens, and the four staging buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers show their blocks, so the body's triple applies; the invariant
    and the owed tokens are carried across unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.Region2.lean ====
import proofs.«153277_j13786845020601_1_alg».proof.Proof.Gen.KernelIdeal.Launch
import proofs.«153277_j13786845020601_1_alg».proof.Proof.Gen.KernelIdeal.Skeleton
import proofs.«153277_j13786845020601_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: one dense layer, row block by row block

The region walks 25 row blocks of 4000 rows. At each block it reads the block `x` of the left operand
(`S4000x256`), the whole weight `w` (`S256x128`) and the bias row `b` (`S1x128`), and writes `x·w + b`
(the bias repeated down the rows) over the whole output block (`S4000x128`). This file states, for ANY contents `V`
of the core's buffers at the region's entry, what each window's staging buffer holds before and after the body
at every block, and proves the body meets that description. -/

-- membership of an index in a whole rectangle of 4000 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows show -/

/-- The block window `w` shows at grid point `t`: the entries of its array, as `V` has it, that the window's
    index map selects there. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The left operand's staging buffer holds the block of point `t` when the body runs there, for any proof data
    over `V`'s array whose body leaves that buffer alone. At a point where no copy was issued the block index is the
    previous point's, so the buffer still holds the right block. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight's staging buffer: its index map is constant, so it is copied in once, at the first point, and every
    later point finds the same (whole) block still there. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The bias row's staging buffer: constant index map again, copied in at the first point only. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each one is its whole buffer -/

abbrev r2_0 : Rect S4000x256 := Rect.unit (s := S4000x256) ![0, 0] S4000x256.size inb_S4000x256_S4000x256_0_0
abbrev r2_1 : Rect S256x128 := Rect.unit (s := S256x128) ![0, 0] S256x128.size inb_S256x128_S256x128_0_0
abbrev r2_2 : Rect S1x128 := Rect.unit (s := S1x128) ![0, 0] S1x128.size inb_S1x128_S1x128_0_0
abbrev r2_3 : Rect S4000x128 := Rect.unit (s := S4000x128) ![0, 0] S4000x128.size inb_S4000x128_S4000x128_0_0

/-! ## The output block after the body -/

/-- What the output staging buffer holds after the body, as a function of the three input blocks: the single
    store's payload, `x·w + b`, laid over the whole block. -/
def out2_3 (x0 : Vec F S4000x256 .f32) (x1 : Vec F S256x128 .f32) (x2 : Vec F S1x128 .f32) : Vec F S4000x128 .f32 :=
  View.canon [⟨r2_3, k2_pay1 (View.ld x0 r2_0) (View.ld x1 r2_1) (View.ld x2 r2_2)⟩]

/-- The one stored rectangle is the whole block, so every index of the block lies in it. -/
theorem cover2_3 (p0 : Vec F S4000x128 .f32) (y : S4000x128.Idx) :
    ∃ pc ∈ ([⟨r2_3, p0⟩] : List (View.Piece (Elt F) S4000x128 .f32)), y ∈ pc.1.set :=
  View.cover_of_tiled [⟨r2_3, p0⟩] S4000x128.size (by rfl) y

/-! ## The body's triple -/

set_option maxHeartbeats 1000000 in
/-- The body, given whole staging buffers holding `x0`, `x1`, `x2` and an output buffer holding anything, ends with
    the inputs unchanged and the output buffer at `out2_3 x0 x1 x2`. It reads the output buffer once before
    storing; the value read is never used. -/
theorem sound_kernel2 (c : Dev nD) (E : Set ℕ) (i : grid2.Coords)
    (arg1 : Memref sig .tc .vmem S4000x256 .f32) (harg1 : arg1.IsWhole) (arg2 : Memref sig .tc .vmem S256x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x256 .f32) (x1 : Vec F S256x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data of the region's pipeline -/

/-- On core `c`: the arrays are `V`'s; after the body at point `t` each input buffer still shows its block and the
    output buffer shows `out2_3` of the three input blocks; the invariant keeps the rest of the core's state
    untouched; nothing is owed; every share is whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

/-- Each input's staging buffer shows its block at every point, copied in there or left from before. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is handed at point `t`: the invariant, the owed tokens, and the four staging buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it hands back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the three input buffers show their blocks, so the body's triple applies; the invariant
    and the owed tokens are carried across unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.Region3.lean ====
import proofs.«153277_j13786845020601_1_alg».proof.Proof.Gen.KernelIdeal.Launch
import proofs.«153277_j13786845020601_1_alg».proof.Proof.Gen.KernelIdeal.Skeleton
import proofs.«153277_j13786845020601_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: one dense layer, row block by row block

The region walks 25 row blocks of 4000 rows. At each block it reads the block `x` of the left operand
(`S4000x384`), the whole weight `w` (`S384x128`) and the bias row `b` (`S1x128`), and writes `x·w + b`
(the bias repeated down the rows) over the whole output block (`S4000x128`). This file states, for ANY contents `V`
of the core's buffers at the region's entry, what each window's staging buffer holds before and after the body
at every block, and proves the body meets that description. -/

-- membership of an index in a whole rectangle of 4000 rows is decided coordinate by coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The blocks the windows show -/

/-- The block window `w` shows at grid point `t`: the entries of its array, as `V` has it, that the window's
    index map selects there. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left operand's staging buffer holds the block of point `t` when the body runs there, for any proof data
    over `V`'s array whose body leaves that buffer alone. At a point where no copy was issued the block index is the
    previous point's, so the buffer still holds the right block. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight's staging buffer: its index map is constant, so it is copied in once, at the first point, and every
    later point finds the same (whole) block still there. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The bias row's staging buffer: constant index map again, copied in at the first point only. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The rectangles the body reads and writes: each one is its whole buffer -/

abbrev r3_0 : Rect S4000x384 := Rect.unit (s := S4000x384) ![0, 0] S4000x384.size inb_S4000x384_S4000x384_0_0
abbrev r3_1 : Rect S384x128 := Rect.unit (s := S384x128) ![0, 0] S384x128.size inb_S384x128_S384x128_0_0
abbrev r3_2 : Rect S1x128 := Rect.unit (s := S1x128) ![0, 0] S1x128.size inb_S1x128_S1x128_0_0
abbrev r3_3 : Rect S4000x128 := Rect.unit (s := S4000x128) ![0, 0] S4000x128.size inb_S4000x128_S4000x128_0_0

/-! ## The output block after the body -/

/-- What the output staging buffer holds after the body, as a function of the three input blocks: the single
    store's payload, `x·w + b`, laid over the whole block. -/
def out3_3 (x0 : Vec F S4000x384 .f32) (x1 : Vec F S384x128 .f32) (x2 : Vec F S1x128 .f32) : Vec F S4000x128 .f32 :=
  View.canon [⟨r3_3, k3_pay1 (View.ld x0 r3_0) (View.ld x1 r3_1) (View.ld x2 r3_2)⟩]

/-- The one stored rectangle is the whole block, so every index of the block lies in it. -/
theorem cover3_3 (p0 : Vec F S4000x128 .f32) (y : S4000x128.Idx) :
    ∃ pc ∈ ([⟨r3_3, p0⟩] : List (View.Piece (Elt F) S4000x128 .f32)), y ∈ pc.1.set :=
  View.cover_of_tiled [⟨r3_3, p0⟩] S4000x128.size (by rfl) y

/-! ## The body's triple -/

set_option maxHeartbeats 1000000 in
/-- The body, given whole staging buffers holding `x0`, `x1`, `x2` and an output buffer holding anything, ends with
    the inputs unchanged and the output buffer at `out3_3 x0 x1 x2`. It reads the output buffer once before
    storing; the value read is never used. -/
theorem sound_kernel3 (c : Dev nD) (E : Set ℕ) (i : grid3.Coords)
    (arg1 : Memref sig .tc .vmem S4000x384 .f32) (harg1 : arg1.IsWhole) (arg2 : Memref sig .tc .vmem S384x128 .f32) (harg2 : arg2.IsWhole)
    (arg3 : Memref sig .tc .vmem S1x128 .f32) (harg3 : arg3.IsWhole) (arg4 : Memref sig .tc .vmem S4000x128 .f32) (harg4 : arg4.IsWhole)
    (x0 : Vec F S4000x384 .f32) (x1 : Vec F S384x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The proof data of the region's pipeline -/

/-- On core `c`: the arrays are `V`'s; after the body at point `t` each input buffer still shows its block and the
    output buffer shows `out3_3` of the three input blocks; the invariant keeps the rest of the core's state
    untouched; nothing is owed; every share is whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

/-- Each input's staging buffer shows its block at every point, copied in there or left from before. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation at a generic point -/

/-- What the body is handed at point `t`: the invariant, the owed tokens, and the four staging buffers. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it hands back. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the three input buffers show their blocks, so the body's triple applies; the invariant
    and the owed tokens are carried across unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.Fold.lean ====
import proofs.«153277_j13786845020601_1_alg».proof.Proof.KI.Region0
import proofs.«153277_j13786845020601_1_alg».proof.Proof.KI.Region1
import proofs.«153277_j13786845020601_1_alg».proof.Proof.KI.Region2
import proofs.«153277_j13786845020601_1_alg».proof.Proof.KI.Region3
import proofs.«153277_j13786845020601_1_alg».proof.Proof.Gen.KernelIdeal.Regions

/-! # The buffers' contents between the items of the program

The program is eleven items in a row: three stretches of host operations, then four dense layers (the regions), each
followed by one more stretch of host operations. This file names the contents of a core's buffers at the twelve
boundaries, `W0` (the launch memory) to `W11` (the end), as a fold:

* a stretch of host operations takes the contents `W` to `StableHlo.after ops W`: every operation rewrites the
  buffers it writes and leaves the others;
* a region takes `W` to `W` with its four arrays replaced by what its write-backs leave: the three input arrays
  as they were, the output array with every row block written.

Then what each step leaves alone: a stretch leaves every buffer that none of its operations writes; a region leaves
every buffer that is not one of its four arrays, and its three input arrays too. Followed back through all eleven
steps, each of the ten argument buffers ends holding what it held at launch. -/

-- deciding that a reference is none of a list of up to 24 others, among 152, recurses past the default depth
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

-- the memory the program is launched on
variable (m : (ℓ : Loc nD τ sig) → Buf (Elt F) ℓ)

/-! ## The first three stretches of host operations -/

/-- Core `c`'s buffers at launch. -/
abbrev W0 : Dev nD → Valuation τ sig (Elt F) := fun c b => m (c, b)
/-- After the first stretch. -/
abbrev W1 : Dev nD → Valuation τ sig (Elt F) := fun c => StableHlo.after hostOps0 (W0 m c)
/-- After the second stretch. -/
abbrev W2 : Dev nD → Valuation τ sig (Elt F) := fun c => StableHlo.after hostOps0_1 (W1 m c)
/-- After the third stretch: what the first layer is entered with. -/
abbrev W3 : Dev nD → Valuation τ sig (Elt F) := fun c => StableHlo.after hostOps0_2 (W2 m c)
/-- The same, read at the core's own references (the form the first layer's description takes). -/
abbrev V3 : (c : Dev nD) → (b : Ref sig .tc) → Buf (Elt F) ((c : Thread nD τ).loc b) := fun c b => W3 m c b

/-- A stretch leaves alone every buffer that is not among those its operations write. -/
theorem W1_keep (c : Dev nD) (r : Ref sig .tc) (h : r ∉ hostOps0_W) :
    W1 m c (Proc.devRef .tc r) = W0 m c (Proc.devRef .tc r) :=
  StableHlo.after_of_writes_sub hostOps0 _ hostOps0_writes h
theorem W2_keep (c : Dev nD) (r : Ref sig .tc) (h : r ∉ hostOps0_1_W) :
    W2 m c (Proc.devRef .tc r) = W1 m c (Proc.devRef .tc r) :=
  StableHlo.after_of_writes_sub hostOps0_1 _ hostOps0_1_writes h
theorem W3_keep (c : Dev nD) (r : Ref sig .tc) (h : r ∉ hostOps0_2_W) :
    W3 m c (Proc.devRef .tc r) = W2 m c (Proc.devRef .tc r) :=
  StableHlo.after_of_writes_sub hostOps0_2 _ hostOps0_2_writes h

/-! ## The first layer (region 0) and the stretch after it -/

/-- When the first layer is left: its four arrays at what the write-backs leave (an input array as entered,
    the output array with all 25 row blocks written), every other buffer as entered. -/
def W4 (c : Dev nD) : Valuation τ sig (Elt F) :=
  Pipeline.withArrays spec0 c (W3 m c) fun w => (dat0 (V3 m) c).arrAt w cfg0.N
/-- At one of the layer's arrays, -/
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
/-- and at any other buffer. -/
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- The same contents, read at the core's own references. -/
abbrev V4 : (c : Dev nD) → (b : Ref sig .tc) → Buf (Elt F) ((c : Thread nD τ).loc b) := fun c b => W4 m c b
/-- The two facts that put the layer's arrays back among the core's buffers when it is left: each array holds what
    the write-backs leave, every other buffer holds what it held at entry. -/
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- An input array (windows 0, 1, 2) leaves the layer as it entered: nothing is written back to it. -/
theorem W4_in (c : Dev nD) (w : Fin cfg0.W) (hin : (cfg0.win w).isOut = false) :
    W4 m c (Proc.devRef .tc (Pipeline.arrRef spec0 w)) = W3 m c (Proc.devRef .tc (Pipeline.arrRef spec0 w)) :=
  (W4_arr m c w).trans (((dat0 (V3 m) c).arrAt_in w hin _).trans (A_eq0 (V3 m) c w))

/-- After the stretch that follows the first layer: what the second layer is entered with. -/
abbrev W5 : Dev nD → Valuation τ sig (Elt F) := fun c => StableHlo.after hostOps1 (W4 m c)
/-- The same, read at the core's own references. -/
abbrev V5 : (c : Dev nD) → (b : Ref sig .tc) → Buf (Elt F) ((c : Thread nD τ).loc b) := fun c b => W5 m c b
theorem W5_keep (c : Dev nD) (r : Ref sig .tc) (h : r ∉ hostOps1_W) :
    W5 m c (Proc.devRef .tc r) = W4 m c (Proc.devRef .tc r) :=
  StableHlo.after_of_writes_sub hostOps1 _ hostOps1_writes h

/-! ## The second layer (region 1) and the stretch after it -/

/-- When the second layer is left: its four arrays at what the write-backs leave (an input array as entered,
    the output array with all 25 row blocks written), every other buffer as entered. -/
def W6 (c : Dev nD) : Valuation τ sig (Elt F) :=
  Pipeline.withArrays spec1 c (W5 m c) fun w => (dat1 (V5 m) c).arrAt w cfg1.N
/-- At one of the layer's arrays, -/
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
/-- and at any other buffer. -/
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- The same contents, read at the core's own references. -/
abbrev V6 : (c : Dev nD) → (b : Ref sig .tc) → Buf (Elt F) ((c : Thread nD τ).loc b) := fun c b => W6 m c b
/-- The two facts that put the layer's arrays back among the core's buffers when it is left: each array holds what
    the write-backs leave, every other buffer holds what it held at entry. -/
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- An input array (windows 0, 1, 2) leaves the layer as it entered: nothing is written back to it. -/
theorem W6_in (c : Dev nD) (w : Fin cfg1.W) (hin : (cfg1.win w).isOut = false) :
    W6 m c (Proc.devRef .tc (Pipeline.arrRef spec1 w)) = W5 m c (Proc.devRef .tc (Pipeline.arrRef spec1 w)) :=
  (W6_arr m c w).trans (((dat1 (V5 m) c).arrAt_in w hin _).trans (A_eq1 (V5 m) c w))

/-- After the stretch that follows the second layer: what the third layer is entered with. -/
abbrev W7 : Dev nD → Valuation τ sig (Elt F) := fun c => StableHlo.after hostOps2 (W6 m c)
/-- The same, read at the core's own references. -/
abbrev V7 : (c : Dev nD) → (b : Ref sig .tc) → Buf (Elt F) ((c : Thread nD τ).loc b) := fun c b => W7 m c b
theorem W7_keep (c : Dev nD) (r : Ref sig .tc) (h : r ∉ hostOps2_W) :
    W7 m c (Proc.devRef .tc r) = W6 m c (Proc.devRef .tc r) :=
  StableHlo.after_of_writes_sub hostOps2 _ hostOps2_writes h

/-! ## The third layer (region 2) and the stretch after it -/

/-- When the third layer is left: its four arrays at what the write-backs leave (an input array as entered,
    the output array with all 25 row blocks written), every other buffer as entered. -/
def W8 (c : Dev nD) : Valuation τ sig (Elt F) :=
  Pipeline.withArrays spec2 c (W7 m c) fun w => (dat2 (V7 m) c).arrAt w cfg2.N
/-- At one of the layer's arrays, -/
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
/-- and at any other buffer. -/
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- The same contents, read at the core's own references. -/
abbrev V8 : (c : Dev nD) → (b : Ref sig .tc) → Buf (Elt F) ((c : Thread nD τ).loc b) := fun c b => W8 m c b
/-- The two facts that put the layer's arrays back among the core's buffers when it is left: each array holds what
    the write-backs leave, every other buffer holds what it held at entry. -/
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- An input array (windows 0, 1, 2) leaves the layer as it entered: nothing is written back to it. -/
theorem W8_in (c : Dev nD) (w : Fin cfg2.W) (hin : (cfg2.win w).isOut = false) :
    W8 m c (Proc.devRef .tc (Pipeline.arrRef spec2 w)) = W7 m c (Proc.devRef .tc (Pipeline.arrRef spec2 w)) :=
  (W8_arr m c w).trans (((dat2 (V7 m) c).arrAt_in w hin _).trans (A_eq2 (V7 m) c w))

/-- After the stretch that follows the third layer: what the fourth layer is entered with. -/
abbrev W9 : Dev nD → Valuation τ sig (Elt F) := fun c => StableHlo.after hostOps3 (W8 m c)
/-- The same, read at the core's own references. -/
abbrev V9 : (c : Dev nD) → (b : Ref sig .tc) → Buf (Elt F) ((c : Thread nD τ).loc b) := fun c b => W9 m c b
theorem W9_keep (c : Dev nD) (r : Ref sig .tc) (h : r ∉ hostOps3_W) :
    W9 m c (Proc.devRef .tc r) = W8 m c (Proc.devRef .tc r) :=
  StableHlo.after_of_writes_sub hostOps3 _ hostOps3_writes h

/-! ## The fourth layer (region 3) and the stretch after it -/

/-- When the fourth layer is left: its four arrays at what the write-backs leave (an input array as entered,
    the output array with all 25 row blocks written), every other buffer as entered. -/
def W10 (c : Dev nD) : Valuation τ sig (Elt F) :=
  Pipeline.withArrays spec3 c (W9 m c) fun w => (dat3 (V9 m) c).arrAt w cfg3.N
/-- At one of the layer's arrays, -/
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
/-- and at any other buffer. -/
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- The same contents, read at the core's own references. -/
abbrev V10 : (c : Dev nD) → (b : Ref sig .tc) → Buf (Elt F) ((c : Thread nD τ).loc b) := fun c b => W10 m c b
/-- The two facts that put the layer's arrays back among the core's buffers when it is left: each array holds what
    the write-backs leave, every other buffer holds what it held at entry. -/
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)
/-- An input array (windows 0, 1, 2) leaves the layer as it entered: nothing is written back to it. -/
theorem W10_in (c : Dev nD) (w : Fin cfg3.W) (hin : (cfg3.win w).isOut = false) :
    W10 m c (Proc.devRef .tc (Pipeline.arrRef spec3 w)) = W9 m c (Proc.devRef .tc (Pipeline.arrRef spec3 w)) :=
  (W10_arr m c w).trans (((dat3 (V9 m) c).arrAt_in w hin _).trans (A_eq3 (V9 m) c w))

/-- After the stretch that follows the fourth layer: the end of the program. -/
abbrev W11 : Dev nD → Valuation τ sig (Elt F) := fun c => StableHlo.after hostOps4 (W10 m c)
theorem W11_keep (c : Dev nD) (r : Ref sig .tc) (h : r ∉ hostOps4_W) :
    W11 m c (Proc.devRef .tc r) = W10 m c (Proc.devRef .tc r) :=
  StableHlo.after_of_writes_sub hostOps4 _ hostOps4_writes h

/-! ## The arguments end as launched

No operation of any stretch writes an argument buffer, and a layer has an argument only as an input array (the rows
`main_arg0` for the first two layers; the weights `main_arg2`, `main_arg4`, `main_arg6`, `main_arg8`, one per layer)
or not at all. So the contents at the end, followed back step by step, are the launch memory's. -/

theorem W11_main_arg0 (c : Dev nD) : W11 m c (Proc.devRef .tc main_arg0) = m ((c : Thread nD τ).loc main_arg0) :=
  calc W11 m c (Proc.devRef .tc main_arg0)
    _ = W10 m c (Proc.devRef .tc main_arg0) := W11_keep m c main_arg0 (by decide)
    _ = W9 m c (Proc.devRef .tc main_arg0) := W10_of_ne m c main_arg0 (by decide)
    _ = W8 m c (Proc.devRef .tc main_arg0) := W9_keep m c main_arg0 (by decide)
    _ = W7 m c (Proc.devRef .tc main_arg0) := W8_of_ne m c main_arg0 (by decide)
    _ = W6 m c (Proc.devRef .tc main_arg0) := W7_keep m c main_arg0 (by decide)
    _ = W5 m c (Proc.devRef .tc main_arg0) := W6_in m c 0 rfl
    _ = W4 m c (Proc.devRef .tc main_arg0) := W5_keep m c main_arg0 (by decide)
    _ = W3 m c (Proc.devRef .tc main_arg0) := W4_in m c 0 rfl
    _ = W2 m c (Proc.devRef .tc main_arg0) := W3_keep m c main_arg0 (by decide)
    _ = W1 m c (Proc.devRef .tc main_arg0) := W2_keep m c main_arg0 (by decide)
    _ = W0 m c (Proc.devRef .tc main_arg0) := W1_keep m c main_arg0 (by decide)
    _ = m ((c : Thread nD τ).loc main_arg0) := rfl

theorem W11_main_arg1 (c : Dev nD) : W11 m c (Proc.devRef .tc main_arg1) = m ((c : Thread nD τ).loc main_arg1) :=
  calc W11 m c (Proc.devRef .tc main_arg1)
    _ = W10 m c (Proc.devRef .tc main_arg1) := W11_keep m c main_arg1 (by decide)
    _ = W9 m c (Proc.devRef .tc main_arg1) := W10_of_ne m c main_arg1 (by decide)
    _ = W8 m c (Proc.devRef .tc main_arg1) := W9_keep m c main_arg1 (by decide)
    _ = W7 m c (Proc.devRef .tc main_arg1) := W8_of_ne m c main_arg1 (by decide)
    _ = W6 m c (Proc.devRef .tc main_arg1) := W7_keep m c main_arg1 (by decide)
    _ = W5 m c (Proc.devRef .tc main_arg1) := W6_of_ne m c main_arg1 (by decide)
    _ = W4 m c (Proc.devRef .tc main_arg1) := W5_keep m c main_arg1 (by decide)
    _ = W3 m c (Proc.devRef .tc main_arg1) := W4_of_ne m c main_arg1 (by decide)
    _ = W2 m c (Proc.devRef .tc main_arg1) := W3_keep m c main_arg1 (by decide)
    _ = W1 m c (Proc.devRef .tc main_arg1) := W2_keep m c main_arg1 (by decide)
    _ = W0 m c (Proc.devRef .tc main_arg1) := W1_keep m c main_arg1 (by decide)
    _ = m ((c : Thread nD τ).loc main_arg1) := rfl

theorem W11_main_arg2 (c : Dev nD) : W11 m c (Proc.devRef .tc main_arg2) = m ((c : Thread nD τ).loc main_arg2) :=
  calc W11 m c (Proc.devRef .tc main_arg2)
    _ = W10 m c (Proc.devRef .tc main_arg2) := W11_keep m c main_arg2 (by decide)
    _ = W9 m c (Proc.devRef .tc main_arg2) := W10_of_ne m c main_arg2 (by decide)
    _ = W8 m c (Proc.devRef .tc main_arg2) := W9_keep m c main_arg2 (by decide)
    _ = W7 m c (Proc.devRef .tc main_arg2) := W8_of_ne m c main_arg2 (by decide)
    _ = W6 m c (Proc.devRef .tc main_arg2) := W7_keep m c main_arg2 (by decide)
    _ = W5 m c (Proc.devRef .tc main_arg2) := W6_of_ne m c main_arg2 (by decide)
    _ = W4 m c (Proc.devRef .tc main_arg2) := W5_keep m c main_arg2 (by decide)
    _ = W3 m c (Proc.devRef .tc main_arg2) := W4_in m c 1 rfl
    _ = W2 m c (Proc.devRef .tc main_arg2) := W3_keep m c main_arg2 (by decide)
    _ = W1 m c (Proc.devRef .tc main_arg2) := W2_keep m c main_arg2 (by decide)
    _ = W0 m c (Proc.devRef .tc main_arg2) := W1_keep m c main_arg2 (by decide)
    _ = m ((c : Thread nD τ).loc main_arg2) := rfl

theorem W11_main_arg3 (c : Dev nD) : W11 m c (Proc.devRef .tc main_arg3) = m ((c : Thread nD τ).loc main_arg3) :=
  calc W11 m c (Proc.devRef .tc main_arg3)
    _ = W10 m c (Proc.devRef .tc main_arg3) := W11_keep m c main_arg3 (by decide)
    _ = W9 m c (Proc.devRef .tc main_arg3) := W10_of_ne m c main_arg3 (by decide)
    _ = W8 m c (Proc.devRef .tc main_arg3) := W9_keep m c main_arg3 (by decide)
    _ = W7 m c (Proc.devRef .tc main_arg3) := W8_of_ne m c main_arg3 (by decide)
    _ = W6 m c (Proc.devRef .tc main_arg3) := W7_keep m c main_arg3 (by decide)
    _ = W5 m c (Proc.devRef .tc main_arg3) := W6_of_ne m c main_arg3 (by decide)
    _ = W4 m c (Proc.devRef .tc main_arg3) := W5_keep m c main_arg3 (by decide)
    _ = W3 m c (Proc.devRef .tc main_arg3) := W4_of_ne m c main_arg3 (by decide)
    _ = W2 m c (Proc.devRef .tc main_arg3) := W3_keep m c main_arg3 (by decide)
    _ = W1 m c (Proc.devRef .tc main_arg3) := W2_keep m c main_arg3 (by decide)
    _ = W0 m c (Proc.devRef .tc main_arg3) := W1_keep m c main_arg3 (by decide)
    _ = m ((c : Thread nD τ).loc main_arg3) := rfl

theorem W11_main_arg4 (c : Dev nD) : W11 m c (Proc.devRef .tc main_arg4) = m ((c : Thread nD τ).loc main_arg4) :=
  calc W11 m c (Proc.devRef .tc main_arg4)
    _ = W10 m c (Proc.devRef .tc main_arg4) := W11_keep m c main_arg4 (by decide)
    _ = W9 m c (Proc.devRef .tc main_arg4) := W10_of_ne m c main_arg4 (by decide)
    _ = W8 m c (Proc.devRef .tc main_arg4) := W9_keep m c main_arg4 (by decide)
    _ = W7 m c (Proc.devRef .tc main_arg4) := W8_of_ne m c main_arg4 (by decide)
    _ = W6 m c (Proc.devRef .tc main_arg4) := W7_keep m c main_arg4 (by decide)
    _ = W5 m c (Proc.devRef .tc main_arg4) := W6_in m c 1 rfl
    _ = W4 m c (Proc.devRef .tc main_arg4) := W5_keep m c main_arg4 (by decide)
    _ = W3 m c (Proc.devRef .tc main_arg4) := W4_of_ne m c main_arg4 (by decide)
    _ = W2 m c (Proc.devRef .tc main_arg4) := W3_keep m c main_arg4 (by decide)
    _ = W1 m c (Proc.devRef .tc main_arg4) := W2_keep m c main_arg4 (by decide)
    _ = W0 m c (Proc.devRef .tc main_arg4) := W1_keep m c main_arg4 (by decide)
    _ = m ((c : Thread nD τ).loc main_arg4) := rfl

theorem W11_main_arg5 (c : Dev nD) : W11 m c (Proc.devRef .tc main_arg5) = m ((c : Thread nD τ).loc main_arg5) :=
  calc W11 m c (Proc.devRef .tc main_arg5)
    _ = W10 m c (Proc.devRef .tc main_arg5) := W11_keep m c main_arg5 (by decide)
    _ = W9 m c (Proc.devRef .tc main_arg5) := W10_of_ne m c main_arg5 (by decide)
    _ = W8 m c (Proc.devRef .tc main_arg5) := W9_keep m c main_arg5 (by decide)
    _ = W7 m c (Proc.devRef .tc main_arg5) := W8_of_ne m c main_arg5 (by decide)
    _ = W6 m c (Proc.devRef .tc main_arg5) := W7_keep m c main_arg5 (by decide)
    _ = W5 m c (Proc.devRef .tc main_arg5) := W6_of_ne m c main_arg5 (by decide)
    _ = W4 m c (Proc.devRef .tc main_arg5) := W5_keep m c main_arg5 (by decide)
    _ = W3 m c (Proc.devRef .tc main_arg5) := W4_of_ne m c main_arg5 (by decide)
    _ = W2 m c (Proc.devRef .tc main_arg5) := W3_keep m c main_arg5 (by decide)
    _ = W1 m c (Proc.devRef .tc main_arg5) := W2_keep m c main_arg5 (by decide)
    _ = W0 m c (Proc.devRef .tc main_arg5) := W1_keep m c main_arg5 (by decide)
    _ = m ((c : Thread nD τ).loc main_arg5) := rfl

theorem W11_main_arg6 (c : Dev nD) : W11 m c (Proc.devRef .tc main_arg6) = m ((c : Thread nD τ).loc main_arg6) :=
  calc W11 m c (Proc.devRef .tc main_arg6)
    _ = W10 m c (Proc.devRef .tc main_arg6) := W11_keep m c main_arg6 (by decide)
    _ = W9 m c (Proc.devRef .tc main_arg6) := W10_of_ne m c main_arg6 (by decide)
    _ = W8 m c (Proc.devRef .tc main_arg6) := W9_keep m c main_arg6 (by decide)
    _ = W7 m c (Proc.devRef .tc main_arg6) := W8_in m c 1 rfl
    _ = W6 m c (Proc.devRef .tc main_arg6) := W7_keep m c main_arg6 (by decide)
    _ = W5 m c (Proc.devRef .tc main_arg6) := W6_of_ne m c main_arg6 (by decide)
    _ = W4 m c (Proc.devRef .tc main_arg6) := W5_keep m c main_arg6 (by decide)
    _ = W3 m c (Proc.devRef .tc main_arg6) := W4_of_ne m c main_arg6 (by decide)
    _ = W2 m c (Proc.devRef .tc main_arg6) := W3_keep m c main_arg6 (by decide)
    _ = W1 m c (Proc.devRef .tc main_arg6) := W2_keep m c main_arg6 (by decide)
    _ = W0 m c (Proc.devRef .tc main_arg6) := W1_keep m c main_arg6 (by decide)
    _ = m ((c : Thread nD τ).loc main_arg6) := rfl

theorem W11_main_arg7 (c : Dev nD) : W11 m c (Proc.devRef .tc main_arg7) = m ((c : Thread nD τ).loc main_arg7) :=
  calc W11 m c (Proc.devRef .tc main_arg7)
    _ = W10 m c (Proc.devRef .tc main_arg7) := W11_keep m c main_arg7 (by decide)
    _ = W9 m c (Proc.devRef .tc main_arg7) := W10_of_ne m c main_arg7 (by decide)
    _ = W8 m c (Proc.devRef .tc main_arg7) := W9_keep m c main_arg7 (by decide)
    _ = W7 m c (Proc.devRef .tc main_arg7) := W8_of_ne m c main_arg7 (by decide)
    _ = W6 m c (Proc.devRef .tc main_arg7) := W7_keep m c main_arg7 (by decide)
    _ = W5 m c (Proc.devRef .tc main_arg7) := W6_of_ne m c main_arg7 (by decide)
    _ = W4 m c (Proc.devRef .tc main_arg7) := W5_keep m c main_arg7 (by decide)
    _ = W3 m c (Proc.devRef .tc main_arg7) := W4_of_ne m c main_arg7 (by decide)
    _ = W2 m c (Proc.devRef .tc main_arg7) := W3_keep m c main_arg7 (by decide)
    _ = W1 m c (Proc.devRef .tc main_arg7) := W2_keep m c main_arg7 (by decide)
    _ = W0 m c (Proc.devRef .tc main_arg7) := W1_keep m c main_arg7 (by decide)
    _ = m ((c : Thread nD τ).loc main_arg7) := rfl

theorem W11_main_arg8 (c : Dev nD) : W11 m c (Proc.devRef .tc main_arg8) = m ((c : Thread nD τ).loc main_arg8) :=
  calc W11 m c (Proc.devRef .tc main_arg8)
    _ = W10 m c (Proc.devRef .tc main_arg8) := W11_keep m c main_arg8 (by decide)
    _ = W9 m c (Proc.devRef .tc main_arg8) := W10_in m c 1 rfl
    _ = W8 m c (Proc.devRef .tc main_arg8) := W9_keep m c main_arg8 (by decide)
    _ = W7 m c (Proc.devRef .tc main_arg8) := W8_of_ne m c main_arg8 (by decide)
    _ = W6 m c (Proc.devRef .tc main_arg8) := W7_keep m c main_arg8 (by decide)
    _ = W5 m c (Proc.devRef .tc main_arg8) := W6_of_ne m c main_arg8 (by decide)
    _ = W4 m c (Proc.devRef .tc main_arg8) := W5_keep m c main_arg8 (by decide)
    _ = W3 m c (Proc.devRef .tc main_arg8) := W4_of_ne m c main_arg8 (by decide)
    _ = W2 m c (Proc.devRef .tc main_arg8) := W3_keep m c main_arg8 (by decide)
    _ = W1 m c (Proc.devRef .tc main_arg8) := W2_keep m c main_arg8 (by decide)
    _ = W0 m c (Proc.devRef .tc main_arg8) := W1_keep m c main_arg8 (by decide)
    _ = m ((c : Thread nD τ).loc main_arg8) := rfl

theorem W11_main_arg9 (c : Dev nD) : W11 m c (Proc.devRef .tc main_arg9) = m ((c : Thread nD τ).loc main_arg9) :=
  calc W11 m c (Proc.devRef .tc main_arg9)
    _ = W10 m c (Proc.devRef .tc main_arg9) := W11_keep m c main_arg9 (by decide)
    _ = W9 m c (Proc.devRef .tc main_arg9) := W10_of_ne m c main_arg9 (by decide)
    _ = W8 m c (Proc.devRef .tc main_arg9) := W9_keep m c main_arg9 (by decide)
    _ = W7 m c (Proc.devRef .tc main_arg9) := W8_of_ne m c main_arg9 (by decide)
    _ = W6 m c (Proc.devRef .tc main_arg9) := W7_keep m c main_arg9 (by decide)
    _ = W5 m c (Proc.devRef .tc main_arg9) := W6_of_ne m c main_arg9 (by decide)
    _ = W4 m c (Proc.devRef .tc main_arg9) := W5_keep m c main_arg9 (by decide)
    _ = W3 m c (Proc.devRef .tc main_arg9) := W4_of_ne m c main_arg9 (by decide)
    _ = W2 m c (Proc.devRef .tc main_arg9) := W3_keep m c main_arg9 (by decide)
    _ = W1 m c (Proc.devRef .tc main_arg9) := W2_keep m c main_arg9 (by decide)
    _ = W0 m c (Proc.devRef .tc main_arg9) := W1_keep m c main_arg9 (by decide)
    _ = m ((c : Thread nD τ).loc main_arg9) := rfl

end Cert.KernelIdeal.Fr

end
-- ==== Proof.KI.Run.lean ====
import proofs.«153277_j13786845020601_1_alg».proof.Proof.KI.Fold

/-! # The run of the whole program

The program's eleven items as segments of one run: each stretch of host operations over the core's buffers from
the contents at its boundary, each layer as a region entered from every buffer at its entry contents and left with
its four arrays put back among them at what the write-backs leave. The contents chain from the launch memory to
`W11`; at the end every buffer is read against the final state, which gives the result buffer `main_v94` as the
fold has it and the ten argument buffers as launched. -/

-- deciding facts over the 152 references recurses past the default depth
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the memory the program is launched on
variable (m : (ℓ : Loc nD τ sig) → Buf (Elt F) ℓ)

/-! ## The layers' descriptions and the state a core carries between items -/

/-- No layer has a prefetched table, so there is nothing to admit. -/
abbrev adm : (p : Fin 4) → (pcfgs (F := F) p).Adm := fun p => (cfgs p).toPCfg_adm
/-- Each layer's description, at the contents the layer is entered with. -/
def pdats : (p : Fin 4) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
abbrev 𝒱₀ : Variants := Variants.none
/-- No core ever owes another a signal, so no pair of cores is given a level. -/
abbrev L : GSem nD τ sig → Finset Unit := fun _ => ∅
abbrev lv : GSem nD τ sig → Unit → ℕ := fun _ _ => 0
/-- What a core carries beside its buffers through every item: its random-number register at some state, and the
    record that it owes nothing. -/
abbrev R (c : Dev nD) : sProp 𝕄 := iprop((∃ r, prngReg c r) ∗ ∃ W, owes (c : Thread nD τ) (0 : CellTallies nD τ sig Unit) W)
/-- A stretch of host operations as a segment: over all the core's unscoped buffers from the contents `W`, to the
    contents `StableHlo.after ops (W c)`, with `R` carried along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A reference of the core that is not scoped is one of the buffers the state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, without the record of owing nothing: every unscoped buffer at the final contents `W11`, the
    random-number register at some state. -/
abbrev Tₙ (c : Dev nD) : sProp 𝕄 := iprop(StableHlo.held (c : Thread nD τ) (Pipeline.ucRefs τ sig) (W11 m c) ∗ ∃ r, prngReg c r)

/-! ## The layers as segments

All four have the same shape. On entry the layer's four arrays are split out of the core's buffers (they are
distinct whole buffers, and the description's arrays are read off the entry contents); the register goes into the
layer's invariant and comes back; nothing is owed and the layer has no semaphore of its own. On exit the arrays go
back among the buffers at the exit contents (`hFK`, `hrestK`). -/

-- the library's lemmas are stated over the configuration `pin pcs a p`; matching it with the printed one needs
-- definitions unfolded inside the types of unknowns
set_option backward.isDefEq.respectTransparency.types false in
/-- The first layer: entered from every unscoped buffer at `W3`, left at `W4`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the configuration `pin pcs a p`; matching it with the printed one needs
-- definitions unfolded inside the types of unknowns
set_option backward.isDefEq.respectTransparency.types false in
/-- The second layer: entered from every unscoped buffer at `W5`, left at `W6`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the configuration `pin pcs a p`; matching it with the printed one needs
-- definitions unfolded inside the types of unknowns
set_option backward.isDefEq.respectTransparency.types false in
/-- The third layer: entered from every unscoped buffer at `W7`, left at `W8`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the configuration `pin pcs a p`; matching it with the printed one needs
-- definitions unfolded inside the types of unknowns
set_option backward.isDefEq.respectTransparency.types false in
/-- The fourth layer: entered from every unscoped buffer at `W9`, left at `W10`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The eleven items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)) ]

-- the launch theorem's implicit arguments are found by matching its conclusion with this statement, which needs
-- definitions unfolded inside the types of unknowns
set_option backward.isDefEq.respectTransparency.types false in
/-- THE RUN. From any memory `m` with every counter at zero, every weakly fair execution of the program on the cores
    terminates without fault, and in every final state the result buffer `main_v94` holds what the fold says
    (`W11`) and each of the ten argument buffers holds what it held at launch. The segments' states chain by
    definition; the first state is what the launch deals each core; the last state's buffers are read against the
    final memory one by one. -/
theorem run_main (ρ : Dev nD → PrngReg) : θ_run defs (onTc (τ := τ) (main (F := F))) ⟨m, fun _ => 0, ρ⟩ (fun r => ∀ c : Dev nD,
      r.2.mem ((c.tc : Thread nD τ).loc main_v94) = W11 m c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun c => by
        show (iprop(StableHlo.held (c : Thread nD τ) (Pipeline.ucRefs τ sig) (W11 m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c =>
      ⟨h c _ (mem_uc main_v94 (by decide)),
       (h c _ (mem_uc main_arg0 (by decide))).trans (W11_main_arg0 m c),
       (h c _ (mem_uc main_arg1 (by decide))).trans (W11_main_arg1 m c),
       (h c _ (mem_uc main_arg2 (by decide))).trans (W11_main_arg2 m c),
       (h c _ (mem_uc main_arg3 (by decide))).trans (W11_main_arg3 m c),
       (h c _ (mem_uc main_arg4 (by decide))).trans (W11_main_arg4 m c),
       (h c _ (mem_uc main_arg5 (by decide))).trans (W11_main_arg5 m c),
       (h c _ (mem_uc main_arg6 (by decide))).trans (W11_main_arg6 m c),
       (h c _ (mem_uc main_arg7 (by decide))).trans (W11_main_arg7 m c),
       (h c _ (mem_uc main_arg8 (by decide))).trans (W11_main_arg8 m c),
       (h c _ (mem_uc main_arg9 (by decide))).trans (W11_main_arg9 m c)⟩)

/-- The same run, keeping only what it says of the arguments: each ends as launched. -/
theorem frame_main (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_main m ρ)

/-- info: 'Cert.KernelIdeal.Fr.run_main' depends on axioms: [propext, Classical.choice, Quot.sound] -/
#guard_msgs in #print axioms run_main

/-- info: 'Cert.KernelIdeal.Fr.frame_main' depends on axioms: [propext, Classical.choice, Quot.sound] -/
#guard_msgs in #print axioms frame_main

end Cert.KernelIdeal.Fr

end
-- ==== Proof.KI.Spec.lean ====
/-
  The value each of the four row-blocked products leaves in its output array, as one function of the three arrays it
  reads: an `M × K` matrix `x`, a `K × N` matrix `w` and a one-row `1 × N` array `b`. Entry `(r, j)` is the inner
  product of row `r` of `x` with column `j` of `w`, plus `b` at column `j`; the first product is then clipped below
  at zero. Over the extended reals, where every sum and product is exact.
-/
import proofs.«153277_j13786845020601_1_alg».proof.KernelIdeal
import Idealize.ShloMosaic.Lib.ValueIdx
import Idealize.ShloMosaic.PureOps.Ideal.Laws

noncomputable section

open scoped BigOperators

namespace Cert.KernelIdeal.Fr

open Idealize.ShloMosaic Idealize.ShloMosaic.ValueIdx
open Cert.KernelIdeal

/-- Rows of `x` against columns of `w`, shifted by the one row `b`: entry `(r, j)` is `∑ k, x (r, k) * w (k, j) + b (0, j)`.
    It depends on row `r` of `x`, column `j` of `w` and entry `j` of `b` only. -/
def rowsTimes {M K N : ℕ} (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => (∑ k : Fin K, x (ix2 (i 0 : Fin M) k) * w (ix2 k (i 1 : Fin N))) + b (ix2 (0 : Fin 1) (i 1 : Fin N))

/-- `rowsTimes` at the entry with coordinates `(r, j)`. -/
theorem rowsTimes_apply {M K N : ℕ} (x : (⟨2, ![M, K]⟩ : Shape).Idx → EReal) (w : (⟨2, ![K, N]⟩ : Shape).Idx → EReal)
    (b : (⟨2, ![1, N]⟩ : Shape).Idx → EReal) (r : Fin M) (j : Fin N) :
    rowsTimes x w b (ix2 r j) = (∑ k : Fin K, x (ix2 r k) * w (ix2 k j)) + b (ix2 (0 : Fin 1) j) := rfl

/-- The first product: `max (∑ k, x (r, k) * w (k, j) + b (0, j)) 0` at `(r, j)`, with 128 contracted coordinates. -/
def mm0 (x : S100000x128.Idx → EReal) (w : S128x128.Idx → EReal) (b : S1x128.Idx → EReal) : S100000x128.Idx → EReal :=
  fun i => max (rowsTimes (M := 100000) (K := 128) (N := 128) x w b i) 0

/-- The second product: `∑ k, x (r, k) * w (k, j) + b (0, j)` at `(r, j)`, with 128 contracted coordinates. -/
def mm1 (x : S100000x128.Idx → EReal) (w : S128x128.Idx → EReal) (b : S1x128.Idx → EReal) : S100000x128.Idx → EReal :=
  rowsTimes (M := 100000) (K := 128) (N := 128) x w b

/-- The third product: the same with 256 contracted coordinates. -/
def mm2 (x : S100000x256.Idx → EReal) (w : S256x128.Idx → EReal) (b : S1x128.Idx → EReal) : S100000x128.Idx → EReal :=
  rowsTimes (M := 100000) (K := 256) (N := 128) x w b

/-- The fourth product: the same with 384 contracted coordinates. -/
def mm3 (x : S100000x384.Idx → EReal) (w : S384x128.Idx → EReal) (b : S1x128.Idx → EReal) : S100000x128.Idx → EReal :=
  rowsTimes (M := 100000) (K := 384) (N := 128) x w b

theorem mm0_apply (x : S100000x128.Idx → EReal) (w : S128x128.Idx → EReal) (b : S1x128.Idx → EReal)
    (r : Fin 100000) (j : Fin 128) :
    mm0 x w b (ix2 r j) = max ((∑ k : Fin 128, x (ix2 r k) * w (ix2 k j)) + b (ix2 (0 : Fin 1) j)) 0 := rfl

theorem mm1_apply (x : S100000x128.Idx → EReal) (w : S128x128.Idx → EReal) (b : S1x128.Idx → EReal)
    (r : Fin 100000) (j : Fin 128) :
    mm1 x w b (ix2 r j) = (∑ k : Fin 128, x (ix2 r k) * w (ix2 k j)) + b (ix2 (0 : Fin 1) j) := rfl

theorem mm2_apply (x : S100000x256.Idx → EReal) (w : S256x128.Idx → EReal) (b : S1x128.Idx → EReal)
    (r : Fin 100000) (j : Fin 128) :
    mm2 x w b (ix2 r j) = (∑ k : Fin 256, x (ix2 r k) * w (ix2 k j)) + b (ix2 (0 : Fin 1) j) := rfl

theorem mm3_apply (x : S100000x384.Idx → EReal) (w : S384x128.Idx → EReal) (b : S1x128.Idx → EReal)
    (r : Fin 100000) (j : Fin 128) :
    mm3 x w b (ix2 r j) = (∑ k : Fin 384, x (ix2 r k) * w (ix2 k j)) + b (ix2 (0 : Fin 1) j) := rfl

end Cert.KernelIdeal.Fr

end
-- ==== Proof.LibMatmulIx.lean ====
/-
  A matrix product accumulated into the zero array, read at one entry.

  For an `M × K` matrix `A` and a `K × N` matrix `B` whose product contracts the second axis of `A` with the first
  axis of `B` (no batch axis), the entry `(a, b)` of the product added to the all-zero `M × N` array is the sum over
  the contracted coordinate `c` of `A (a, c) * B (c, b)`. Stated over the extended reals, for any extents and for any
  proof that the dimension numbers are well formed, so that it applies to every record with these dimension numbers.
-/
import Idealize.ShloMosaic.Lib.ValueIdx
import Idealize.ShloMosaic.PureOps.Ideal.Laws

noncomputable section

open scoped BigOperators

namespace Cert.LibMatmulIx

open Idealize.ShloMosaic Idealize.ShloMosaic.ValueIdx

/-- The product of an `M × K` by a `K × N` matrix into the zero accumulator, at entry `(a, b)`: the sum over the
    contracted coordinate of the products of the entries `A (a, c)` and `B (c, b)`. The contraction index has one
    axis, of extent `K`; the sum over it is re-indexed by that axis's coordinate, and the two operand indices are
    read coordinate by coordinate. -/
theorem matmul_zero_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulIx

end
-- ==== Proof.KI.Pay0.lean ====
/-
  The first product's block, entry by entry: from a `4000 × 128` block of rows, the whole `128 × 128` matrix and the one
  row, entry `(p, q)` of what the body stores is the inner product of block row `p` with column `q`, plus the row's
  entry `q`, clipped below at zero. Over the extended reals the two roundings of the operands to a narrower format are
  the identity, the accumulator the product is added to is the zero array, the one row is read at every block row
  alike, and the word the maximum is taken against denotes zero.
-/
import proofs.«153277_j13786845020601_1_alg».proof.Proof.Gen.KernelIdeal.Skeleton
import proofs.«153277_j13786845020601_1_alg».proof.Proof.KI.Spec
import proofs.«153277_j13786845020601_1_alg».proof.Proof.LibMatmulIx
import Idealize.ShloMosaic.Lib.ValueLayout
import Idealize.ShloMosaic.Lib.Pipeline.Value

noncomputable section

open scoped BigOperators

namespace Cert.KernelIdeal.Fr

open Idealize.ShloMosaic Idealize.ShloMosaic.ValueIdx
open Cert.KernelIdeal Cert.KernelIdeal.Gen

/-- Entry `(p, q)` of the stored block: `max (∑ k, x0 (p, k) * x1 (k, q) + x2 (0, q)) 0`. It depends on row `p` of the
    block, column `q` of the matrix and entry `q` of the row. -/
theorem pay0_apply (x0 : Vec Ideal S4000x128 .f32) (x1 : Vec Ideal S128x128 .f32) (x2 : Vec Ideal S1x128 .f32)
    (p : Fin 4000) (q : Fin 128) :
    k0_pay1 (F := Ideal) x0 x1 x2 (ix2 p q)
      = max ((∑ k : Fin 128, x0 (ix2 p k) * x1 (ix2 k q)) + x2 (ix2 (0 : Fin 1) q)) 0 := by
  unfold k0_pay1
  -- the maximum, entry by entry, of the shifted product and the array that is zero everywhere
  refine (maximumf_apply _ _ (ix2 p q)).trans ?_
  refine congrArg₂ max ?_ ?_
  · -- the sum of the product into the zero array and the broadcast row, at the entry
    refine (addf_apply _ _ (ix2 p q)).trans ?_
    refine congrArg₂ (· + ·) ?_ ?_
    · -- the product: the roundings are the identity, so its operands are the block and the matrix themselves
      exact Cert.LibMatmulIx.matmul_zero_apply (M := 4000) (K := 128) (N := 128) (φ₁ := .bf16) (φ₂ := .bf16)
        dot_S4000x128_S128x128_S4000x128_1_0_0_1_n_n.wf none _ _ p q
    · -- the one row, cast to its own shape and read at every block row
      refine (broadcastTo_1b_ab_apply _ _ p q).trans ?_
      rw [shapeCast_self]
  · -- the all-zero word denotes the extended real zero
    exact Ideal.ofBits_zero_f32

end Cert.KernelIdeal.Fr

end
-- ==== Proof.KI.Val0.lean ====
/-
  The first product's output array after its 25 row blocks. Grid point `t` writes back rows `4000 t … 4000 t + 3999`:
  entry `(p, q)` of its block is the inner product of row `4000 t + p` of the left array with column `q` of the matrix,
  plus the one row's entry `q`, clipped below at zero — the block of ONE function of the three arrays. Row `r` lies in the block of point
  `r / 4000`, so the 25 blocks cover the array and it ends holding that function.
-/
import proofs.«153277_j13786845020601_1_alg».proof.Proof.KI.Region0
import proofs.«153277_j13786845020601_1_alg».proof.Proof.KI.Pay0
import Idealize.ShloMosaic.Lib.Pipeline.Value

noncomputable section

open scoped BigOperators

namespace Cert.KernelIdeal.Fr

open Idealize.ShloMosaic Idealize.ShloMosaic.TcCoe Idealize.SL.Sem Idealize.ShloMosaic.ValueIdx
open Idealize.ShloMosaic.Pipeline (Dat)
open Cert.KernelIdeal Cert.KernelIdeal.Gen

-- the core's buffer contents when the region is entered
variable (V : (c : Dev nD) → (b : Ref sig .tc) → Buf (Elt Ideal) ((c : Thread nD τ).loc b))

/-- The body's rectangles all start at the origin. -/
theorem origin0 : (![0, 0] : Fin 2 → Nat) = fun _ => 0 := funext fun a => by fin_cases a <;> rfl

/-- The four index maps, decided over the 25 grid points: the left array's and the output's blocks are block row `t`,
    the matrix's and the one row's are the one block there is; and every point writes its output block back. -/
theorem blockIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ (cfg0.win 3).flush t = true :=
  (by decide +kernel : ∀ t : Fin grid0.N, _)

/-- There are 25 grid points. -/
theorem point_lt0 (t : Fin cfg0.N) : t.val < 25 :=
  Nat.lt_of_lt_of_eq t.isLt (show cfg0.N = 25 from N_0)

/-- The left array's block at point `t`: its entry `(p, k)` is the array's entry `(4000 t + p, k)`. -/
theorem leftBlock0_apply (c : Dev nD) (t : Fin cfg0.N) (p : Fin 4000) (k : Fin 128) (r : Fin 100000)
    (hr : r.val = 4000 * t.val + p.val) :
    (iblk0 V c 0 t : Vec Ideal S4000x128 .f32) (ix2 p k) = (V c main_arg0 : S100000x128.Idx → EReal) (ix2 r k) := by
  obtain ⟨e0, e1, -⟩ := blockIndex0 t
  show V c main_arg0 (((cfg0.win 0).blk t).view.emb (ix2 p k)) = _
  refine congrArg (V c main_arg0) (funext fun a => Fin.ext ?_)
  match a with
  | ⟨0, _⟩ => show win0_0.index t (0 : Fin 2) * 4000 + 1 * p.val = r.val; rw [e0, hr]; omega
  | ⟨1, _⟩ => show win0_0.index t (1 : Fin 2) * 128 + 1 * k.val = k.val; rw [e1]; omega

/-- The matrix's block at any point is the whole matrix. -/
theorem matrixBlock0_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -⟩ := blockIndex0 t
  show V c main_arg2 (((cfg0.win 1).blk t).view.emb (ix2 k q)) = _
  refine congrArg (V c main_arg2) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- The one row's block at any point is the whole row. -/
theorem rowBlock0_apply (c : Dev nD) (t : Fin cfg0.N) (q : Fin 128) :
    (iblk0 V c 2 t : Vec Ideal S1x128 .f32) (ix2 (0 : Fin 1) q) = (V c main_v31 : S1x128.Idx → EReal) (ix2 (0 : Fin 1) q) := by
  obtain ⟨-, -, -, -, e4, e5, -⟩ := blockIndex0 t
  show V c main_v31 (((cfg0.win 2).blk t).view.emb (ix2 (0 : Fin 1) q)) = _
  refine congrArg (V c main_v31) (funext fun a => Fin.ext ?_)
  match a with
  | ⟨0, _⟩ => show win0_2.index t (0 : Fin 2) * 1 + 1 * 0 = 0; rw [e4]
  | ⟨1, _⟩ => show win0_2.index t (1 : Fin 2) * 128 + 1 * q.val = q.val; rw [e5]; omega

/-- The output's block at point `t` sits at rows `4000 t …`: its entry `(p, q)` is the array's index `(4000 t + p, q)`. -/
theorem outBlock0_emb (t : Fin cfg0.N) (p : Fin 4000) (q : Fin 128) (r : Fin 100000)
    (hr : r.val = 4000 * t.val + p.val) :
    ((cfg0.win 3).blk t).view.emb (ix2 p q) = (ix2 r q : S100000x128.Idx) := by
  obtain ⟨-, -, -, -, -, -, e6, e7, -⟩ := blockIndex0 t
  funext a
  apply Fin.ext
  match a with
  | ⟨0, _⟩ => show win0_3.index t (0 : Fin 2) * 4000 + 1 * p.val = r.val; rw [e6, hr]; omega
  | ⟨1, _⟩ => show win0_3.index t (1 : Fin 2) * 128 + 1 * q.val = q.val; rw [e7]; omega

/-- WHAT POINT `t` WRITES BACK is block `t` of `mm0` of the three arrays as the region finds them. -/
theorem flushed0_eq (c : Dev nD) (t : Fin cfg0.N) :
    (dat0 (F := Ideal) V c).flushed 3 t
      = ((cfg0.win 3).blk t).view.read (Elt Ideal) (mm0 (V c main_arg0) (V c main_arg2) (V c main_v31)) := by
  show (cfg0.win 3).cut (grid0.coords t) ((dat0 (F := Ideal) V c).after 3 t) = _
  rw [after0_3]
  unfold out0_3
  rw [View.canon_unit_zero origin0]
  simp only [View.ld_unit_zero (S := S4000x128) origin0, View.ld_unit_zero (S := S128x128) origin0,
    View.ld_unit_zero (S := S1x128) origin0]
  funext y
  obtain ⟨p, q, rfl⟩ : ∃ (p : Fin 4000) (q : Fin 128), y = ix2 p q := ⟨y 0, y 1, eq_ix2 y⟩
  have ht := point_lt0 t
  have hp := p.isLt
  show k0_pay1 (F := Ideal) (iblk0 V c 0 t) (iblk0 V c 1 t) (iblk0 V c 2 t) (ix2 p q)
    = mm0 (V c main_arg0) (V c main_arg2) (V c main_v31) (((cfg0.win 3).blk t).view.emb (ix2 p q))
  rw [outBlock0_emb t p q ⟨4000 * t.val + p.val, by omega⟩ rfl, mm0_apply]
  refine (pay0_apply (iblk0 V c 0 t) (iblk0 V c 1 t) (iblk0 V c 2 t) p q).trans ?_
  refine congrArg (max · 0) ?_
  refine congrArg₂ (· + ·) (Finset.sum_congr rfl fun k _ => congrArg₂ (· * ·) ?_ ?_) ?_
  · exact leftBlock0_apply V c t p k ⟨4000 * t.val + p.val, by omega⟩ rfl
  · exact matrixBlock0_apply V c t k q
  · exact rowBlock0_apply V c t q

/-- An index of the output array is in point `t`'s block iff each coordinate is in the block's range on its axis. -/
theorem mem_outBlock0 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v32).slice (win0_3.rect t)).set ↔ _
  rw [View.set_slice_whole, Rect.mem_set_unit]
  exact Iff.rfl

/-- Every index of the output array is in the block of the point its row falls in, `r / 4000`, and that point
    writes its block back. -/
theorem covered0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, e6, e7, hf⟩ := blockIndex0 t
  refine ⟨t, hf, ?_⟩
  rw [mem_outBlock0]
  intro a
  match a with
  | ⟨0, _⟩ =>
    show win0_3.index t (0 : Fin 2) * 4000 ≤ (i 0).val ∧ (i 0).val < win0_3.index t (0 : Fin 2) * 4000 + 4000
    rw [e6, ht]; omega
  | ⟨1, _⟩ =>
    show win0_3.index t (1 : Fin 2) * 128 ≤ (i 1).val ∧ (i 1).val < win0_3.index t (1 : Fin 2) * 128 + 128
    rw [e7]; omega

/-- THE OUTPUT ARRAY after the region's 25 points: `mm0` of the three arrays it read, as the region found them. -/
theorem final0 (c : Dev nD) :
    (dat0 (F := Ideal) V c).arrAt 3 cfg0.N = mm0 (V c main_arg0) (V c main_arg2) (V c main_v31) :=
  (dat0 (F := Ideal) V c).arrAt_eq_of_cover 3 (mm0 (V c main_arg0) (V c main_arg2) (V c main_v31))
    (fun t _ => flushed0_eq V c t) covered0

end Cert.KernelIdeal.Fr

end
-- ==== Proof.KI.Pay1.lean ====
/-
  The second product's block, entry by entry: from a `4000 × 128` block of rows, the whole `128 × 128` matrix and the one
  row, entry `(p, q)` of what the body stores is the inner product of block row `p` with column `q`, plus the row's
  entry `q`. Over the extended reals the two roundings of the operands to a narrower format are the identity, the
  accumulator the product is added to is the zero array, and the one row is read at every block row alike.
-/
import proofs.«153277_j13786845020601_1_alg».proof.Proof.Gen.KernelIdeal.Skeleton
import proofs.«153277_j13786845020601_1_alg».proof.Proof.KI.Spec
import proofs.«153277_j13786845020601_1_alg».proof.Proof.LibMatmulIx
import Idealize.ShloMosaic.Lib.ValueLayout
import Idealize.ShloMosaic.Lib.Pipeline.Value

noncomputable section

open scoped BigOperators

namespace Cert.KernelIdeal.Fr

open Idealize.ShloMosaic Idealize.ShloMosaic.ValueIdx
open Cert.KernelIdeal Cert.KernelIdeal.Gen

/-- Entry `(p, q)` of the stored block: `∑ k, x0 (p, k) * x1 (k, q) + x2 (0, q)`. It depends on row `p` of the block,
    column `q` of the matrix and entry `q` of the row. -/
theorem pay1_apply (x0 : Vec Ideal S4000x128 .f32) (x1 : Vec Ideal S128x128 .f32) (x2 : Vec Ideal S1x128 .f32)
    (p : Fin 4000) (q : Fin 128) :
    k1_pay1 (F := Ideal) x0 x1 x2 (ix2 p q)
      = (∑ k : Fin 128, x0 (ix2 p k) * x1 (ix2 k q)) + x2 (ix2 (0 : Fin 1) q) := by
  unfold k1_pay1
  -- the sum of the product into the zero array and the broadcast row, at the entry
  refine (addf_apply _ _ (ix2 p q)).trans ?_
  refine congrArg₂ (· + ·) ?_ ?_
  · -- the product: the roundings are the identity, so its operands are the block and the matrix themselves
    exact Cert.LibMatmulIx.matmul_zero_apply (M := 4000) (K := 128) (N := 128) (φ₁ := .bf16) (φ₂ := .bf16)
      dot_S4000x128_S128x128_S4000x128_1_0_0_1_n_n.wf none _ _ p q
  · -- the one row, cast to its own shape and read at every block row
    refine (broadcastTo_1b_ab_apply _ _ p q).trans ?_
    rw [shapeCast_self]

end Cert.KernelIdeal.Fr

end
-- ==== Proof.KI.Val1.lean ====
/-
  The second product's output array after its 25 row blocks. Grid point `t` writes back rows `4000 t … 4000 t + 3999`:
  entry `(p, q)` of its block is the inner product of row `4000 t + p` of the left array with column `q` of the matrix,
  plus the one row's entry `q` — the block of ONE function of the three arrays. Row `r` lies in the block of point
  `r / 4000`, so the 25 blocks cover the array and it ends holding that function.
-/
import proofs.«153277_j13786845020601_1_alg».proof.Proof.KI.Region1
import proofs.«153277_j13786845020601_1_alg».proof.Proof.KI.Pay1
import Idealize.ShloMosaic.Lib.Pipeline.Value

noncomputable section

open scoped BigOperators

namespace Cert.KernelIdeal.Fr

open Idealize.ShloMosaic Idealize.ShloMosaic.TcCoe Idealize.SL.Sem Idealize.ShloMosaic.ValueIdx
open Idealize.ShloMosaic.Pipeline (Dat)
open Cert.KernelIdeal Cert.KernelIdeal.Gen

-- the core's buffer contents when the region is entered
variable (V : (c : Dev nD) → (b : Ref sig .tc) → Buf (Elt Ideal) ((c : Thread nD τ).loc b))

/-- The body's rectangles all start at the origin. -/
theorem origin1 : (![0, 0] : Fin 2 → Nat) = fun _ => 0 := funext fun a => by fin_cases a <;> rfl

/-- The four index maps, decided over the 25 grid points: the left array's and the output's blocks are block row `t`,
    the matrix's and the one row's are the one block there is; and every point writes its output block back. -/
theorem blockIndex1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ (cfg1.win 3).flush t = true :=
  (by decide +kernel : ∀ t : Fin grid1.N, _)

/-- There are 25 grid points. -/
theorem point_lt1 (t : Fin cfg1.N) : t.val < 25 :=
  Nat.lt_of_lt_of_eq t.isLt (show cfg1.N = 25 from N_1)

/-- The left array's block at point `t`: its entry `(p, k)` is the array's entry `(4000 t + p, k)`. -/
theorem leftBlock1_apply (c : Dev nD) (t : Fin cfg1.N) (p : Fin 4000) (k : Fin 128) (r : Fin 100000)
    (hr : r.val = 4000 * t.val + p.val) :
    (iblk1 V c 0 t : Vec Ideal S4000x128 .f32) (ix2 p k) = (V c main_arg0 : S100000x128.Idx → EReal) (ix2 r k) := by
  obtain ⟨e0, e1, -⟩ := blockIndex1 t
  show V c main_arg0 (((cfg1.win 0).blk t).view.emb (ix2 p k)) = _
  refine congrArg (V c main_arg0) (funext fun a => Fin.ext ?_)
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- The matrix's block at any point is the whole matrix. -/
theorem matrixBlock1_apply (c : Dev nD) (t : Fin cfg1.N) (k : Fin 128) (q : Fin 128) :
    (iblk1 V c 1 t : Vec Ideal S128x128 .f32) (ix2 k q) = (V c main_arg4 : S128x128.Idx → EReal) (ix2 k q) := by
  obtain ⟨-, -, e2, e3, -⟩ := blockIndex1 t
  show V c main_arg4 (((cfg1.win 1).blk t).view.emb (ix2 k q)) = _
  refine congrArg (V c main_arg4) (funext fun a => Fin.ext ?_)
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- The one row's block at any point is the whole row. -/
theorem rowBlock1_apply (c : Dev nD) (t : Fin cfg1.N) (q : Fin 128) :
    (iblk1 V c 2 t : Vec Ideal S1x128 .f32) (ix2 (0 : Fin 1) q) = (V c main_v33 : S1x128.Idx → EReal) (ix2 (0 : Fin 1) q) := by
  obtain ⟨-, -, -, -, e4, e5, -⟩ := blockIndex1 t
  show V c main_v33 (((cfg1.win 2).blk t).view.emb (ix2 (0 : Fin 1) q)) = _
  refine congrArg (V c main_v33) (funext fun a => Fin.ext ?_)
  match a with
  | ⟨0, _⟩ => show win1_2.index t (0 : Fin 2) * 1 + 1 * 0 = 0; rw [e4]
  | ⟨1, _⟩ => show win1_2.index t (1 : Fin 2) * 128 + 1 * q.val = q.val; rw [e5]; omega

/-- The output's block at point `t` sits at rows `4000 t …`: its entry `(p, q)` is the array's index `(4000 t + p, q)`. -/
theorem outBlock1_emb (t : Fin cfg1.N) (p : Fin 4000) (q : Fin 128) (r : Fin 100000)
    (hr : r.val = 4000 * t.val + p.val) :
    ((cfg1.win 3).blk t).view.emb (ix2 p q) = (ix2 r q : S100000x128.Idx) := by
  obtain ⟨-, -, -, -, -, -, e6, e7, -⟩ := blockIndex1 t
  funext a
  apply Fin.ext
  match a with
  | ⟨0, _⟩ => show win1_3.index t (0 : Fin 2) * 4000 + 1 * p.val = r.val; rw [e6, hr]; omega
  | ⟨1, _⟩ => show win1_3.index t (1 : Fin 2) * 128 + 1 * q.val = q.val; rw [e7]; omega

/-- WHAT POINT `t` WRITES BACK is block `t` of `mm1` of the three arrays as the region finds them. -/
theorem flushed1_eq (c : Dev nD) (t : Fin cfg1.N) :
    (dat1 (F := Ideal) V c).flushed 3 t
      = ((cfg1.win 3).blk t).view.read (Elt Ideal) (mm1 (V c main_arg0) (V c main_arg4) (V c main_v33)) := by
  show (cfg1.win 3).cut (grid1.coords t) ((dat1 (F := Ideal) V c).after 3 t) = _
  rw [after1_3]
  unfold out1_3
  rw [View.canon_unit_zero origin1]
  simp only [View.ld_unit_zero (S := S4000x128) origin1, View.ld_unit_zero (S := S128x128) origin1,
    View.ld_unit_zero (S := S1x128) origin1]
  funext y
  obtain ⟨p, q, rfl⟩ : ∃ (p : Fin 4000) (q : Fin 128), y = ix2 p q := ⟨y 0, y 1, eq_ix2 y⟩
  have ht := point_lt1 t
  have hp := p.isLt
  show k1_pay1 (F := Ideal) (iblk1 V c 0 t) (iblk1 V c 1 t) (iblk1 V c 2 t) (ix2 p q)
    = mm1 (V c main_arg0) (V c main_arg4) (V c main_v33) (((cfg1.win 3).blk t).view.emb (ix2 p q))
  rw [outBlock1_emb t p q ⟨4000 * t.val + p.val, by omega⟩ rfl, mm1_apply]
  refine (pay1_apply (iblk1 V c 0 t) (iblk1 V c 1 t) (iblk1 V c 2 t) p q).trans ?_
  refine congrArg₂ (· + ·) (Finset.sum_congr rfl fun k _ => congrArg₂ (· * ·) ?_ ?_) ?_
  · exact leftBlock1_apply V c t p k ⟨4000 * t.val + p.val, by omega⟩ rfl
  · exact matrixBlock1_apply V c t k q
  · exact rowBlock1_apply V c t q

/-- An index of the output array is in point `t`'s block iff each coordinate is in the block's range on its axis. -/
theorem mem_outBlock1 (t : Fin cfg1.N) (i : S100000x128.Idx) :
    i ∈ ((cfg1.win 3).blk t).view.set ↔ ∀ a : Fin 2, win1_3.index t a * S4000x128.size a ≤ (i a).val
      ∧ (i a).val < win1_3.index t a * S4000x128.size a + S4000x128.size a := by
  show i ∈ ((View.whole main_v34).slice (win1_3.rect t)).set ↔ _
  rw [View.set_slice_whole, Rect.mem_set_unit]
  exact Iff.rfl

/-- Every index of the output array is in the block of the point its row falls in, `r / 4000`, and that point
    writes its block back. -/
theorem covered1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, e6, e7, hf⟩ := blockIndex1 t
  refine ⟨t, hf, ?_⟩
  rw [mem_outBlock1]
  intro a
  match a with
  | ⟨0, _⟩ =>
    show win1_3.index t (0 : Fin 2) * 4000 ≤ (i 0).val ∧ (i 0).val < win1_3.index t (0 : Fin 2) * 4000 + 4000
    rw [e6, ht]; omega
  | ⟨1, _⟩ =>
    show win1_3.index t (1 : Fin 2) * 128 ≤ (i 1).val ∧ (i 1).val < win1_3.index t (1 : Fin 2) * 128 + 128
    rw [e7]; omega

/-- THE OUTPUT ARRAY after the region's 25 points: `mm1` of the three arrays it read, as the region found them. -/
theorem final1 (c : Dev nD) :
    (dat1 (F := Ideal) V c).arrAt 3 cfg1.N = mm1 (V c main_arg0) (V c main_arg4) (V c main_v33) :=
  (dat1 (F := Ideal) V c).arrAt_eq_of_cover 3 (mm1 (V c main_arg0) (V c main_arg4) (V c main_v33))
    (fun t _ => flushed1_eq V c t) covered1

end Cert.KernelIdeal.Fr

end
-- ==== Proof.KI.Pay2.lean ====
/-
  The third product's block, entry by entry: from a `4000 × 256` block of rows, the whole `256 × 128` matrix and the one
  row, entry `(p, q)` of what the body stores is the inner product of block row `p` with column `q`, plus the row's
  entry `q`. The block is first cast to its own shape, which changes nothing; over the extended reals the two roundings
  of the operands to a narrower format are the identity, the accumulator the product is added to is the zero array,
  and the one row is read at every block row alike.
-/
import proofs.«153277_j13786845020601_1_alg».proof.Proof.Gen.KernelIdeal.Skeleton
import proofs.«153277_j13786845020601_1_alg».proof.Proof.KI.Spec
import proofs.«153277_j13786845020601_1_alg».proof.Proof.LibMatmulIx
import Idealize.ShloMosaic.Lib.ValueLayout
import Idealize.ShloMosaic.Lib.Pipeline.Value

noncomputable section

open scoped BigOperators

namespace Cert.KernelIdeal.Fr

open Idealize.ShloMosaic Idealize.ShloMosaic.ValueIdx
open Cert.KernelIdeal Cert.KernelIdeal.Gen

/-- Entry `(p, q)` of the stored block: `∑ k, x0 (p, k) * x1 (k, q) + x2 (0, q)`, over 256 contracted coordinates. It depends
    on row `p` of the block, column `q` of the matrix and entry `q` of the row. -/
theorem pay2_apply (x0 : Vec Ideal S4000x256 .f32) (x1 : Vec Ideal S256x128 .f32) (x2 : Vec Ideal S1x128 .f32)
    (p : Fin 4000) (q : Fin 128) :
    k2_pay1 (F := Ideal) x0 x1 x2 (ix2 p q)
      = (∑ k : Fin 256, x0 (ix2 p k) * x1 (ix2 k q)) + x2 (ix2 (0 : Fin 1) q) := by
  unfold k2_pay1
  -- the sum of the product into the zero array and the broadcast row, at the entry
  refine (addf_apply _ _ (ix2 p q)).trans ?_
  refine congrArg₂ (· + ·) ?_ ?_
  · -- the product: its left operand is the block cast to its own shape, then rounded; both are the identity
    refine (Cert.LibMatmulIx.matmul_zero_apply (M := 4000) (K := 256) (N := 128) (φ₁ := .bf16) (φ₂ := .bf16)
      dot_S4000x256_S256x128_S4000x128_1_0_0_1_n_n.wf none _ _ p q).trans ?_
    refine Finset.sum_congr rfl fun k _ => ?_
    show shapeCast S4000x256 x0 shapeCasts_S4000x256_S4000x256 (ix2 p k) * x1 (ix2 k q) = x0 (ix2 p k) * x1 (ix2 k q)
    rw [shapeCast_self]
  · -- the one row, cast to its own shape and read at every block row
    refine (broadcastTo_1b_ab_apply _ _ p q).trans ?_
    rw [shapeCast_self]

end Cert.KernelIdeal.Fr

end
-- ==== Proof.KI.Val2.lean ====
/-
  The third product's output array after its 25 row blocks. Grid point `t` writes back rows `4000 t … 4000 t + 3999`:
  entry `(p, q)` of its block is the inner product of row `4000 t + p` of the left array with column `q` of the matrix,
  plus the one row's entry `q` — the block of ONE function of the three arrays. Row `r` lies in the block of point
  `r / 4000`, so the 25 blocks cover the array and it ends holding that function.
-/
import proofs.«153277_j13786845020601_1_alg».proof.Proof.KI.Region2
import proofs.«153277_j13786845020601_1_alg».proof.Proof.KI.Pay2
import Idealize.ShloMosaic.Lib.Pipeline.Value

noncomputable section

open scoped BigOperators

namespace Cert.KernelIdeal.Fr

open Idealize.ShloMosaic Idealize.ShloMosaic.TcCoe Idealize.SL.Sem Idealize.ShloMosaic.ValueIdx
open Idealize.ShloMosaic.Pipeline (Dat)
open Cert.KernelIdeal Cert.KernelIdeal.Gen

-- the core's buffer contents when the region is entered
variable (V : (c : Dev nD) → (b : Ref sig .tc) → Buf (Elt Ideal) ((c : Thread nD τ).loc b))

/-- The body's rectangles all start at the origin. -/
theorem origin2 : (![0, 0] : Fin 2 → Nat) = fun _ => 0 := funext fun a => by fin_cases a <;> rfl

/-- The four index maps, decided over the 25 grid points: the left array's and the output's blocks are block row `t`,
    the matrix's and the one row's are the one block there is; and every point writes its output block back. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ (cfg2.win 3).flush t = true :=
  (by decide +kernel : ∀ t : Fin grid2.N, _)

/-- There are 25 grid points. -/
theorem point_lt2 (t : Fin cfg2.N) : t.val < 25 :=
  Nat.lt_of_lt_of_eq t.isLt (show cfg2.N = 25 from N_2)

/-- The left array's block at point `t`: its entry `(p, k)` is the array's entry `(4000 t + p, k)`. -/
theorem leftBlock2_apply (c : Dev nD) (t : Fin cfg2.N) (p : Fin 4000) (k : Fin 256) (r : Fin 100000)
    (hr : r.val = 4000 * t.val + p.val) :
    (iblk2 V c 0 t : Vec Ideal S4000x256 .f32) (ix2 p k) = (V c main_v53 : S100000x256.Idx → EReal) (ix2 r k) := by
  obtain ⟨e0, e1, -⟩ := blockIndex2 t
  show V c main_v53 (((cfg2.win 0).blk t).view.emb (ix2 p k)) = _
  refine congrArg (V c main_v53) (funext fun a => Fin.ext ?_)
  match a with
  | ⟨0, _⟩ => show win2_0.index t (0 : Fin 2) * 4000 + 1 * p.val = r.val; rw [e0, hr]; omega
  | ⟨1, _⟩ => show win2_0.index t (1 : Fin 2) * 256 + 1 * k.val = k.val; rw [e1]; omega

/-- The matrix's block at any point is the whole matrix. -/
theorem matrixBlock2_apply (c : Dev nD) (t : Fin cfg2.N) (k : Fin 256) (q : Fin 128) :
    (iblk2 V c 1 t : Vec Ideal S256x128 .f32) (ix2 k q) = (V c main_arg6 : S256x128.Idx → EReal) (ix2 k q) := by
  obtain ⟨-, -, e2, e3, -⟩ := blockIndex2 t
  show V c main_arg6 (((cfg2.win 1).blk t).view.emb (ix2 k q)) = _
  refine congrArg (V c main_arg6) (funext fun a => Fin.ext ?_)
  match a with
  | ⟨0, _⟩ => show win2_1.index t (0 : Fin 2) * 256 + 1 * k.val = k.val; rw [e2]; omega
  | ⟨1, _⟩ => show win2_1.index t (1 : Fin 2) * 128 + 1 * q.val = q.val; rw [e3]; omega

/-- The one row's block at any point is the whole row. -/
theorem rowBlock2_apply (c : Dev nD) (t : Fin cfg2.N) (q : Fin 128) :
    (iblk2 V c 2 t : Vec Ideal S1x128 .f32) (ix2 (0 : Fin 1) q) = (V c main_v54 : S1x128.Idx → EReal) (ix2 (0 : Fin 1) q) := by
  obtain ⟨-, -, -, -, e4, e5, -⟩ := blockIndex2 t
  show V c main_v54 (((cfg2.win 2).blk t).view.emb (ix2 (0 : Fin 1) q)) = _
  refine congrArg (V c main_v54) (funext fun a => Fin.ext ?_)
  match a with
  | ⟨0, _⟩ => show win2_2.index t (0 : Fin 2) * 1 + 1 * 0 = 0; rw [e4]
  | ⟨1, _⟩ => show win2_2.index t (1 : Fin 2) * 128 + 1 * q.val = q.val; rw [e5]; omega

/-- The output's block at point `t` sits at rows `4000 t …`: its entry `(p, q)` is the array's index `(4000 t + p, q)`. -/
theorem outBlock2_emb (t : Fin cfg2.N) (p : Fin 4000) (q : Fin 128) (r : Fin 100000)
    (hr : r.val = 4000 * t.val + p.val) :
    ((cfg2.win 3).blk t).view.emb (ix2 p q) = (ix2 r q : S100000x128.Idx) := by
  obtain ⟨-, -, -, -, -, -, e6, e7, -⟩ := blockIndex2 t
  funext a
  apply Fin.ext
  match a with
  | ⟨0, _⟩ => show win2_3.index t (0 : Fin 2) * 4000 + 1 * p.val = r.val; rw [e6, hr]; omega
  | ⟨1, _⟩ => show win2_3.index t (1 : Fin 2) * 128 + 1 * q.val = q.val; rw [e7]; omega

/-- WHAT POINT `t` WRITES BACK is block `t` of `mm2` of the three arrays as the region finds them. -/
theorem flushed2_eq (c : Dev nD) (t : Fin cfg2.N) :
    (dat2 (F := Ideal) V c).flushed 3 t
      = ((cfg2.win 3).blk t).view.read (Elt Ideal) (mm2 (V c main_v53) (V c main_arg6) (V c main_v54)) := by
  show (cfg2.win 3).cut (grid2.coords t) ((dat2 (F := Ideal) V c).after 3 t) = _
  rw [after2_3]
  unfold out2_3
  rw [View.canon_unit_zero origin2]
  simp only [View.ld_unit_zero (S := S4000x256) origin2, View.ld_unit_zero (S := S256x128) origin2,
    View.ld_unit_zero (S := S1x128) origin2]
  funext y
  obtain ⟨p, q, rfl⟩ : ∃ (p : Fin 4000) (q : Fin 128), y = ix2 p q := ⟨y 0, y 1, eq_ix2 y⟩
  have ht := point_lt2 t
  have hp := p.isLt
  show k2_pay1 (F := Ideal) (iblk2 V c 0 t) (iblk2 V c 1 t) (iblk2 V c 2 t) (ix2 p q)
    = mm2 (V c main_v53) (V c main_arg6) (V c main_v54) (((cfg2.win 3).blk t).view.emb (ix2 p q))
  rw [outBlock2_emb t p q ⟨4000 * t.val + p.val, by omega⟩ rfl, mm2_apply]
  refine (pay2_apply (iblk2 V c 0 t) (iblk2 V c 1 t) (iblk2 V c 2 t) p q).trans ?_
  refine congrArg₂ (· + ·) (Finset.sum_congr rfl fun k _ => congrArg₂ (· * ·) ?_ ?_) ?_
  · exact leftBlock2_apply V c t p k ⟨4000 * t.val + p.val, by omega⟩ rfl
  · exact matrixBlock2_apply V c t k q
  · exact rowBlock2_apply V c t q

/-- An index of the output array is in point `t`'s block iff each coordinate is in the block's range on its axis. -/
theorem mem_outBlock2 (t : Fin cfg2.N) (i : S100000x128.Idx) :
    i ∈ ((cfg2.win 3).blk t).view.set ↔ ∀ a : Fin 2, win2_3.index t a * S4000x128.size a ≤ (i a).val
      ∧ (i a).val < win2_3.index t a * S4000x128.size a + S4000x128.size a := by
  show i ∈ ((View.whole main_v55).slice (win2_3.rect t)).set ↔ _
  rw [View.set_slice_whole, Rect.mem_set_unit]
  exact Iff.rfl

/-- Every index of the output array is in the block of the point its row falls in, `r / 4000`, and that point
    writes its block back. -/
theorem covered2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 25 := N_2
  obtain ⟨t, ht⟩ : ∃ t : Fin cfg2.N, t.val = (i 0).val / 4000 := ⟨⟨(i 0).val / 4000, by rw [hN]; omega⟩, rfl⟩
  obtain ⟨-, -, -, -, -, -, e6, e7, hf⟩ := blockIndex2 t
  refine ⟨t, hf, ?_⟩
  rw [mem_outBlock2]
  intro a
  match a with
  | ⟨0, _⟩ =>
    show win2_3.index t (0 : Fin 2) * 4000 ≤ (i 0).val ∧ (i 0).val < win2_3.index t (0 : Fin 2) * 4000 + 4000
    rw [e6, ht]; omega
  | ⟨1, _⟩ =>
    show win2_3.index t (1 : Fin 2) * 128 ≤ (i 1).val ∧ (i 1).val < win2_3.index t (1 : Fin 2) * 128 + 128
    rw [e7]; omega

/-- THE OUTPUT ARRAY after the region's 25 points: `mm2` of the three arrays it read, as the region found them. -/
theorem final2 (c : Dev nD) :
    (dat2 (F := Ideal) V c).arrAt 3 cfg2.N = mm2 (V c main_v53) (V c main_arg6) (V c main_v54) :=
  (dat2 (F := Ideal) V c).arrAt_eq_of_cover 3 (mm2 (V c main_v53) (V c main_arg6) (V c main_v54))
    (fun t _ => flushed2_eq V c t) covered2

end Cert.KernelIdeal.Fr

end
-- ==== Proof.KI.Pay3.lean ====
/-
  The fourth product's block, entry by entry: from a `4000 × 384` block of rows, the whole `384 × 128` matrix and the one
  row, entry `(p, q)` of what the body stores is the inner product of block row `p` with column `q`, plus the row's
  entry `q`. The block is first cast to its own shape, which changes nothing; over the extended reals the two roundings
  of the operands to a narrower format are the identity, the accumulator the product is added to is the zero array,
  and the one row is read at every block row alike.
-/
import proofs.«153277_j13786845020601_1_alg».proof.Proof.Gen.KernelIdeal.Skeleton
import proofs.«153277_j13786845020601_1_alg».proof.Proof.KI.Spec
import proofs.«153277_j13786845020601_1_alg».proof.Proof.LibMatmulIx
import Idealize.ShloMosaic.Lib.ValueLayout
import Idealize.ShloMosaic.Lib.Pipeline.Value

noncomputable section

open scoped BigOperators

namespace Cert.KernelIdeal.Fr

open Idealize.ShloMosaic Idealize.ShloMosaic.ValueIdx
open Cert.KernelIdeal Cert.KernelIdeal.Gen

/-- Entry `(p, q)` of the stored block: `∑ k, x0 (p, k) * x1 (k, q) + x2 (0, q)`, over 384 contracted coordinates. It depends
    on row `p` of the block, column `q` of the matrix and entry `q` of the row. -/
theorem pay3_apply (x0 : Vec Ideal S4000x384 .f32) (x1 : Vec Ideal S384x128 .f32) (x2 : Vec Ideal S1x128 .f32)
    (p : Fin 4000) (q : Fin 128) :
    k3_pay1 (F := Ideal) x0 x1 x2 (ix2 p q)
      = (∑ k : Fin 384, x0 (ix2 p k) * x1 (ix2 k q)) + x2 (ix2 (0 : Fin 1) q) := by
  unfold k3_pay1
  -- the sum of the product into the zero array and the broadcast row, at the entry
  refine (addf_apply _ _ (ix2 p q)).trans ?_
  refine congrArg₂ (· + ·) ?_ ?_
  · -- the product: its left operand is the block cast to its own shape, then rounded; both are the identity
    refine (Cert.LibMatmulIx.matmul_zero_apply (M := 4000) (K := 384) (N := 128) (φ₁ := .bf16) (φ₂ := .bf16)
      dot_S4000x384_S384x128_S4000x128_1_0_0_1_n_n.wf none _ _ p q).trans ?_
    refine Finset.sum_congr rfl fun k _ => ?_
    show shapeCast S4000x384 x0 shapeCasts_S4000x384_S4000x384 (ix2 p k) * x1 (ix2 k q) = x0 (ix2 p k) * x1 (ix2 k q)
    rw [shapeCast_self]
  · -- the one row, cast to its own shape and read at every block row
    refine (broadcastTo_1b_ab_apply _ _ p q).trans ?_
    rw [shapeCast_self]

end Cert.KernelIdeal.Fr

end
-- ==== Proof.KI.Val3.lean ====
/-
  The fourth product's output array after its 25 row blocks. Grid point `t` writes back rows `4000 t … 4000 t + 3999`:
  entry `(p, q)` of its block is the inner product of row `4000 t + p` of the left array with column `q` of the matrix,
  plus the one row's entry `q` — the block of ONE function of the three arrays. Row `r` lies in the block of point
  `r / 4000`, so the 25 blocks cover the array and it ends holding that function.
-/
import proofs.«153277_j13786845020601_1_alg».proof.Proof.KI.Region3
import proofs.«153277_j13786845020601_1_alg».proof.Proof.KI.Pay3
import Idealize.ShloMosaic.Lib.Pipeline.Value

noncomputable section

open scoped BigOperators

namespace Cert.KernelIdeal.Fr

open Idealize.ShloMosaic Idealize.ShloMosaic.TcCoe Idealize.SL.Sem Idealize.ShloMosaic.ValueIdx
open Idealize.ShloMosaic.Pipeline (Dat)
open Cert.KernelIdeal Cert.KernelIdeal.Gen

-- the core's buffer contents when the region is entered
variable (V : (c : Dev nD) → (b : Ref sig .tc) → Buf (Elt Ideal) ((c : Thread nD τ).loc b))

/-- The body's rectangles all start at the origin. -/
theorem origin3 : (![0, 0] : Fin 2 → Nat) = fun _ => 0 := funext fun a => by fin_cases a <;> rfl

/-- The four index maps, decided over the 25 grid points: the left array's and the output's blocks are block row `t`,
    the matrix's and the one row's are the one block there is; and every point writes its output block back. -/
theorem blockIndex3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ (cfg3.win 3).flush t = true :=
  (by decide +kernel : ∀ t : Fin grid3.N, _)

/-- There are 25 grid points. -/
theorem point_lt3 (t : Fin cfg3.N) : t.val < 25 :=
  Nat.lt_of_lt_of_eq t.isLt (show cfg3.N = 25 from N_3)

/-- The left array's block at point `t`: its entry `(p, k)` is the array's entry `(4000 t + p, k)`. -/
theorem leftBlock3_apply (c : Dev nD) (t : Fin cfg3.N) (p : Fin 4000) (k : Fin 384) (r : Fin 100000)
    (hr : r.val = 4000 * t.val + p.val) :
    (iblk3 V c 0 t : Vec Ideal S4000x384 .f32) (ix2 p k) = (V c main_v74 : S100000x384.Idx → EReal) (ix2 r k) := by
  obtain ⟨e0, e1, -⟩ := blockIndex3 t
  show V c main_v74 (((cfg3.win 0).blk t).view.emb (ix2 p k)) = _
  refine congrArg (V c main_v74) (funext fun a => Fin.ext ?_)
  match a with
  | ⟨0, _⟩ => show win3_0.index t (0 : Fin 2) * 4000 + 1 * p.val = r.val; rw [e0, hr]; omega
  | ⟨1, _⟩ => show win3_0.index t (1 : Fin 2) * 384 + 1 * k.val = k.val; rw [e1]; omega

/-- The matrix's block at any point is the whole matrix. -/
theorem matrixBlock3_apply (c : Dev nD) (t : Fin cfg3.N) (k : Fin 384) (q : Fin 128) :
    (iblk3 V c 1 t : Vec Ideal S384x128 .f32) (ix2 k q) = (V c main_arg8 : S384x128.Idx → EReal) (ix2 k q) := by
  obtain ⟨-, -, e2, e3, -⟩ := blockIndex3 t
  show V c main_arg8 (((cfg3.win 1).blk t).view.emb (ix2 k q)) = _
  refine congrArg (V c main_arg8) (funext fun a => Fin.ext ?_)
  match a with
  | ⟨0, _⟩ => show win3_1.index t (0 : Fin 2) * 384 + 1 * k.val = k.val; rw [e2]; omega
  | ⟨1, _⟩ => show win3_1.index t (1 : Fin 2) * 128 + 1 * q.val = q.val; rw [e3]; omega

/-- The one row's block at any point is the whole row. -/
theorem rowBlock3_apply (c : Dev nD) (t : Fin cfg3.N) (q : Fin 128) :
    (iblk3 V c 2 t : Vec Ideal S1x128 .f32) (ix2 (0 : Fin 1) q) = (V c main_v75 : S1x128.Idx → EReal) (ix2 (0 : Fin 1) q) := by
  obtain ⟨-, -, -, -, e4, e5, -⟩ := blockIndex3 t
  show V c main_v75 (((cfg3.win 2).blk t).view.emb (ix2 (0 : Fin 1) q)) = _
  refine congrArg (V c main_v75) (funext fun a => Fin.ext ?_)
  match a with
  | ⟨0, _⟩ => show win3_2.index t (0 : Fin 2) * 1 + 1 * 0 = 0; rw [e4]
  | ⟨1, _⟩ => show win3_2.index t (1 : Fin 2) * 128 + 1 * q.val = q.val; rw [e5]; omega

/-- The output's block at point `t` sits at rows `4000 t …`: its entry `(p, q)` is the array's index `(4000 t + p, q)`. -/
theorem outBlock3_emb (t : Fin cfg3.N) (p : Fin 4000) (q : Fin 128) (r : Fin 100000)
    (hr : r.val = 4000 * t.val + p.val) :
    ((cfg3.win 3).blk t).view.emb (ix2 p q) = (ix2 r q : S100000x128.Idx) := by
  obtain ⟨-, -, -, -, -, -, e6, e7, -⟩ := blockIndex3 t
  funext a
  apply Fin.ext
  match a with
  | ⟨0, _⟩ => show win3_3.index t (0 : Fin 2) * 4000 + 1 * p.val = r.val; rw [e6, hr]; omega
  | ⟨1, _⟩ => show win3_3.index t (1 : Fin 2) * 128 + 1 * q.val = q.val; rw [e7]; omega

/-- WHAT POINT `t` WRITES BACK is block `t` of `mm3` of the three arrays as the region finds them. -/
theorem flushed3_eq (c : Dev nD) (t : Fin cfg3.N) :
    (dat3 (F := Ideal) V c).flushed 3 t
      = ((cfg3.win 3).blk t).view.read (Elt Ideal) (mm3 (V c main_v74) (V c main_arg8) (V c main_v75)) := by
  show (cfg3.win 3).cut (grid3.coords t) ((dat3 (F := Ideal) V c).after 3 t) = _
  rw [after3_3]
  unfold out3_3
  rw [View.canon_unit_zero origin3]
  simp only [View.ld_unit_zero (S := S4000x384) origin3, View.ld_unit_zero (S := S384x128) origin3,
    View.ld_unit_zero (S := S1x128) origin3]
  funext y
  obtain ⟨p, q, rfl⟩ : ∃ (p : Fin 4000) (q : Fin 128), y = ix2 p q := ⟨y 0, y 1, eq_ix2 y⟩
  have ht := point_lt3 t
  have hp := p.isLt
  show k3_pay1 (F := Ideal) (iblk3 V c 0 t) (iblk3 V c 1 t) (iblk3 V c 2 t) (ix2 p q)
    = mm3 (V c main_v74) (V c main_arg8) (V c main_v75) (((cfg3.win 3).blk t).view.emb (ix2 p q))
  rw [outBlock3_emb t p q ⟨4000 * t.val + p.val, by omega⟩ rfl, mm3_apply]
  refine (pay3_apply (iblk3 V c 0 t) (iblk3 V c 1 t) (iblk3 V c 2 t) p q).trans ?_
  refine congrArg₂ (· + ·) (Finset.sum_congr rfl fun k _ => congrArg₂ (· * ·) ?_ ?_) ?_
  · exact leftBlock3_apply V c t p k ⟨4000 * t.val + p.val, by omega⟩ rfl
  · exact matrixBlock3_apply V c t k q
  · exact rowBlock3_apply V c t q

/-- An index of the output array is in point `t`'s block iff each coordinate is in the block's range on its axis. -/
theorem mem_outBlock3 (t : Fin cfg3.N) (i : S100000x128.Idx) :
    i ∈ ((cfg3.win 3).blk t).view.set ↔ ∀ a : Fin 2, win3_3.index t a * S4000x128.size a ≤ (i a).val
      ∧ (i a).val < win3_3.index t a * S4000x128.size a + S4000x128.size a := by
  show i ∈ ((View.whole main_v76).slice (win3_3.rect t)).set ↔ _
  rw [View.set_slice_whole, Rect.mem_set_unit]
  exact Iff.rfl

/-- Every index of the output array is in the block of the point its row falls in, `r / 4000`, and that point
    writes its block back. -/
theorem covered3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨-, -, -, -, -, -, e6, e7, hf⟩ := blockIndex3 t
  refine ⟨t, hf, ?_⟩
  rw [mem_outBlock3]
  intro a
  match a with
  | ⟨0, _⟩ =>
    show win3_3.index t (0 : Fin 2) * 4000 ≤ (i 0).val ∧ (i 0).val < win3_3.index t (0 : Fin 2) * 4000 + 4000
    rw [e6, ht]; omega
  | ⟨1, _⟩ =>
    show win3_3.index t (1 : Fin 2) * 128 ≤ (i 1).val ∧ (i 1).val < win3_3.index t (1 : Fin 2) * 128 + 128
    rw [e7]; omega

/-- THE OUTPUT ARRAY after the region's 25 points: `mm3` of the three arrays it read, as the region found them. -/
theorem final3 (c : Dev nD) :
    (dat3 (F := Ideal) V c).arrAt 3 cfg3.N = mm3 (V c main_v74) (V c main_arg8) (V c main_v75) :=
  (dat3 (F := Ideal) V c).arrAt_eq_of_cover 3 (mm3 (V c main_v74) (V c main_arg8) (V c main_v75))
    (fun t _ => flushed3_eq V c t) covered3

end Cert.KernelIdeal.Fr

end
-- ==== Proof.LibHostDotIx.lean ====
/-
  The host's general dot product of two matrices, read at one entry.

  For an `M × K` matrix `A` and a `K × N` matrix `B` whose product contracts the second axis of `A` with the first
  axis of `B` (no batch axis), the entry `(a, b)` of the product is the sum over the contracted coordinate `c` of
  `A (a, c) * B (c, b)`. Stated over the extended reals, for any extents and for any proof that the dimension numbers
  are well formed, so that it applies to every record with these dimension numbers.
-/
import Idealize.ShloMosaic.Lib.ValueIdx
import Idealize.ShloMosaic.PureOps.Ideal.Laws

noncomputable section

open scoped BigOperators

namespace Cert.LibHostDotIx

open Idealize.ShloMosaic Idealize.ShloMosaic.ValueIdx

/-- The host's product of an `M × K` by a `K × N` matrix at entry `(a, b)`: the sum over the contracted coordinate of
    the products of the entries `A (a, c)` and `B (c, b)`. The contraction index has one axis, of extent `K`; the sum
    over it is re-indexed by that axis's coordinate, and the two operand indices are read coordinate by coordinate. -/
theorem dotGeneral_apply {M K N : ℕ} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    Host.dotGeneral (F := Ideal) (⟨[1], [0], [0], [1], [], [], w⟩ : DotDims _ _ _) prec A B (ix2 a b)
      = ∑ c : Fin K, A (ix2 a c) * B (ix2 c b) := by
  simp only [Host.dotGeneral]
  rw [Ideal.dotGeneral_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibHostDotIx

end
-- ==== Proof.KI.Join.lean ====
/-
  The four products against the host's matrix product. With a one row that is zero everywhere, `∑ k, x (r, k) * w (k, j)
  + 0` is the host's product of `x` and `w` at `(r, j)` (adding zero changes no extended real, finite or not); with any
  row `b`, the first product is the host's product shifted by `b` at the column and clipped below at zero. Also: the
  one row obtained by repeating the zero word 128 times and casting to `1 × 128` is zero at every index.
-/
import proofs.«153277_j13786845020601_1_alg».proof.Proof.KI.Spec
import proofs.«153277_j13786845020601_1_alg».proof.ReferenceIdeal
import proofs.«153277_j13786845020601_1_alg».proof.Proof.LibHostDotIx
import Idealize.ShloMosaic.Lib.ValueLayout
import Idealize.ShloMosaic.Lib.Pipeline.Value

noncomputable section

open scoped BigOperators

namespace Cert.KernelIdeal.Fr

open Idealize.ShloMosaic Idealize.ShloMosaic.ValueIdx
open Cert.KernelIdeal

/-- Rows times columns shifted by a one row `b`, against the host's product of the two matrices: at `(r, j)` it is the
    host's product there plus `b (0, j)`. Both sides are the same sum over the contracted coordinate. -/
theorem rowsTimes_eq_dot_add {M K N : ℕ}
    (wf : DotDims.WF ⟨2, ![M, K]⟩ ⟨2, ![K, N]⟩ ⟨2, ![M, N]⟩ [1] [0] [0] [1] [] [])
    (x : (⟨2, ![M, K]⟩ : Shape).Idx → EReal) (w : (⟨2, ![K, N]⟩ : Shape).Idx → EReal)
    (b : (⟨2, ![1, N]⟩ : Shape).Idx → EReal) (r : Fin M) (j : Fin N) :
    rowsTimes x w b (ix2 r j)
      = Host.dotGeneral (F := Ideal) (φ₁ := .f32) (φ₂ := .f32) (⟨[1], [0], [0], [1], [], [], wf⟩ : DotDims _ _ _) none x w (ix2 r j)
        + b (ix2 (0 : Fin 1) j) := by
  rw [rowsTimes_apply]
  exact congrArg (· + b (ix2 (0 : Fin 1) j))
    (Cert.LibHostDotIx.dotGeneral_apply (φ₁ := .f32) (φ₂ := .f32) wf none x w r j).symm

/-- With the zero row, rows times columns IS the host's product: `a + 0 = a` for every extended real `a`. -/
theorem rowsTimes_zero_eq_dot {M K N : ℕ}
    (wf : DotDims.WF ⟨2, ![M, K]⟩ ⟨2, ![K, N]⟩ ⟨2, ![M, N]⟩ [1] [0] [0] [1] [] [])
    (x : (⟨2, ![M, K]⟩ : Shape).Idx → EReal) (w : (⟨2, ![K, N]⟩ : Shape).Idx → EReal)
    (z : (⟨2, ![1, N]⟩ : Shape).Idx → EReal) (hz : ∀ j, z j = 0) :
    rowsTimes x w z
      = Host.dotGeneral (F := Ideal) (φ₁ := .f32) (φ₂ := .f32) (⟨[1], [0], [0], [1], [], [], wf⟩ : DotDims _ _ _) none x w := by
  funext i
  obtain ⟨r, j, rfl⟩ : ∃ (r : Fin M) (j : Fin N), i = ix2 r j := ⟨i 0, i 1, eq_ix2 i⟩
  rw [rowsTimes_eq_dot_add wf, hz, add_zero]

section host
-- the side conditions the reference's program states of its shapes: its product records cite them
variable [Cert.ReferenceIdeal.Facts₀]

/-- The second product with the zero row is the host's product of a `100000 × 128` by a `128 × 128` matrix. -/
theorem mm1_join (x : S100000x128.Idx → EReal) (w : S128x128.Idx → EReal) (z : S1x128.Idx → EReal) (hz : ∀ j, z j = 0) :
    mm1 x w z = Host.dotGeneral (F := Ideal) (φ₁ := .f32) (φ₂ := .f32)
      Cert.ReferenceIdeal.dot_S100000x128_S128x128_S100000x128_1_0_0_1_n_n none x w :=
  rowsTimes_zero_eq_dot (M := 100000) (K := 128) (N := 128)
    Cert.ReferenceIdeal.dot_S100000x128_S128x128_S100000x128_1_0_0_1_n_n.wf x w z hz

/-- The third product with the zero row is the host's product of a `100000 × 256` by a `256 × 128` matrix. -/
theorem mm2_join (x : S100000x256.Idx → EReal) (w : S256x128.Idx → EReal) (z : S1x128.Idx → EReal) (hz : ∀ j, z j = 0) :
    mm2 x w z = Host.dotGeneral (F := Ideal) (φ₁ := .f32) (φ₂ := .f32)
      Cert.ReferenceIdeal.dot_S100000x256_S256x128_S100000x128_1_0_0_1_n_n none x w :=
  rowsTimes_zero_eq_dot (M := 100000) (K := 256) (N := 128)
    Cert.ReferenceIdeal.dot_S100000x256_S256x128_S100000x128_1_0_0_1_n_n.wf x w z hz

/-- The fourth product with the zero row is the host's product of a `100000 × 384` by a `384 × 128` matrix. -/
theorem mm3_join (x : S100000x384.Idx → EReal) (w : S384x128.Idx → EReal) (z : S1x128.Idx → EReal) (hz : ∀ j, z j = 0) :
    mm3 x w z = Host.dotGeneral (F := Ideal) (φ₁ := .f32) (φ₂ := .f32)
      Cert.ReferenceIdeal.dot_S100000x384_S384x128_S100000x128_1_0_0_1_n_n none x w :=
  rowsTimes_zero_eq_dot (M := 100000) (K := 384) (N := 128)
    Cert.ReferenceIdeal.dot_S100000x384_S384x128_S100000x128_1_0_0_1_n_n.wf x w z hz

/-- The first product with any row `b`: the host's product, shifted by `b` at the entry's column, clipped below at zero. -/
theorem mm0_join (x : S100000x128.Idx → EReal) (w : S128x128.Idx → EReal) (b : S1x128.Idx → EReal) :
    mm0 x w b = fun i => max (Host.dotGeneral (F := Ideal) (φ₁ := .f32) (φ₂ := .f32)
      Cert.ReferenceIdeal.dot_S100000x128_S128x128_S100000x128_1_0_0_1_n_n none x w i
        + b (ix2 (0 : Fin 1) (i 1 : Fin 128))) 0 := by
  funext i
  obtain ⟨r, j, rfl⟩ : ∃ (r : Fin 100000) (j : Fin 128), i = ix2 r j := ⟨i 0, i 1, eq_ix2 i⟩
  exact congrArg (max · 0) (rowsTimes_eq_dot_add (M := 100000) (K := 128) (N := 128)
    Cert.ReferenceIdeal.dot_S100000x128_S128x128_S100000x128_1_0_0_1_n_n.wf x w b r j)

end host

section row
-- the side conditions this program states of its shapes: the repetition and the cast cite them
variable [Cert.KernelIdeal.Facts₀]
open Cert.KernelIdeal.Facts₀

/-- The one row made by repeating the zero word along 128 entries and casting the result to `1 × 128` is the extended
    real zero at every index: a cast only re-indexes, a repetition reads its one operand entry, and the word denotes 0. -/
theorem zeroRow_apply (j : S1x128.Idx) :
    shapeCast S1x128 (broadcastInDim S128 ![] bcast_S_S128 (constant (F := Ideal) S_ .f32 0x00000000#32))
      shapeCasts_S128_S1x128 j = 0 := by
  have hrep : ∀ k : S128.Idx,
      broadcastInDim S128 ![] bcast_S_S128 (constant (F := Ideal) S_ .f32 0x00000000#32) k = 0 := fun k =>
    (broadcastInDim_apply _ bcast_S_S128 _ k (fun a => a.elim0) (fun a => a.elim0)).trans Ideal.ofBits_zero_f32
  unfold shapeCast
  exact hrep _

end row

end Cert.KernelIdeal.Fr

end
-- ==== Proof.KI.Join2.lean ====
/-
  The first product against the reference's own stage function. The kernel's program reshapes the 128-entry bias to
  one `1 × 128` row; the reference repeats it first to `1 × 128` and then down 100000 rows. Both read the bias at the
  entry's column, both add it to the same host product, and both clip below at the zero word; so the two arrays agree.
-/
import proofs.«153277_j13786845020601_1_alg».proof.Proof.KI.Join
import proofs.«153277_j13786845020601_1_alg».proof.Proof.RefRead

noncomputable section

open scoped BigOperators

namespace Cert.KernelIdeal.Fr

open Idealize.ShloMosaic Idealize.ShloMosaic.ValueIdx
open Cert.KernelIdeal

-- the side conditions this program states of its shapes: the cast of the bias to one row cites one
variable [Cert.KernelIdeal.Facts₀]
open Cert.KernelIdeal.Facts₀

/-- `mm0` of the bias cast to one row is the reference's clipped, shifted product: at `(r, j)` both are
    `max (∑ k, x (r, k) * w (k, j) + pb j) 0`. -/
theorem mm0_ref (x : S100000x128.Idx → EReal) (w : S128x128.Idx → EReal) (pb : S128.Idx → EReal) :
    mm0 x w (shapeCast S1x128 pb shapeCasts_S128_S1x128) = Cert.ReferenceIdeal.Read.val_main_v8 (F := Ideal) x w pb := by
  funext i
  obtain ⟨r, j, rfl⟩ : ∃ (r : Fin 100000) (j : Fin 128), i = ix2 r j := ⟨i 0, i 1, eq_ix2 i⟩
  -- the reference's column of the bias at (r, j): through the two repetitions, entry j
  have hcol : Cert.ReferenceIdeal.Read.idx_main_v5 (Cert.ReferenceIdeal.Read.idx_main_v6 (ix2 r j)) = ix1 j :=
    funext fun a => Fin.ext (by match a with | ⟨0, _⟩ => rfl)
  rw [Cert.ReferenceIdeal.Read.val_main_v8_apply, Cert.ReferenceIdeal.Read.val_main_v7_apply,
    Cert.ReferenceIdeal.Read.val_main_v6_apply, Cert.ReferenceIdeal.Read.val_main_v5_apply,
    Cert.ReferenceIdeal.Read.val_main_call0_v0_apply, Cert.ReferenceIdeal.Read.val_main_call0_cst_apply, hcol]
  show max (rowsTimes (M := 100000) (K := 128) (N := 128) x w _ (ix2 r j)) 0
    = max (Cert.ReferenceIdeal.Read.val_main_v4 (F := Ideal) x w (ix2 r j) + pb (ix1 j)) (Ideal.ofBits .f32 0x00000000#32)
  rw [Ideal.ofBits_zero_f32,
    rowsTimes_eq_dot_add (M := 100000) (K := 128) (N := 128)
      Cert.ReferenceIdeal.dot_S100000x128_S128x128_S100000x128_1_0_0_1_n_n.wf,
    shapeCast_a_1a_apply]
  rfl

end Cert.KernelIdeal.Fr

end
-- ==== Proof.LibConcatPieces.lean ====
/-
  Concatenations with their pieces as plain arguments.

  A concatenation takes its pieces as a list of (shape, contents) pairs, and the fact that the shapes fit is a
  statement about that list. So a piece's contents cannot be rewritten in place: rewriting inside the list changes the
  term the fitting fact is typed over. `cat2` and `cat3` are the concatenations of two and of three pieces with the
  shapes, the fitting fact and then the contents as plain arguments; `cat2_intro` and `cat3_intro` restate a
  concatenation of a literal list that way, by definition. With the two restating lemmas applied BEFORE a rewriting
  pass descends into a term (in a simp set: `↓cat2_intro`, `↓cat3_intro`), a pass that evaluates a line of host
  operations one result at a time goes on inside the pieces, where it otherwise stops. `concat2_congr` and
  `concat3_congr` are the congruence facts for the list form: a concatenation depends only on its pieces.
-/
import Idealize.ShloMosaic.PureOps.ShapeOps

noncomputable section

namespace Cert.LibConcatPieces

open Idealize.ShloMosaic

/-- The concatenation of two pieces along axis `a`. -/
def cat2 {α : Type} (t : Shape) (a : Fin t.rank) (s1 s2 : Shape) (h : Shape.Concatenates [s1, s2] t a)
    (u0 : s1.Idx → α) (u1 : s2.Idx → α) : t.Idx → α :=
  concatenate t a [⟨s1, u0⟩, ⟨s2, u1⟩] h

theorem cat2_intro {α : Type} (t : Shape) (a : Fin t.rank) (s1 s2 : Shape) (h : Shape.Concatenates [s1, s2] t a)
    (u0 : s1.Idx → α) (u1 : s2.Idx → α) : concatenate t a [⟨s1, u0⟩, ⟨s2, u1⟩] h = cat2 t a s1 s2 h u0 u1 := rfl

/-- The concatenation of three pieces along axis `a`. -/
def cat3 {α : Type} (t : Shape) (a : Fin t.rank) (s1 s2 s3 : Shape) (h : Shape.Concatenates [s1, s2, s3] t a)
    (u0 : s1.Idx → α) (u1 : s2.Idx → α) (u2 : s3.Idx → α) : t.Idx → α :=
  concatenate t a [⟨s1, u0⟩, ⟨s2, u1⟩, ⟨s3, u2⟩] h

theorem cat3_intro {α : Type} (t : Shape) (a : Fin t.rank) (s1 s2 s3 : Shape) (h : Shape.Concatenates [s1, s2, s3] t a)
    (u0 : s1.Idx → α) (u1 : s2.Idx → α) (u2 : s3.Idx → α) :
    concatenate t a [⟨s1, u0⟩, ⟨s2, u1⟩, ⟨s3, u2⟩] h = cat3 t a s1 s2 s3 h u0 u1 u2 := rfl

/-- A concatenation of two pieces depends only on the two pieces. -/
theorem concat2_congr {α : Type} (t : Shape) (a : Fin t.rank) (s1 s2 : Shape)
    (u0 A : s1.Idx → α) (u1 B : s2.Idx → α)
    (h : Shape.Concatenates [s1, s2] t a) (e0 : u0 = A) (e1 : u1 = B) :
    concatenate t a [⟨s1, u0⟩, ⟨s2, u1⟩] h = concatenate t a [⟨s1, A⟩, ⟨s2, B⟩] h := by
  subst e0 e1; rfl

/-- A concatenation of three pieces depends only on the three pieces. -/
theorem concat3_congr {α : Type} (t : Shape) (a : Fin t.rank) (s1 s2 s3 : Shape)
    (u0 A : s1.Idx → α) (u1 B : s2.Idx → α) (u2 C : s3.Idx → α)
    (h : Shape.Concatenates [s1, s2, s3] t a) (e0 : u0 = A) (e1 : u1 = B) (e2 : u2 = C) :
    concatenate t a [⟨s1, u0⟩, ⟨s2, u1⟩, ⟨s3, u2⟩] h = concatenate t a [⟨s1, A⟩, ⟨s2, B⟩, ⟨s3, C⟩] h := by
  subst e0 e1 e2; rfl

end Cert.LibConcatPieces

end
-- ==== Proof.KI.Stages.lean ====
/-
  The host side of the kernel's program, one stretch of host operations at a time, over ANY contents `V` of the
  buffers when the stretch is entered: what the stretch leaves in the buffers later items read, written with the
  reference's own stage functions. The two programs apply the same operations to the edge index — the source and
  destination vectors with the self loops appended, the degree by a scatter-add of ones, its inverse square root
  where the degree is positive, the per-edge weight as the product of the two gathered factors — and the same
  gather, scale, scatter-add, bias and maximum with zero to a layer's linear image; the reference repeats the
  edge-index part in every layer, the kernel's program computes it once, and the repeated terms are the same terms.
-/
import proofs.«153277_j13786845020601_1_alg».proof.Proof.Gen.KernelIdeal.Launch
import proofs.«153277_j13786845020601_1_alg».proof.Proof.RefRead
import proofs.«153277_j13786845020601_1_alg».proof.Proof.LibConcatPieces
import Idealize.ShloMosaic.Lib.StableHlo.Run

noncomputable section

namespace Cert.KernelIdeal.Fr

open Idealize.ShloMosaic Idealize.ShloMosaic.TcCoe Idealize.SL.Sem Idealize.ShloMosaic.StableHlo

open Cert.LibConcatPieces

open Cert.KernelIdeal Cert.KernelIdeal.Gen
open Cert.ReferenceIdeal.Read

variable {F : FTy → Type} [FloatOps F]

/-! ## The reference's repeated edge-index terms are the first layer's -/

theorem src2_eq (x1) : val_main_v56 (F := F) x1 = val_main_v11 (F := F) x1 := rfl
theorem dst2_eq (x1) : val_main_v57 (F := F) x1 = val_main_v12 (F := F) x1 := rfl
theorem norm2_eq (x1) : val_main_v80 (F := F) x1 = val_main_v35 (F := F) x1 := rfl
theorem src3_eq (x1) : val_main_v101 (F := F) x1 = val_main_v11 (F := F) x1 := rfl
theorem dst3_eq (x1) : val_main_v102 (F := F) x1 = val_main_v12 (F := F) x1 := rfl
theorem norm3_eq (x1) : val_main_v125 (F := F) x1 = val_main_v35 (F := F) x1 := rfl

/-! ## Before the first region: the edge-index part, the zero bias row's source, the projection's bias row -/

section First
variable (V0 : Valuation τ sig (Elt F))

/-- The buffers after the three stretches before region 0. -/
abbrev afterFirst : Valuation τ sig (Elt F) := StableHlo.after hostOps0_2 (StableHlo.after hostOps0_1 (StableHlo.after hostOps0 V0))

/-- The source vector: the edge index's row 0 with the self loops appended. -/
theorem first_src : afterFirst V0 (Proc.devRef .tc main_v5) = val_main_v11 (F := F) (V0 (Proc.devRef .tc main_arg1)) := by
  after_results_simp <;> rfl
/-- The destination vector: row 1 with the self loops appended. -/
theorem first_dst : afterFirst V0 (Proc.devRef .tc main_v6) = val_main_v12 (F := F) (V0 (Proc.devRef .tc main_arg1)) := by
  after_results_simp <;> rfl
/-- The per-edge weight: the two gathered inverse square roots of the degree, multiplied. -/
theorem first_norm : afterFirst V0 (Proc.devRef .tc main_v29) = val_main_v35 (F := F) (V0 (Proc.devRef .tc main_arg1)) := by
  after_results_simp <;> rfl
/-- The vector of 128 zeros the three aggregating layers' kernels take as their bias. -/
theorem first_zeros : afterFirst V0 (Proc.devRef .tc main_v30)
    = broadcastInDim S128 ![] bcast_S_S128 (constant (F := F) S_ .f32 0x00000000#32) := by
  after_results_simp <;> rfl
/-- The projection's bias as a row. -/
theorem first_biasRow : afterFirst V0 (Proc.devRef .tc main_v31)
    = shapeCast S1x128 (V0 (Proc.devRef .tc main_arg3)) shapeCasts_S128_S1x128 := by
  after_results_simp <;> rfl

end First

/-! ## The stretches between and after the regions -/

section Later
variable (V : Valuation τ sig (Elt F))

/-- Between regions 0 and 1: the zeros as a row. -/
theorem zeroRow1 : StableHlo.after hostOps1 V (Proc.devRef .tc main_v33)
    = shapeCast S1x128 (V (Proc.devRef .tc main_v30)) shapeCasts_S128_S1x128 := by
  after_results; rfl
theorem zeroRow2 : StableHlo.after hostOps2 V (Proc.devRef .tc main_v54)
    = shapeCast S1x128 (V (Proc.devRef .tc main_v30)) shapeCasts_S128_S1x128 := by
  after_results_simp <;> rfl
theorem zeroRow3 : StableHlo.after hostOps3 V (Proc.devRef .tc main_v75)
    = shapeCast S1x128 (V (Proc.devRef .tc main_v30)) shapeCasts_S128_S1x128 := by
  after_results_simp <;> rfl

variable (x0 : (⟨Cert.ReferenceIdeal.S100000x128, .f32⟩ : BufTy).Contents (Elt F)) (x1 : (⟨Cert.ReferenceIdeal.S2x1600000, .i32⟩ : BufTy).Contents (Elt F))
  (x2 : (⟨Cert.ReferenceIdeal.S128x128, .f32⟩ : BufTy).Contents (Elt F)) (x3 : (⟨Cert.ReferenceIdeal.S128, .f32⟩ : BufTy).Contents (Elt F))
  (x4 : (⟨Cert.ReferenceIdeal.S128x128, .f32⟩ : BufTy).Contents (Elt F)) (x5 : (⟨Cert.ReferenceIdeal.S128, .f32⟩ : BufTy).Contents (Elt F))
  (x6 : (⟨Cert.ReferenceIdeal.S256x128, .f32⟩ : BufTy).Contents (Elt F)) (x7 : (⟨Cert.ReferenceIdeal.S128, .f32⟩ : BufTy).Contents (Elt F))
  (x8 : (⟨Cert.ReferenceIdeal.S384x128, .f32⟩ : BufTy).Contents (Elt F)) (x9 : (⟨Cert.ReferenceIdeal.S128, .f32⟩ : BufTy).Contents (Elt F))

/-- Layer 1 aggregated: gather the rows of the layer's linear image at the sources, scale by the edge weights,
    scatter-add at the destinations, add the bias, take the maximum with zero. -/
theorem layer1 (h5 : V (Proc.devRef .tc main_v5) = val_main_v11 (F := F) x1) (h6 : V (Proc.devRef .tc main_v6) = val_main_v12 (F := F) x1)
    (h29 : V (Proc.devRef .tc main_v29) = val_main_v35 (F := F) x1) (h34 : V (Proc.devRef .tc main_v34) = val_main_v9 (F := F) x0 x4)
    (ha5 : V (Proc.devRef .tc main_arg5) = x5) :
    StableHlo.after hostOps2 V (Proc.devRef .tc main_v52) = val_main_v52 (F := F) x0 x1 x4 x5 := by
  after_results_simp; rw [h5, h6, h29, h34, ha5]; rfl

/-- Layer 2's input: the projection and layer 1 side by side. -/
theorem input2 (h5 : V (Proc.devRef .tc main_v5) = val_main_v11 (F := F) x1) (h6 : V (Proc.devRef .tc main_v6) = val_main_v12 (F := F) x1)
    (h29 : V (Proc.devRef .tc main_v29) = val_main_v35 (F := F) x1) (h34 : V (Proc.devRef .tc main_v34) = val_main_v9 (F := F) x0 x4)
    (ha5 : V (Proc.devRef .tc main_arg5) = x5) (h32 : V (Proc.devRef .tc main_v32) = val_main_v8 (F := F) x0 x2 x3) :
    StableHlo.after hostOps2 V (Proc.devRef .tc main_v53) = val_main_v53 (F := F) x0 x1 x2 x3 x4 x5 := by
  have hC := layer1 V x0 x1 x4 x5 h5 h6 h29 h34 ha5
  unfold val_main_v53
  simp only [after_cons, after_nil] at hC ⊢
  rw [reshape_result_ne (h := by decide), binary_result]
  rw [reshape_result_ne (h := by decide), binary_result_ne (h := by decide)] at hC
  refine concat2_congr _ _ _ _ _ _ _ _ _ ?_ hC
  show (_ : Valuation τ sig (Elt F)) (Proc.devRef .tc main_v32) = _
  after_results_simp
  exact h32

/-- Layer 2 aggregated. -/
theorem layer2 (h5 : V (Proc.devRef .tc main_v5) = val_main_v11 (F := F) x1) (h6 : V (Proc.devRef .tc main_v6) = val_main_v12 (F := F) x1)
    (h29 : V (Proc.devRef .tc main_v29) = val_main_v35 (F := F) x1)
    (h55 : V (Proc.devRef .tc main_v55) = val_main_v54 (F := F) x0 x1 x2 x3 x4 x5 x6) (ha7 : V (Proc.devRef .tc main_arg7) = x7) :
    StableHlo.after hostOps3 V (Proc.devRef .tc main_v73) = val_main_v97 (F := F) x0 x1 x2 x3 x4 x5 x6 x7 := by
  after_results_simp; rw [h5, h6, h29, h55, ha7]; rfl

/-- Layer 3's input: the projection, layer 1 and layer 2 side by side. -/
theorem input3 (h5 : V (Proc.devRef .tc main_v5) = val_main_v11 (F := F) x1) (h6 : V (Proc.devRef .tc main_v6) = val_main_v12 (F := F) x1)
    (h29 : V (Proc.devRef .tc main_v29) = val_main_v35 (F := F) x1)
    (h55 : V (Proc.devRef .tc main_v55) = val_main_v54 (F := F) x0 x1 x2 x3 x4 x5 x6) (ha7 : V (Proc.devRef .tc main_arg7) = x7)
    (h32 : V (Proc.devRef .tc main_v32) = val_main_v8 (F := F) x0 x2 x3) (h52 : V (Proc.devRef .tc main_v52) = val_main_v52 (F := F) x0 x1 x4 x5) :
    StableHlo.after hostOps3 V (Proc.devRef .tc main_v74) = val_main_v98 (F := F) x0 x1 x2 x3 x4 x5 x6 x7 := by
  have hC := layer2 V x0 x1 x2 x3 x4 x5 x6 x7 h5 h6 h29 h55 ha7
  unfold val_main_v98
  simp only [after_cons, after_nil] at hC ⊢
  rw [reshape_result_ne _ _ _ _ _ _ _ (by decide), nary_result]
  rw [reshape_result_ne _ _ _ _ _ _ _ (by decide), nary_result_ne _ _ _ _ _ _ (by decide)] at hC
  refine concat3_congr _ _ _ _ _ _ _ _ _ _ _ _ ?_ ?_ hC
  · show (_ : Valuation τ sig (Elt F)) (Proc.devRef .tc main_v32) = _
    after_results_simp
    exact h32
  · show (_ : Valuation τ sig (Elt F)) (Proc.devRef .tc main_v52) = _
    after_results_simp
    exact h52

/-- Layer 3 aggregated: the program's result. -/
theorem layer3 (h5 : V (Proc.devRef .tc main_v5) = val_main_v11 (F := F) x1) (h6 : V (Proc.devRef .tc main_v6) = val_main_v12 (F := F) x1)
    (h29 : V (Proc.devRef .tc main_v29) = val_main_v35 (F := F) x1)
    (h76 : V (Proc.devRef .tc main_v76) = val_main_v99 (F := F) x0 x1 x2 x3 x4 x5 x6 x7 x8) (ha9 : V (Proc.devRef .tc main_arg9) = x9) :
    StableHlo.after hostOps4 V (Proc.devRef .tc main_v94) = val_main_v142 (F := F) x0 x1 x2 x3 x4 x5 x6 x7 x8 x9 := by
  after_results_simp; rw [h5, h6, h29, h76, ha9]; rfl

end Later

end Cert.KernelIdeal.Fr

end
-- ==== Proof.KI.Chain.lean ====
/-
  The kernel's program's result buffer as the reference's result function of the argument arrays, at the exact
  instance: the contents of the buffers are followed from item to item of @main — three stretches of host operations,
  then four matrix-product regions with a stretch after each — and at every item the buffers later items read are
  the reference's stage functions of the launch contents. A region's output array is the product of its row operand
  with its weight plus its bias row (the bias row of the three aggregating layers is zero), which is the reference's
  host product; a stretch applies the reference's own operations to such values.
-/
import proofs.«153277_j13786845020601_1_alg».proof.Proof.KI.Fold
import proofs.«153277_j13786845020601_1_alg».proof.Proof.KI.Val0
import proofs.«153277_j13786845020601_1_alg».proof.Proof.KI.Val1
import proofs.«153277_j13786845020601_1_alg».proof.Proof.KI.Val2
import proofs.«153277_j13786845020601_1_alg».proof.Proof.KI.Val3
import proofs.«153277_j13786845020601_1_alg».proof.Proof.KI.Join
import proofs.«153277_j13786845020601_1_alg».proof.Proof.KI.Join2
import proofs.«153277_j13786845020601_1_alg».proof.Proof.KI.Stages

noncomputable section

namespace Cert.KernelIdeal.Fr

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (c : Dev nD)

/-! ## What no item before region 0 writes keeps its launch contents -/

theorem at3_launch (r : Ref sig .tc) (h0 : r ∉ hostOps0_W) (h1 : r ∉ hostOps0_1_W) (h2 : r ∉ hostOps0_2_W) :
    W3 m c (Proc.devRef .tc r) = W0 m c (Proc.devRef .tc r) :=
  (W3_keep m c r h2).trans ((W2_keep m c r h1).trans (W1_keep m c r h0))

/-! ## When region 0 is entered -/

theorem at3_src : W3 m c (Proc.devRef .tc main_v5) = val_main_v11 (F := Ideal) (W0 m c (Proc.devRef .tc main_arg1)) := first_src (W0 m c)
theorem at3_dst : W3 m c (Proc.devRef .tc main_v6) = val_main_v12 (F := Ideal) (W0 m c (Proc.devRef .tc main_arg1)) := first_dst (W0 m c)
theorem at3_norm : W3 m c (Proc.devRef .tc main_v29) = val_main_v35 (F := Ideal) (W0 m c (Proc.devRef .tc main_arg1)) := first_norm (W0 m c)
theorem at3_zeros : W3 m c (Proc.devRef .tc main_v30) = broadcastInDim S128 ![] bcast_S_S128 (constant (F := Ideal) S_ .f32 0x00000000#32) :=
  first_zeros (W0 m c)
theorem at3_biasRow : W3 m c (Proc.devRef .tc main_v31) = shapeCast S1x128 (W0 m c (Proc.devRef .tc main_arg3)) shapeCasts_S128_S1x128 := first_biasRow (W0 m c)

/-! ## Region 0: the projection -/

/-- The projection: the maximum with zero of x · proj_W plus the bias row. -/
theorem out0 : W4 m c (Proc.devRef .tc main_v32) = val_main_v8 (F := Ideal) (W0 m c (Proc.devRef .tc main_arg0)) (W0 m c (Proc.devRef .tc main_arg2)) (W0 m c (Proc.devRef .tc main_arg3)) := by
  refine ((W4_arr m c 3).trans (final0 (V3 m) c)).trans ?_
  show mm0 (W3 m c (Proc.devRef .tc main_arg0)) (W3 m c (Proc.devRef .tc main_arg2)) (W3 m c (Proc.devRef .tc main_v31)) = _
  rw [at3_launch m c main_arg0 (by decide) (by decide) (by decide), at3_launch m c main_arg2 (by decide) (by decide) (by decide),
    at3_biasRow m c]
  exact mm0_ref _ _ _

/-! ## When region 1 is entered -/

theorem at5_x : W5 m c (Proc.devRef .tc main_arg0) = (W0 m c (Proc.devRef .tc main_arg0)) :=
  (W5_keep m c main_arg0 (by decide)).trans ((W4_in m c 0 rfl).trans (at3_launch m c main_arg0 (by decide) (by decide) (by decide)))
theorem at5_w : W5 m c (Proc.devRef .tc main_arg4) = (W0 m c (Proc.devRef .tc main_arg4)) :=
  (W5_keep m c main_arg4 (by decide)).trans ((W4_of_ne m c main_arg4 (by decide)).trans (at3_launch m c main_arg4 (by decide) (by decide) (by decide)))
theorem at4_zeros : W4 m c (Proc.devRef .tc main_v30) = broadcastInDim S128 ![] bcast_S_S128 (constant (F := Ideal) S_ .f32 0x00000000#32) :=
  (W4_of_ne m c main_v30 (by decide)).trans (at3_zeros m c)
theorem at5_zeroRow (j : S1x128.Idx) : (W5 m c (Proc.devRef .tc main_v33) : S1x128.Idx → EReal) j = (0 : EReal) := by
  rw [show W5 m c (Proc.devRef .tc main_v33) = _ from zeroRow1 (W4 m c), at4_zeros m c]
  exact zeroRow_apply j

/-! ## Region 1: layer 1's linear image -/

theorem out1 : W6 m c (Proc.devRef .tc main_v34) = val_main_v9 (F := Ideal) (W0 m c (Proc.devRef .tc main_arg0)) (W0 m c (Proc.devRef .tc main_arg4)) := by
  refine ((W6_arr m c 3).trans (final1 (V5 m) c)).trans ?_
  show mm1 (W5 m c (Proc.devRef .tc main_arg0)) (W5 m c (Proc.devRef .tc main_arg4)) (W5 m c (Proc.devRef .tc main_v33)) = _
  rw [mm1_join _ _ _ (at5_zeroRow m c), at5_x m c, at5_w m c]
  rfl

/-! ## When the stretch after region 1 is entered -/

theorem at6_src : W6 m c (Proc.devRef .tc main_v5) = val_main_v11 (F := Ideal) (W0 m c (Proc.devRef .tc main_arg1)) :=
  (W6_of_ne m c main_v5 (by decide)).trans ((W5_keep m c main_v5 (by decide)).trans ((W4_of_ne m c main_v5 (by decide)).trans (at3_src m c)))
theorem at6_dst : W6 m c (Proc.devRef .tc main_v6) = val_main_v12 (F := Ideal) (W0 m c (Proc.devRef .tc main_arg1)) :=
  (W6_of_ne m c main_v6 (by decide)).trans ((W5_keep m c main_v6 (by decide)).trans ((W4_of_ne m c main_v6 (by decide)).trans (at3_dst m c)))
theorem at6_norm : W6 m c (Proc.devRef .tc main_v29) = val_main_v35 (F := Ideal) (W0 m c (Proc.devRef .tc main_arg1)) :=
  (W6_of_ne m c main_v29 (by decide)).trans ((W5_keep m c main_v29 (by decide)).trans ((W4_of_ne m c main_v29 (by decide)).trans (at3_norm m c)))
theorem at6_zeros : W6 m c (Proc.devRef .tc main_v30) = broadcastInDim S128 ![] bcast_S_S128 (constant (F := Ideal) S_ .f32 0x00000000#32) :=
  (W6_of_ne m c main_v30 (by decide)).trans ((W5_keep m c main_v30 (by decide)).trans (at4_zeros m c))
theorem at6_proj : W6 m c (Proc.devRef .tc main_v32) = val_main_v8 (F := Ideal) (W0 m c (Proc.devRef .tc main_arg0)) (W0 m c (Proc.devRef .tc main_arg2)) (W0 m c (Proc.devRef .tc main_arg3)) :=
  (W6_of_ne m c main_v32 (by decide)).trans ((W5_keep m c main_v32 (by decide)).trans (out0 m c))
/-- An argument array no region up to region 1 stages keeps its launch contents. -/
theorem at6_launch (r : Ref sig .tc) (h0 : r ∉ hostOps0_W) (h1 : r ∉ hostOps0_1_W) (h2 : r ∉ hostOps0_2_W)
    (h4 : ∀ w, Pipeline.arrRef spec0 w ≠ r) (h5 : r ∉ hostOps1_W) (h6 : ∀ w, Pipeline.arrRef spec1 w ≠ r) :
    W6 m c (Proc.devRef .tc r) = W0 m c (Proc.devRef .tc r) :=
  (W6_of_ne m c r h6).trans ((W5_keep m c r h5).trans ((W4_of_ne m c r h4).trans (at3_launch m c r h0 h1 h2)))

/-! ## The stretch after region 1: layer 1, and layer 2's input -/

theorem at7_layer1 : W7 m c (Proc.devRef .tc main_v52) = val_main_v52 (F := Ideal) (W0 m c (Proc.devRef .tc main_arg0)) (W0 m c (Proc.devRef .tc main_arg1)) (W0 m c (Proc.devRef .tc main_arg4)) (W0 m c (Proc.devRef .tc main_arg5)) :=
  layer1 (W6 m c) _ _ _ _ (at6_src m c) (at6_dst m c) (at6_norm m c) (out1 m c)
    (at6_launch m c main_arg5 (by decide) (by decide) (by decide) (by decide) (by decide) (by decide))
theorem at7_input2 : W7 m c (Proc.devRef .tc main_v53)
    = val_main_v53 (F := Ideal) (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) :=
  input2 (W6 m c) _ _ _ _ _ _ (at6_src m c) (at6_dst m c) (at6_norm m c) (out1 m c)
    (at6_launch m c main_arg5 (by decide) (by decide) (by decide) (by decide) (by decide) (by decide)) (at6_proj m c)
theorem at7_w : W7 m c (Proc.devRef .tc main_arg6) = (W0 m c (Proc.devRef .tc main_arg6)) :=
  (W7_keep m c main_arg6 (by decide)).trans (at6_launch m c main_arg6 (by decide) (by decide) (by decide) (by decide) (by decide) (by decide))
theorem at7_zeroRow (j : S1x128.Idx) : (W7 m c (Proc.devRef .tc main_v54) : S1x128.Idx → EReal) j = (0 : EReal) := by
  rw [show W7 m c (Proc.devRef .tc main_v54) = _ from zeroRow2 (W6 m c), at6_zeros m c]
  exact zeroRow_apply j

/-! ## Region 2: layer 2's linear image -/

theorem out2 : W8 m c (Proc.devRef .tc main_v55)
    = val_main_v54 (F := Ideal) (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) := by
  refine ((W8_arr m c 3).trans (final2 (V7 m) c)).trans ?_
  show mm2 (W7 m c (Proc.devRef .tc main_v53)) (W7 m c (Proc.devRef .tc main_arg6)) (W7 m c (Proc.devRef .tc main_v54)) = _
  rw [mm2_join _ _ _ (at7_zeroRow m c), at7_input2 m c, at7_w m c]
  rfl

/-! ## When the stretch after region 2 is entered -/

theorem at8_src : W8 m c (Proc.devRef .tc main_v5) = val_main_v11 (F := Ideal) (W0 m c (Proc.devRef .tc main_arg1)) :=
  (W8_of_ne m c main_v5 (by decide)).trans ((W7_keep m c main_v5 (by decide)).trans (at6_src m c))
theorem at8_dst : W8 m c (Proc.devRef .tc main_v6) = val_main_v12 (F := Ideal) (W0 m c (Proc.devRef .tc main_arg1)) :=
  (W8_of_ne m c main_v6 (by decide)).trans ((W7_keep m c main_v6 (by decide)).trans (at6_dst m c))
theorem at8_norm : W8 m c (Proc.devRef .tc main_v29) = val_main_v35 (F := Ideal) (W0 m c (Proc.devRef .tc main_arg1)) :=
  (W8_of_ne m c main_v29 (by decide)).trans ((W7_keep m c main_v29 (by decide)).trans (at6_norm m c))
theorem at8_zeros : W8 m c (Proc.devRef .tc main_v30) = broadcastInDim S128 ![] bcast_S_S128 (constant (F := Ideal) S_ .f32 0x00000000#32) :=
  (W8_of_ne m c main_v30 (by decide)).trans ((W7_keep m c main_v30 (by decide)).trans (at6_zeros m c))
theorem at8_proj : W8 m c (Proc.devRef .tc main_v32) = val_main_v8 (F := Ideal) (W0 m c (Proc.devRef .tc main_arg0)) (W0 m c (Proc.devRef .tc main_arg2)) (W0 m c (Proc.devRef .tc main_arg3)) :=
  (W8_of_ne m c main_v32 (by decide)).trans ((W7_keep m c main_v32 (by decide)).trans (at6_proj m c))
theorem at8_layer1 : W8 m c (Proc.devRef .tc main_v52) = val_main_v52 (F := Ideal) (W0 m c (Proc.devRef .tc main_arg0)) (W0 m c (Proc.devRef .tc main_arg1)) (W0 m c (Proc.devRef .tc main_arg4)) (W0 m c (Proc.devRef .tc main_arg5)) :=
  (W8_of_ne m c main_v52 (by decide)).trans (at7_layer1 m c)
theorem at8_launch (r : Ref sig .tc) (h0 : r ∉ hostOps0_W) (h1 : r ∉ hostOps0_1_W) (h2 : r ∉ hostOps0_2_W)
    (h4 : ∀ w, Pipeline.arrRef spec0 w ≠ r) (h5 : r ∉ hostOps1_W) (h6 : ∀ w, Pipeline.arrRef spec1 w ≠ r)
    (h7 : r ∉ hostOps2_W) (h8 : ∀ w, Pipeline.arrRef spec2 w ≠ r) :
    W8 m c (Proc.devRef .tc r) = W0 m c (Proc.devRef .tc r) :=
  (W8_of_ne m c r h8).trans ((W7_keep m c r h7).trans (at6_launch m c r h0 h1 h2 h4 h5 h6))

/-! ## The stretch after region 2: layer 2, and layer 3's input -/

theorem at9_input3 : W9 m c (Proc.devRef .tc main_v74)
    = val_main_v98 (F := Ideal) (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) (W0 m c (Proc.devRef .tc main_arg7)) :=
  input3 (W8 m c) _ _ _ _ _ _ _ _ (at8_src m c) (at8_dst m c) (at8_norm m c) (out2 m c)
    (at8_launch m c main_arg7 (by decide) (by decide) (by decide) (by decide) (by decide) (by decide) (by decide) (by decide))
    (at8_proj m c) (at8_layer1 m c)
theorem at9_w : W9 m c (Proc.devRef .tc main_arg8) = (W0 m c (Proc.devRef .tc main_arg8)) :=
  (W9_keep m c main_arg8 (by decide)).trans
    (at8_launch m c main_arg8 (by decide) (by decide) (by decide) (by decide) (by decide) (by decide) (by decide) (by decide))
theorem at9_zeroRow (j : S1x128.Idx) : (W9 m c (Proc.devRef .tc main_v75) : S1x128.Idx → EReal) j = (0 : EReal) := by
  rw [show W9 m c (Proc.devRef .tc main_v75) = _ from zeroRow3 (W8 m c), at8_zeros m c]
  exact zeroRow_apply j

/-! ## Region 3: layer 3's linear image -/

theorem out3 : W10 m c (Proc.devRef .tc main_v76)
    = val_main_v99 (F := Ideal) (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) (W0 m c (Proc.devRef .tc main_arg7)) (W0 m c (Proc.devRef .tc main_arg8)) := by
  refine ((W10_arr m c 3).trans (final3 (V9 m) c)).trans ?_
  show mm3 (W9 m c (Proc.devRef .tc main_v74)) (W9 m c (Proc.devRef .tc main_arg8)) (W9 m c (Proc.devRef .tc main_v75)) = _
  rw [mm3_join _ _ _ (at9_zeroRow m c), at9_input3 m c, at9_w m c]
  rfl

/-! ## The last stretch: layer 3, the result -/

/-- THE RESULT: the program's result buffer after the last item is the reference's result function of the launch
    contents of the ten argument arrays. -/
theorem result_eq : W11 m c (Proc.devRef .tc main_v94)
    = val_main_v142 (F := Ideal) (W0 m c (Proc.devRef .tc main_arg0)) (W0 m c (Proc.devRef .tc main_arg1)) (W0 m c (Proc.devRef .tc main_arg2)) (W0 m c (Proc.devRef .tc main_arg3)) (W0 m c (Proc.devRef .tc main_arg4)) (W0 m c (Proc.devRef .tc main_arg5)) (W0 m c (Proc.devRef .tc main_arg6)) (W0 m c (Proc.devRef .tc main_arg7)) (W0 m c (Proc.devRef .tc main_arg8)) (W0 m c (Proc.devRef .tc main_arg9)) :=
  layer3 (W10 m c) _ _ _ _ _ _ _ _ _ _
    ((W10_of_ne m c main_v5 (by decide)).trans ((W9_keep m c main_v5 (by decide)).trans (at8_src m c)))
    ((W10_of_ne m c main_v6 (by decide)).trans ((W9_keep m c main_v6 (by decide)).trans (at8_dst m c)))
    ((W10_of_ne m c main_v29 (by decide)).trans ((W9_keep m c main_v29 (by decide)).trans (at8_norm m c)))
    (out3 m c)
    ((W10_of_ne m c main_arg9 (by decide)).trans ((W9_keep m c main_arg9 (by decide)).trans
      (at8_launch m c main_arg9 (by decide) (by decide) (by decide) (by decide) (by decide) (by decide) (by decide) (by decide))))

end Cert.KernelIdeal.Fr

end
-- ==== Proof.RefArgs.lean ====
import proofs.«153277_j13786845020601_1_alg».proof.Proof.RefOps
import Idealize.ShloMosaic.Lib.StableHlo.Run

/-! # The reference program leaves its arguments as it found them

The reference program is a line of 190 host operations. Each operation writes exactly one buffer, its result. The
results are 190 distinct intermediate buffers, none of which is an argument of the program. A buffer that no operation
of a line writes holds after the line what it held before it; so each of the ten argument buffers ends with its launch
contents, whatever the valuation the line starts from.

The argument is three steps: the list of written buffers (`ops_W`, one entry per operation, in program order); every
operation's write set lies in that list (`ops_writes`, a table of 190 cases, each "the write set is the singleton of
the operation's result, and that result is in the list"); and a buffer outside the list is kept (`arg_kept`). -/

-- membership in a list of 190 references is decided entry by entry
set_option maxRecDepth 8192

noncomputable section

namespace Cert.ReferenceIdeal.Hand

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The buffer each of the 190 operations writes, in program order. -/
abbrev ops_W : List (Ref sig .tc) :=
  [main_v0, main_v1, main_v2, main_v3, main_v4, main_v5, main_v6, main_v7, main_call0_cst, main_call0_v0, main_v8, main_v9, main_v10, main_v11, main_v12, main_cst, main_v13, main_cst_0, main_v14, main_v15, main_v16, main_cst_1, main_v17, main_v18, main_v19, main_cst_2, main_call1_v0, main_call1_v1, main_v20, main_c, main_v21, main_v22, main_c_3, main_v23, main_v24, main_v25, main_v26, main_v27, main_c_4, main_v28, main_v29, main_c_5, main_v30, main_v31, main_v32, main_v33, main_v34, main_v35, main_c_6, main_v36, main_v37, main_c_7, main_v38, main_v39, main_v40, main_v41, main_v42, main_v43, main_v44, main_v45, main_cst_8, main_v46, main_v47, main_v48, main_v49, main_v50, main_v51, main_call2_cst, main_call2_v0, main_v52, main_v53, main_v54, main_v55, main_v56, main_v57, main_cst_9, main_v58, main_cst_10, main_v59, main_v60, main_v61, main_cst_11, main_v62, main_v63, main_v64, main_cst_12, main_call3_v0, main_call3_v1, main_v65, main_c_13, main_v66, main_v67, main_c_14, main_v68, main_v69, main_v70, main_v71, main_v72, main_c_15, main_v73, main_v74, main_c_16, main_v75, main_v76, main_v77, main_v78, main_v79, main_v80, main_c_17, main_v81, main_v82, main_c_18, main_v83, main_v84, main_v85, main_v86, main_v87, main_v88, main_v89, main_v90, main_cst_19, main_v91, main_v92, main_v93, main_v94, main_v95, main_v96, main_call4_cst, main_call4_v0, main_v97, main_v98, main_v99, main_v100, main_v101, main_v102, main_cst_20, main_v103, main_cst_21, main_v104, main_v105, main_v106, main_cst_22, main_v107, main_v108, main_v109, main_cst_23, main_call5_v0, main_call5_v1, main_v110, main_c_24, main_v111, main_v112, main_c_25, main_v113, main_v114, main_v115, main_v116, main_v117, main_c_26, main_v118, main_v119, main_c_27, main_v120, main_v121, main_v122, main_v123, main_v124, main_v125, main_c_28, main_v126, main_v127, main_c_29, main_v128, main_v129, main_v130, main_v131, main_v132, main_v133, main_v134, main_v135, main_cst_30, main_v136, main_v137, main_v138, main_v139, main_v140, main_v141, main_call6_cst, main_call6_v0, main_v142]

/-- An operation whose write set is the singleton of a buffer in `ops_W` writes inside `ops_W`. -/
theorem written_mem {op : HloOp τ sig (Elt F)} (y : Ref sig .tc) (hw : op.writes = {Proc.devRef .tc y}) (hy : y ∈ ops_W) :
    op.writes ⊆ (ops_W.map (Proc.devRef (τ := τ) .tc)).toFinset := by
  rw [hw, Finset.singleton_subset_iff, List.mem_toFinset]
  exact List.mem_map_of_mem hy

/-- Every operation of the line writes inside `ops_W`: operation by operation, its write set is its result buffer
    alone, and that buffer is the entry of `ops_W` at the operation's position. -/
theorem ops_writes : (ops : List (HloOp τ sig (Elt F))).Forall fun op => op.writes ⊆ (ops_W.map (Proc.devRef (τ := τ) .tc)).toFinset :=
  ⟨
   written_mem main_v0 rfl (by decide),
   written_mem main_v1 rfl (by decide),
   written_mem main_v2 rfl (by decide),
   written_mem main_v3 rfl (by decide),
   written_mem main_v4 rfl (by decide),
   written_mem main_v5 rfl (by decide),
   written_mem main_v6 rfl (by decide),
   written_mem main_v7 rfl (by decide),
   written_mem main_call0_cst rfl (by decide),
   written_mem main_call0_v0 rfl (by decide),
   written_mem main_v8 rfl (by decide),
   written_mem main_v9 rfl (by decide),
   written_mem main_v10 rfl (by decide),
   written_mem main_v11 rfl (by decide),
   written_mem main_v12 rfl (by decide),
   written_mem main_cst rfl (by decide),
   written_mem main_v13 rfl (by decide),
   written_mem main_cst_0 rfl (by decide),
   written_mem main_v14 rfl (by decide),
   written_mem main_v15 rfl (by decide),
   written_mem main_v16 rfl (by decide),
   written_mem main_cst_1 rfl (by decide),
   written_mem main_v17 rfl (by decide),
   written_mem main_v18 rfl (by decide),
   written_mem main_v19 rfl (by decide),
   written_mem main_cst_2 rfl (by decide),
   written_mem main_call1_v0 rfl (by decide),
   written_mem main_call1_v1 rfl (by decide),
   written_mem main_v20 rfl (by decide),
   written_mem main_c rfl (by decide),
   written_mem main_v21 rfl (by decide),
   written_mem main_v22 rfl (by decide),
   written_mem main_c_3 rfl (by decide),
   written_mem main_v23 rfl (by decide),
   written_mem main_v24 rfl (by decide),
   written_mem main_v25 rfl (by decide),
   written_mem main_v26 rfl (by decide),
   written_mem main_v27 rfl (by decide),
   written_mem main_c_4 rfl (by decide),
   written_mem main_v28 rfl (by decide),
   written_mem main_v29 rfl (by decide),
   written_mem main_c_5 rfl (by decide),
   written_mem main_v30 rfl (by decide),
   written_mem main_v31 rfl (by decide),
   written_mem main_v32 rfl (by decide),
   written_mem main_v33 rfl (by decide),
   written_mem main_v34 rfl (by decide),
   written_mem main_v35 rfl (by decide),
   written_mem main_c_6 rfl (by decide),
   written_mem main_v36 rfl (by decide),
   written_mem main_v37 rfl (by decide),
   written_mem main_c_7 rfl (by decide),
   written_mem main_v38 rfl (by decide),
   written_mem main_v39 rfl (by decide),
   written_mem main_v40 rfl (by decide),
   written_mem main_v41 rfl (by decide),
   written_mem main_v42 rfl (by decide),
   written_mem main_v43 rfl (by decide),
   written_mem main_v44 rfl (by decide),
   written_mem main_v45 rfl (by decide),
   written_mem main_cst_8 rfl (by decide),
   written_mem main_v46 rfl (by decide),
   written_mem main_v47 rfl (by decide),
   written_mem main_v48 rfl (by decide),
   written_mem main_v49 rfl (by decide),
   written_mem main_v50 rfl (by decide),
   written_mem main_v51 rfl (by decide),
   written_mem main_call2_cst rfl (by decide),
   written_mem main_call2_v0 rfl (by decide),
   written_mem main_v52 rfl (by decide),
   written_mem main_v53 rfl (by decide),
   written_mem main_v54 rfl (by decide),
   written_mem main_v55 rfl (by decide),
   written_mem main_v56 rfl (by decide),
   written_mem main_v57 rfl (by decide),
   written_mem main_cst_9 rfl (by decide),
   written_mem main_v58 rfl (by decide),
   written_mem main_cst_10 rfl (by decide),
   written_mem main_v59 rfl (by decide),
   written_mem main_v60 rfl (by decide),
   written_mem main_v61 rfl (by decide),
   written_mem main_cst_11 rfl (by decide),
   written_mem main_v62 rfl (by decide),
   written_mem main_v63 rfl (by decide),
   written_mem main_v64 rfl (by decide),
   written_mem main_cst_12 rfl (by decide),
   written_mem main_call3_v0 rfl (by decide),
   written_mem main_call3_v1 rfl (by decide),
   written_mem main_v65 rfl (by decide),
   written_mem main_c_13 rfl (by decide),
   written_mem main_v66 rfl (by decide),
   written_mem main_v67 rfl (by decide),
   written_mem main_c_14 rfl (by decide),
   written_mem main_v68 rfl (by decide),
   written_mem main_v69 rfl (by decide),
   written_mem main_v70 rfl (by decide),
   written_mem main_v71 rfl (by decide),
   written_mem main_v72 rfl (by decide),
   written_mem main_c_15 rfl (by decide),
   written_mem main_v73 rfl (by decide),
   written_mem main_v74 rfl (by decide),
   written_mem main_c_16 rfl (by decide),
   written_mem main_v75 rfl (by decide),
   written_mem main_v76 rfl (by decide),
   written_mem main_v77 rfl (by decide),
   written_mem main_v78 rfl (by decide),
   written_mem main_v79 rfl (by decide),
   written_mem main_v80 rfl (by decide),
   written_mem main_c_17 rfl (by decide),
   written_mem main_v81 rfl (by decide),
   written_mem main_v82 rfl (by decide),
   written_mem main_c_18 rfl (by decide),
   written_mem main_v83 rfl (by decide),
   written_mem main_v84 rfl (by decide),
   written_mem main_v85 rfl (by decide),
   written_mem main_v86 rfl (by decide),
   written_mem main_v87 rfl (by decide),
   written_mem main_v88 rfl (by decide),
   written_mem main_v89 rfl (by decide),
   written_mem main_v90 rfl (by decide),
   written_mem main_cst_19 rfl (by decide),
   written_mem main_v91 rfl (by decide),
   written_mem main_v92 rfl (by decide),
   written_mem main_v93 rfl (by decide),
   written_mem main_v94 rfl (by decide),
   written_mem main_v95 rfl (by decide),
   written_mem main_v96 rfl (by decide),
   written_mem main_call4_cst rfl (by decide),
   written_mem main_call4_v0 rfl (by decide),
   written_mem main_v97 rfl (by decide),
   written_mem main_v98 rfl (by decide),
   written_mem main_v99 rfl (by decide),
   written_mem main_v100 rfl (by decide),
   written_mem main_v101 rfl (by decide),
   written_mem main_v102 rfl (by decide),
   written_mem main_cst_20 rfl (by decide),
   written_mem main_v103 rfl (by decide),
   written_mem main_cst_21 rfl (by decide),
   written_mem main_v104 rfl (by decide),
   written_mem main_v105 rfl (by decide),
   written_mem main_v106 rfl (by decide),
   written_mem main_cst_22 rfl (by decide),
   written_mem main_v107 rfl (by decide),
   written_mem main_v108 rfl (by decide),
   written_mem main_v109 rfl (by decide),
   written_mem main_cst_23 rfl (by decide),
   written_mem main_call5_v0 rfl (by decide),
   written_mem main_call5_v1 rfl (by decide),
   written_mem main_v110 rfl (by decide),
   written_mem main_c_24 rfl (by decide),
   written_mem main_v111 rfl (by decide),
   written_mem main_v112 rfl (by decide),
   written_mem main_c_25 rfl (by decide),
   written_mem main_v113 rfl (by decide),
   written_mem main_v114 rfl (by decide),
   written_mem main_v115 rfl (by decide),
   written_mem main_v116 rfl (by decide),
   written_mem main_v117 rfl (by decide),
   written_mem main_c_26 rfl (by decide),
   written_mem main_v118 rfl (by decide),
   written_mem main_v119 rfl (by decide),
   written_mem main_c_27 rfl (by decide),
   written_mem main_v120 rfl (by decide),
   written_mem main_v121 rfl (by decide),
   written_mem main_v122 rfl (by decide),
   written_mem main_v123 rfl (by decide),
   written_mem main_v124 rfl (by decide),
   written_mem main_v125 rfl (by decide),
   written_mem main_c_28 rfl (by decide),
   written_mem main_v126 rfl (by decide),
   written_mem main_v127 rfl (by decide),
   written_mem main_c_29 rfl (by decide),
   written_mem main_v128 rfl (by decide),
   written_mem main_v129 rfl (by decide),
   written_mem main_v130 rfl (by decide),
   written_mem main_v131 rfl (by decide),
   written_mem main_v132 rfl (by decide),
   written_mem main_v133 rfl (by decide),
   written_mem main_v134 rfl (by decide),
   written_mem main_v135 rfl (by decide),
   written_mem main_cst_30 rfl (by decide),
   written_mem main_v136 rfl (by decide),
   written_mem main_v137 rfl (by decide),
   written_mem main_v138 rfl (by decide),
   written_mem main_v139 rfl (by decide),
   written_mem main_v140 rfl (by decide),
   written_mem main_v141 rfl (by decide),
   written_mem main_call6_cst rfl (by decide),
   written_mem main_call6_v0 rfl (by decide),
   written_mem main_v142 rfl (by decide)⟩

/-- A buffer that is not in `ops_W` holds after the line what it held before it. -/
theorem arg_kept (V : Valuation τ sig (Elt F)) (r : Ref sig .tc) (h : r ∉ ops_W) :
    StableHlo.after ops V (Proc.devRef .tc r) = V (Proc.devRef .tc r) :=
  StableHlo.after_of_writes_sub ops _ ops_writes h

/-! ## The ten arguments -/

theorem after_main_arg0 (V : Valuation τ sig (Elt F)) :
    StableHlo.after ops V (Proc.devRef .tc main_arg0) = V (Proc.devRef .tc main_arg0) := arg_kept V main_arg0 (by decide)
theorem after_main_arg1 (V : Valuation τ sig (Elt F)) :
    StableHlo.after ops V (Proc.devRef .tc main_arg1) = V (Proc.devRef .tc main_arg1) := arg_kept V main_arg1 (by decide)
theorem after_main_arg2 (V : Valuation τ sig (Elt F)) :
    StableHlo.after ops V (Proc.devRef .tc main_arg2) = V (Proc.devRef .tc main_arg2) := arg_kept V main_arg2 (by decide)
theorem after_main_arg3 (V : Valuation τ sig (Elt F)) :
    StableHlo.after ops V (Proc.devRef .tc main_arg3) = V (Proc.devRef .tc main_arg3) := arg_kept V main_arg3 (by decide)
theorem after_main_arg4 (V : Valuation τ sig (Elt F)) :
    StableHlo.after ops V (Proc.devRef .tc main_arg4) = V (Proc.devRef .tc main_arg4) := arg_kept V main_arg4 (by decide)
theorem after_main_arg5 (V : Valuation τ sig (Elt F)) :
    StableHlo.after ops V (Proc.devRef .tc main_arg5) = V (Proc.devRef .tc main_arg5) := arg_kept V main_arg5 (by decide)
theorem after_main_arg6 (V : Valuation τ sig (Elt F)) :
    StableHlo.after ops V (Proc.devRef .tc main_arg6) = V (Proc.devRef .tc main_arg6) := arg_kept V main_arg6 (by decide)
theorem after_main_arg7 (V : Valuation τ sig (Elt F)) :
    StableHlo.after ops V (Proc.devRef .tc main_arg7) = V (Proc.devRef .tc main_arg7) := arg_kept V main_arg7 (by decide)
theorem after_main_arg8 (V : Valuation τ sig (Elt F)) :
    StableHlo.after ops V (Proc.devRef .tc main_arg8) = V (Proc.devRef .tc main_arg8) := arg_kept V main_arg8 (by decide)
theorem after_main_arg9 (V : Valuation τ sig (Elt F)) :
    StableHlo.after ops V (Proc.devRef .tc main_arg9) = V (Proc.devRef .tc main_arg9) := arg_kept V main_arg9 (by decide)

end Cert.ReferenceIdeal.Hand

end
-- ==== Proof.RefHand.lean ====
import proofs.«153277_j13786845020601_1_alg».proof.Proof.RefOps
import proofs.«153277_j13786845020601_1_alg».proof.Proof.RefRead
import proofs.«153277_j13786845020601_1_alg».proof.Proof.RefArgs
import proofs.«153277_j13786845020601_1_alg».proof.Proof.LibConcatPieces
import Idealize.ShloMosaic.Lib.StableHlo.Run

/-! # The reference program's run, read back

The reference program is a straight line of 190 host operations, each writing one buffer of its own from the
buffers earlier operations wrote (or the arguments). Run from any memory, it ends with every buffer at the fold of
the operations' results over the launch contents. This file reads two things off that fold, over ANY starting
contents `V`:

* the result buffer `main_v142` holds the last stage function `val_main_v142` of the ten arguments' contents: each
  operation's result, looked up at its own buffer, is its function applied to what the fold holds at the buffers it
  reads, and a buffer looked up at an operation that does not write it is what the fold held before; followed
  back from the last operation to the arguments this spells out the composed term, which is the stage functions'
  composition unfolded;
* (from the sibling module) no operation writes an argument buffer, so each argument holds what it held.

A concatenation takes its pieces as a list of (shape, contents) pairs, and the fact that the shapes fit is stated
about that list; so the contents cannot be rewritten in place. `cat2` and `cat3` are the same concatenations with
the pieces as plain arguments, which can. -/

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

open Cert.LibConcatPieces

/-- The one operation with three operands, the third layer's input (the projection and the first two layers' outputs
    side by side): its result at its own buffer, each operand's contents read at the operand's own buffer. -/
theorem v98_result (h : Shape.Concatenates [S100000x128, S100000x128, S100000x128] S100000x384 1) (hxs hy) (G : Valuation τ sig (Elt F)) :
    (nary (τ := τ) ![main_v8, main_v52, main_v97] main_v98 (fun u => concatenate S100000x384 1 [⟨S100000x128, u 0⟩, ⟨S100000x128, u 1⟩, ⟨S100000x128, u 2⟩] h) hxs hy).result G (no_index (Proc.devRef .tc main_v98))
      = cat3 S100000x384 1 S100000x128 S100000x128 S100000x128 h (G (Proc.devRef .tc main_v8)) (G (Proc.devRef .tc main_v52)) (G (Proc.devRef .tc main_v97)) := by
  rw [nary_result]; rfl

/-! ## The result buffer -/

set_option maxRecDepth 8192 in
set_option maxHeartbeats 40000000 in
/-- After the 190 operations, from any contents `V`, the result buffer holds the last stage function of the ten
    arguments' contents in `V`. One pass from the last operation back: an operation's result at its own buffer is its
    function of the operands' contents, a concatenation first being restated with its pieces as plain arguments;
    at any other buffer (the references differ, which is decided) it is what was there before. What is left is the
    composed term over `V` at the arguments, which is the stage functions unfolded. -/
theorem after_main_v142 (V : Valuation τ sig (Elt F)) :
    StableHlo.after ops V (Proc.devRef .tc main_v142) = val_main_v142 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  simp (disch := decide) only [after_cons, after_nil, ↓cat2_intro, ↓cat3_intro, v98_result,
      nullary_result', unary_result', binary_result', ternary_result', quaternary_result', reshape_result',
      nullary_result_ne', unary_result_ne', binary_result_ne', ternary_result_ne', quaternary_result_ne', reshape_result_ne',
      nary_result_ne']
  rfl

/-! ## The run -/

/-- On every device, for any float values, from any memory with zero counters: every weakly fair execution of the
    reference program terminates with the result buffer at the last stage function of the arguments' launch contents
    and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v142) = val_main_v142 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v142).trans (after_main_v142 _),
      (h c main_arg0).trans (after_main_arg0 _),
      (h c main_arg1).trans (after_main_arg1 _),
      (h c main_arg2).trans (after_main_arg2 _),
      (h c main_arg3).trans (after_main_arg3 _),
      (h c main_arg4).trans (after_main_arg4 _),
      (h c main_arg5).trans (after_main_arg5 _),
      (h c main_arg6).trans (after_main_arg6 _),
      (h c main_arg7).trans (after_main_arg7 _),
      (h c main_arg8).trans (after_main_arg8 _),
      (h c main_arg9).trans (after_main_arg9 _)⟩)
    (run_seq scopedRefs_eq scopedSems_eq defs main (fun _ => ops) main_eq (fun _ => ops_sub) m ρ)

/-- info: 'Cert.ReferenceIdeal.Hand.run' depends on axioms: [propext, Classical.choice, Quot.sound] -/
#guard_msgs in #print axioms run

end Cert.ReferenceIdeal.Hand

end
-- ==== Proof.lean ====
/-
  The certificate's five claims for a three-layer graph convolution whose four matrix products run as kernels
  over row blocks of 4000 nodes.

  Each kernel region computes, block by block, the product of its row operand with a whole weight matrix plus a bias
  row (the projection then takes the maximum with zero); the blocks tile the 100000 rows, so each region's output
  array is the whole product. Around the regions the program gathers a layer's linear image at the edge sources,
  scales it by the symmetric degree weights, scatter-adds it at the edge targets, adds the bias and takes the
  maximum with zero. The reference applies the same host operations to host matrix products. Over the extended
  reals a change of float format is the identity, a matrix product into a zero accumulator is the plain sum of
  products, and adding the zero bias row changes nothing, so the two results are the same function of the
  argument arrays; no law used needs the inputs to be finite.

  frame_Kernel, frame_KernelIdeal: the run of @main's eleven items over the fold of buffer contents (Proof/KB/Run.lean at the
  word-level instance, Proof/KI/Run.lean at the exact one). frame_ReferenceIdeal: the reference's run (Proof/RefHand.lean) with the
  result dropped. preserves: the idealization rewrote nothing. algebraic: the kernel's run with its result buffer read back
  (Proof/KI/Run.lean), that buffer as the reference's result function (Proof/KI/Chain.lean), and the reference's run.
-/
import proofs.«153277_j13786845020601_1_alg».proof.Defs
import proofs.«153277_j13786845020601_1_alg».proof.Proof.Gen.Kernel
import proofs.«153277_j13786845020601_1_alg».proof.Proof.Gen.KernelIdeal
import proofs.«153277_j13786845020601_1_alg».proof.Proof.Gen.ReferenceIdeal
import proofs.«153277_j13786845020601_1_alg».proof.Proof.Gen.Pre_finite_inputs
import proofs.«153277_j13786845020601_1_alg».proof.Proof.KB.Run
import proofs.«153277_j13786845020601_1_alg».proof.Proof.KI.Run
import proofs.«153277_j13786845020601_1_alg».proof.Proof.KI.Chain
import proofs.«153277_j13786845020601_1_alg».proof.Proof.RefHand
import proofs.«153277_j13786845020601_1_alg».proof.Proof.RefRead

noncomputable section

namespace Cert.Proof

open Idealize.ShloMosaic Idealize.ShloMosaic.TcCoe Idealize.SL.Sem

theorem frame_kernel : Cert.frame_Kernel := fun m ρ _ => Cert.Kernel.Fr.frame_main (F := Bits) m ρ

theorem frame_kernelIdeal : Cert.frame_KernelIdeal := fun m ρ _ => Cert.KernelIdeal.Fr.frame_main (F := Ideal) m ρ

theorem frame_referenceIdeal : Cert.frame_ReferenceIdeal := fun m ρ _ =>
  (θ_run Cert.ReferenceIdeal.defs _ _).mono (fun _ h c => (h c).2) (Cert.ReferenceIdeal.Hand.run (F := Ideal) m ρ)

/-- Both programs end with the reference's result function of the (agreeing) argument arrays. -/
theorem algebraic : Cert.algebraic_KernelIdeal_ReferenceIdeal := by
  intro m ρ m' ρ' _ hagree
  refine ⟨fun c => Cert.ReferenceIdeal.Read.val_main_v142 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Fr.result_eq m c), (h c).2⟩)
      (Cert.KernelIdeal.Fr.run_main (F := Ideal) m ρ)
  · refine (θ_run Cert.ReferenceIdeal.defs _ _).mono (fun _ h c => ⟨?_, (h c).2⟩)
      (Cert.ReferenceIdeal.Hand.run (F := Ideal) m' ρ')
    obtain ⟨e0, e1, e2, e3, e4, e5, e6, e7, e8, e9⟩ := hagree c
    rw [(h c).1, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
